-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x5x6 : Shape := ⟨4, ![128, 512, 5, 6]⟩
abbrev S4096x15360 : Shape := ⟨2, ![4096, 15360]⟩
abbrev S4096 : Shape := ⟨1, ![4096]⟩
abbrev S2048x4096 : Shape := ⟨2, ![2048, 4096]⟩
abbrev S2048 : Shape := ⟨1, ![2048]⟩
abbrev S_ : Shape := ⟨0, ![]⟩

class Facts : Prop where
  bcast_S_S128x512x5x6 : S_.BroadcastsInDim S128x512x5x6 (![] : Fin 0 → Fin S128x512x5x6.rank)
  reducesTo_S128x512x5x6_S_d0_1_2_3 : S128x512x5x6.ReducesTo [0, 1, 2, 3] S_
  h_S_ : 0 < S_.numel
  bcast_S_S4096x15360 : S_.BroadcastsInDim S4096x15360 (![] : Fin 0 → Fin S4096x15360.rank)
  reducesTo_S4096x15360_S_d0_1 : S4096x15360.ReducesTo [0, 1] S_
  bcast_S_S4096 : S_.BroadcastsInDim S4096 (![] : Fin 0 → Fin S4096.rank)
  reducesTo_S4096_S_d0 : S4096.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x4096 .f32) (main_arg5 : FVec F S2048 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S128x512x5x6 .f32) (main_arg1 : FVec F S128x512x5x6 .f32) (main_arg2 : FVec F S4096x15360 .f32) (main_arg3 : FVec F S4096 .f32) (main_arg4 : FVec F S2048x4096 .f32) (main_arg5 : FVec F S2048 .f32) : IVec S_ 1 :=
  let main_v0 : FVec F S128x512x5x6 .f32 := Host.absf main_arg0
  let main_cst : FVec F S_ .f32 := constant S_ .f32 0x7F800000#32
  let main_v1 : FVec F S128x512x5x6 .f32 := broadcastInDim S128x512x5x6 ![] bcast_S_S128x512x5x6 main_cst
  let main_v2 : IVec S128x512x5x6 1 := cmpf .olt main_v0 main_v1
  let main_c : IVec S_ 1 := constantI S_ 1 1#1
  let main_v3 : IVec S_ 1 := (fun x v => Host.reduce IntOp.andi x v reducesTo_S128x512x5x6_S_d0_1_2_3 h_S_) main_v2 main_c
  let main_v4 : FVec F S128x512x5x6 .f32 := Host.absf main_arg1
  let main_cst_0 : FVec F S_ .f32 := constant S_ .f32 0x7F800000#32
  let main_v5 : FVec F S128x512x5x6 .f32 := broadcastInDim S128x512x5x6 ![] bcast_S_S128x512x5x6 main_cst_0
  let main_v6 : IVec S128x512x5x6 1 := cmpf .olt main_v4 main_v5
  let main_c_1 : IVec S_ 1 := constantI S_ 1 1#1
  let main_v7 : IVec S_ 1 := (fun x v => Host.reduce IntOp.andi x v reducesTo_S128x512x5x6_S_d0_1_2_3 h_S_) main_v6 main_c_1
  let main_v8 : IVec S_ 1 := andi main_v3 main_v7
  let main_v9 : FVec F S4096x15360 .f32 := Host.absf main_arg2
  let main_cst_2 : FVec F S_ .f32 := constant S_ .f32 0x7F800000#32
  let main_v10 : FVec F S4096x15360 .f32 := broadcastInDim S4096x15360 ![] bcast_S_S4096x15360 main_cst_2
  let main_v11 : IVec S4096x15360 1 := cmpf .olt main_v9 main_v10
  let main_c_3 : IVec S_ 1 := constantI S_ 1 1#1
  let main_v12 : IVec S_ 1 := (fun x v => Host.reduce IntOp.andi x v reducesTo_S4096x15360_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S128x512x5x6 : Shape := ⟨4, ![128, 512, 5, 6]⟩
abbrev S4096x15360 : Shape := ⟨2, ![4096, 15360]⟩
abbrev S4096 : Shape := ⟨1, ![4096]⟩
abbrev S2048x4096 : Shape := ⟨2, ![2048, 4096]⟩
abbrev S2048 : Shape := ⟨1, ![2048]⟩
abbrev S128x15360 : Shape := ⟨2, ![128, 15360]⟩
abbrev S256x15360 : Shape := ⟨2, ![256, 15360]⟩
abbrev S256x4096 : Shape := ⟨2, ![256, 4096]⟩
abbrev S1024x1920 : Shape := ⟨2, ![1024, 1920]⟩
abbrev S1024 : Shape := ⟨1, ![1024]⟩
abbrev S256x1024 : Shape := ⟨2, ![256, 1024]⟩
abbrev S256x1920 : Shape := ⟨2, ![256, 1920]⟩
abbrev S1x1024 : Shape := ⟨2, ![1, 1024]⟩
abbrev S256x2048 : Shape := ⟨2, ![256, 2048]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S2048x256 : Shape := ⟨2, ![2048, 256]⟩
abbrev S256x256 : Shape := ⟨2, ![256, 256]⟩
abbrev S128 : Shape := ⟨1, ![128]⟩
abbrev S128x1 : Shape := ⟨2, ![128, 1]⟩
abbrev S128x2 : Shape := ⟨2, ![128, 2]⟩

abbrev nBuf : Space → Nat
  | .hbm => 99
  | .vmem => 16
  | .smem => 0
  | _ => 0

abbrev bufTy : (tb : Table) → Fin (tcTables nBuf tb) → BufTy
  | .hbm, ⟨0, _⟩ => ⟨S128x512x5x6, .f32⟩
  | .hbm, ⟨1, _⟩ => ⟨S128x512x5x6, .f32⟩
  | .hbm, ⟨2, _⟩ => ⟨S4096x15360, .f32⟩
  | .hbm, ⟨3, _⟩ => ⟨S4096, .f32⟩
  | .hbm, ⟨4, _⟩ => ⟨S2048x4096, .f32⟩
  | .hbm, ⟨5, _⟩ => ⟨S2048, .f32⟩
  | .hbm, ⟨6, _⟩ => ⟨S128x512x5x6, .f32⟩
  | .hbm, ⟨7, _⟩ => ⟨S128x15360, .f32⟩
  | .hbm, ⟨8, _⟩ => ⟨S128x15360, .f32⟩
  | .hbm, ⟨9, _⟩ => ⟨S256x15360, .f32⟩
  | .hbm, ⟨10, _⟩ => ⟨S256x15360, .bf16⟩
  | .hbm, ⟨11, _⟩ => ⟨S256x4096, .bf16⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x2048, .f32⟩
  | .hbm, ⟨22, _⟩ => ⟨S256x2048, .f32⟩
  | .hbm, ⟨23, _⟩ => ⟨S2048x256, .f32⟩
  | .hbm, ⟨24, _⟩ => ⟨S256x256, .f32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S128x1, .i32⟩
  | .hbm, ⟨45, _⟩ => ⟨S128x1, .i32⟩
  | .hbm, ⟨46, _⟩ => ⟨S128x2, .i32⟩
  | .hbm, ⟨47, _⟩ => ⟨S128, .f32⟩
  | .hbm, ⟨48, _⟩ => ⟨S128, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S_, .i32⟩
  | .hbm, ⟨57, _⟩ => ⟨S128, .i32⟩
  | .hbm, ⟨58, _⟩ => ⟨S128, .i32⟩
  | .hbm, ⟨59, _⟩ => ⟨S128, .i32⟩
  | .hbm, ⟨60, _⟩ => ⟨S_, .i32⟩
  | .hbm, ⟨61, _⟩ => ⟨S128, .i32⟩
  | .hbm, ⟨62, _⟩ => ⟨S128, .i1⟩
  | .hbm, ⟨63, _⟩ => ⟨S_, .i32⟩
  | .hbm, ⟨64, _⟩ => ⟨S128, .i32⟩
  | .hbm, ⟨65, _⟩ => ⟨S128, .i32⟩
  | .hbm, ⟨66, _⟩ => ⟨S128, .i32⟩
  | .hbm, ⟨67, _⟩ => ⟨S128x1, .i32⟩
  | .hbm, ⟨68, _⟩ => ⟨S128x1, .i32⟩
  | .hbm, ⟨69, _⟩ => ⟨S128x2, .i32⟩
  | .hbm, ⟨70, _⟩ => ⟨S128, .f32⟩
  | .hbm, ⟨71, _⟩ => ⟨S256, .f32⟩
  | .hbm, ⟨72, _⟩ => ⟨S256x256, .i32⟩
  | .hbm, ⟨73, _⟩ => ⟨S256x256, .i32⟩
  | .hbm, ⟨74, _⟩ => ⟨S_, .i32⟩
  | .hbm, ⟨75, _⟩ => ⟨S256x256, .i32⟩
  | .hbm, ⟨76, _⟩ => ⟨S256x256, .i32⟩
  | .hbm, ⟨77, _⟩ => ⟨S256x256, .i1⟩
  | .hbm, ⟨78, _⟩ => ⟨S256x256, .f32⟩
  | .hbm, ⟨79, _⟩ => ⟨S_, .f32⟩
  | .hbm, ⟨80, _⟩ => ⟨S256x256, .f32⟩
  | .hbm, ⟨81, _⟩ => ⟨S256x256, .f32⟩
  | .hbm, ⟨82, _⟩ => ⟨S_, .f32⟩
  | .hbm, ⟨83, _⟩ => ⟨S256x256, .f32⟩
  | .hbm, ⟨84, _⟩ => ⟨S256x256, .f32⟩
  | .hbm, ⟨85, _⟩ => ⟨S256x256, .f32⟩
  | .hbm, ⟨86, _⟩ => ⟨S256x256, .f32⟩
  | .hbm, ⟨87, _⟩ => ⟨S_, .f32⟩
  | .hbm, ⟨88, _⟩ => ⟨S256, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S256, .f32⟩
  | .hbm, ⟨93, _⟩ => ⟨S256, .f32⟩
  | .hbm, ⟨94, _⟩ => ⟨S256, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .local _ .vmem, ⟨0, _⟩ => ⟨S256x15360, .bf16⟩
  | .local _ .vmem, ⟨1, _⟩ => ⟨S1024x1920, .f32⟩
  | .local _ .vmem, ⟨2, _⟩ => ⟨S1024x1920, .f32⟩
  | .local _ .vmem, ⟨3, _⟩ => ⟨S1024, .f32⟩
  | .local _ .vmem, ⟨4, _⟩ => ⟨S1024, .f32⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S256x4096, .bf16⟩
  | .local _ .vmem, ⟨9, _⟩ => ⟨S1024x1024, .f32⟩
  | .local _ .vmem, ⟨10, _⟩ => ⟨S1024x1024, .f32⟩
  | .local _ .vmem, ⟨11, _⟩ => ⟨S1024, .f32⟩
  | .local _ .vmem, ⟨12, _⟩ => ⟨S1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S128x512x5x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call2_v0 : Ref sig .tc := ⟨.hbm, 25, rfl⟩
abbrev main_call2_v1 : Ref sig .tc := ⟨.hbm, 26, rfl⟩
abbrev main_call2_c : Ref sig .tc := ⟨.hbm, 27, rfl⟩
abbrev main_call2_v2 : Ref sig .tc := ⟨.hbm, 28, rfl⟩
abbrev main_call2_v3 : Ref sig .tc := ⟨.hbm, 29, rfl⟩
abbrev main_call2_c_0 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c_2 : Ref sig .tc := ⟨.hbm, 37, rfl⟩
abbrev main_call2_v9 : Ref sig .tc := ⟨.hbm, 38, rfl⟩
abbrev main_call2_v10 : Ref sig .tc := ⟨.hbm, 39, rfl⟩
abbrev main_call2_c_3 : Ref sig .tc := ⟨.hbm, 40, rfl⟩
abbrev main_call2_v11 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_call2_v15 : Ref sig .tc := ⟨.hbm, 45, rfl⟩
abbrev main_call2_v16 : Ref sig .tc := ⟨.hbm, 46, rfl⟩
abbrev main_v14 : Ref sig .tc := ⟨.hbm, 47, rfl⟩
abbrev main_call3_v0 : Ref sig .tc := ⟨.hbm, 48, rfl⟩
abbrev main_call3_v1 : Ref sig .tc := ⟨.hbm, 49, rfl⟩
abbrev main_call3_c : Ref sig .tc := ⟨.hbm, 50, rfl⟩
abbrev main_call3_v2 : Ref sig .tc := ⟨.hbm, 51, rfl⟩
abbrev main_call3_v3 : Ref sig .tc := ⟨.hbm, 52, rfl⟩
abbrev main_call3_c_0 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_c_2 : Ref sig .tc := ⟨.hbm, 60, rfl⟩
abbrev main_call3_v9 : Ref sig .tc := ⟨.hbm, 61, rfl⟩
abbrev main_call3_v10 : Ref sig .tc := ⟨.hbm, 62, rfl⟩
abbrev main_call3_c_3 : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_call3_v15 : Ref sig .tc := ⟨.hbm, 68, rfl⟩
abbrev main_call3_v16 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_c : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_cst_0 : Ref sig .tc := ⟨.hbm, 79, rfl⟩
abbrev main_v23 : Ref sig .tc := ⟨.hbm, 80, rfl⟩
abbrev main_v24 : Ref sig .tc := ⟨.hbm, 81, rfl⟩
abbrev main_cst_1 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_cst_2 : Ref sig .tc := ⟨.hbm, 87, rfl⟩
abbrev main_v29 : Ref sig .tc := ⟨.hbm, 88, rfl⟩
abbrev main_cst_3 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_cst_4 : Ref sig .tc := ⟨.hbm, 95, rfl⟩
abbrev main_v35 : Ref sig .tc := ⟨.hbm, 96, rfl⟩
abbrev main_cst_5 : Ref sig .tc := ⟨.hbm, 97, rfl⟩
abbrev main_v36 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1920_i32 : BitVec 32 := 1920#32
  let v3 : BitVec 32 := Scalar.muli arg1 c1920_i32
  v3
def k0_off1 (i : grid0.Coords) : Fin 2 → Nat :=
  let c0 : Index := 0#32
  let arg1 : BitVec 32 := BitVec.ofNat 32 (i 1).val
  let c1920_i32 : BitVec 32 := 1920#32
  let v3 : BitVec 32 := Scalar.muli arg1 c1920_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x15360 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 4], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S256x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S128x512x5x6_S128x15360 : S128x512x5x6.ShapeCasts S128x15360
  concatenates_S128x15360_S128x15360_S256x15360_d0 : Shape.Concatenates [S128x15360, S128x15360] S256x15360 0
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  h_S256x1920 : 0 < S256x1920.numel
  shapeCasts_S256x1920_S256x1920 : S256x1920.ShapeCasts S256x1920
  inb_S1024x1920_S1024x1920_0_0 : ∀ a, (![0, 0] : Fin 2 → Nat) a + S1024x1920.size a ≤ S1024x1920.size a
  h_S1024x1920 : 0 < S1024x1920.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  packedbf16_S256x1024_S256x1024_0_0 : (Rect.unit (s := S256x1024) ![0, 0] S256x1024.size inb_S256x1024_S256x1024_0_0).PackedRows (EltTy.packing .bf16)
  inb_S1024x1024_S1024x1024_0_0 : ∀ a, (![0, 0] : Fin 2 → Nat) a + S1024x1024.size a ≤ S1024x1024.size a
  h_S1024x1024 : 0 < S1024x1024.numel
  reducesTo_S256x2048_S256_d1 : S256x2048.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x2048_0_1 : S256x1.BroadcastsInDim S256x2048 (![0, 1] : Fin 2 → Fin S256x2048.rank)
  transposes_S256x2048_S2048x256_1_0 : S256x2048.Transposes [1, 0] S2048x256
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  concatenates_S128_S128_S256_d0 : Shape.Concatenates [S128, S128] S256 0
  bcast_S_S256x256 : S_.BroadcastsInDim S256x256 (![] : Fin 0 → Fin S256x256.rank)
  reducesTo_S256x256_S256_d1 : S256x256.ReducesTo [1] S256
  bcast_S_S256 : S_.BroadcastsInDim S256 (![] : Fin 0 → Fin S256.rank)
  reducesTo_S256_S_d0 : S256.ReducesTo [0] S_
  dot_S256x1920_S1024x1920_S256x1024_1_1_0_0_n_n_wf : DotDims.WF S256x1920 S1024x1920 S256x1024 [1] [1] [0] [0] [] []
  dot_S256x1024_S1024x1024_S256x1024_1_1_0_0_n_n_wf : DotDims.WF S256x1024 S1024x1024 S256x1024 [1] [1] [0] [0] [] []
  dot_S256x2048_S2048x256_S256x256_1_0_0_1_n_n_wf : DotDims.WF S256x2048 S2048x256 S256x256 [1] [0] [0] [1] [] []
  gather_S256x256_S128x2_S128_n_01_n_n_01_1_11_wf : GatherDims.WF S256x256 S128x2 S128 [] [0, 1] [] [0, 1] [] 1 ![1, 1]
  hrank0 : 0 < grid0.rank
  k0_mult1_dvd : ∀ i : grid0.Coords, 128 ∣ (k0_mult1 i).toNat
  k0_off1_inb : ∀ i : grid0.Coords, ∀ a, (k0_off1 i) a + S256x1920.size a ≤ S256x15360.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x15360.size a ≤ S256x15360.size a
  hwx0_0 : ∀ i : grid0.Coords, EltTy.bits .bf16 = 32 ∨ (Rect.block (s := S256x15360) S256x15360.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1920.size a ≤ S4096x15360.size a
  hwx0_1 : ∀ i : grid0.Coords, EltTy.bits .f32 = 32 ∨ (Rect.block (s := S4096x15360) S1024x1920.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x4096.size a
  hwx0_3 : ∀ i : grid0.Coords, EltTy.bits .bf16 = 32 ∨ (Rect.block (s := S256x4096) S256x1024.size (cc0_transform_3 i) (hinb0_3 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S256x1024.size a ≤ S256x4096.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S256x4096.size a
  hwx1_0 : ∀ i : grid1.Coords, EltTy.bits .bf16 = 32 ∨ (Rect.block (s := S256x4096) S256x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S2048x4096.size a
  hwx1_1 : ∀ i : grid1.Coords, EltTy.bits .f32 = 32 ∨ (Rect.block (s := S2048x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S2048.size a
  hwx1_2 : ∀ i : grid1.Coords, EltTy.bits .f32 = 32 ∨ (Rect.block (s := S2048) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x2048.size a
  hwx1_3 : ∀ i : grid1.Coords, EltTy.bits .f32 = 32 ∨ (Rect.block (s := S256x2048) S256x1024.size (cc1_transform_3 i) (hinb1_3 i)).WholeWords (EltTy.packing .f32)

variable [Facts₀]

def dot_S256x1920_S1024x1920_S256x1024_1_1_0_0_n_n : DotDims S256x1920 S1024x1920 S256x1024 where
  lhsContracting := [1]
  rhsContracting := [1]
  lhsNonContracting := [0]
  rhsNonContracting := [0]
  lhsBatch := []
  rhsBatch := []
  wf := dot_S256x1920_S1024x1920_S256x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def gather_S256x256_S128x2_S128_n_01_n_n_01_1_11 : GatherDims S256x256 S128x2 S128 where
  offsetDims := []
  collapsedSliceDims := [0, 1]
  operandBatchingDims := []
  startIndicesBatchingDims := []
  startIndexMap := [0, 1]
  indexVectorDim := 1
  sliceSizes := ![1, 1]
  wf := gather_S256x256_S128x2_S128_n_01_n_n_01_1_11_wf

abbrev win0_0 : Pipeline.Window sig grid0 :=
  Pipeline.Window.ofSpec (Memref.whole main_v4) S256x15360.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1920.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v5) S256x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S128x512x5x6 : Shape := ⟨4, ![128, 512, 5, 6]⟩
abbrev S4096x15360 : Shape := ⟨2, ![4096, 15360]⟩
abbrev S4096 : Shape := ⟨1, ![4096]⟩
abbrev S2048x4096 : Shape := ⟨2, ![2048, 4096]⟩
abbrev S2048 : Shape := ⟨1, ![2048]⟩
abbrev S128x15360 : Shape := ⟨2, ![128, 15360]⟩
abbrev S15360x4096 : Shape := ⟨2, ![15360, 4096]⟩
abbrev S128x4096 : Shape := ⟨2, ![128, 4096]⟩
abbrev S1x4096 : Shape := ⟨2, ![1, 4096]⟩
abbrev S_ : Shape := ⟨0, ![]⟩
abbrev S4096x2048 : Shape := ⟨2, ![4096, 2048]⟩
abbrev S128x2048 : Shape := ⟨2, ![128, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048x256 : Shape := ⟨2, ![2048, 256]⟩
abbrev S256x256 : Shape := ⟨2, ![256, 256]⟩
abbrev S128 : Shape := ⟨1, ![128]⟩
abbrev S128x1 : Shape := ⟨2, ![128, 1]⟩
abbrev S128x2 : Shape := ⟨2, ![128, 2]⟩

abbrev nBuf : Space → Nat
  | .hbm => 128
  | .vmem => 0
  | .smem => 0
  | _ => 0

abbrev bufTy : (tb : Table) → Fin (tcTables nBuf tb) → BufTy
  | .hbm, ⟨0, _⟩ => ⟨S128x512x5x6, .f32⟩
  | .hbm, ⟨1, _⟩ => ⟨S128x512x5x6, .f32⟩
  | .hbm, ⟨2, _⟩ => ⟨S4096x15360, .f32⟩
  | .hbm, ⟨3, _⟩ => ⟨S4096, .f32⟩
  | .hbm, ⟨4, _⟩ => ⟨S2048x4096, .f32⟩
  | .hbm, ⟨5, _⟩ => ⟨S2048, .f32⟩
  | .hbm, ⟨6, _⟩ => ⟨S128x512x5x6, .f32⟩
  | .hbm, ⟨7, _⟩ => ⟨S128x15360, .f32⟩
  | .hbm, ⟨8, _⟩ => ⟨S15360x4096, .f32⟩
  | .hbm, ⟨9, _⟩ => ⟨S128x4096, .f32⟩
  | .hbm, ⟨10, _⟩ => ⟨S1x4096, .f32⟩
  | .hbm, ⟨11, _⟩ => ⟨S128x4096, .f32⟩
  | .hbm, ⟨12, _⟩ => ⟨S128x4096, .f32⟩
  | .hbm, ⟨13, _⟩ => ⟨S_, .f32⟩
  | .hbm, ⟨14, _⟩ => ⟨S128x4096, .f32⟩
  | .hbm, ⟨15, _⟩ => ⟨S128x4096, .f32⟩
  | .hbm, ⟨16, _⟩ => ⟨S4096x2048, .f32⟩
  | .hbm, ⟨17, _⟩ => ⟨S128x2048, .f32⟩
  | .hbm, ⟨18, _⟩ => ⟨S1x2048, .f32⟩
  | .hbm, ⟨19, _⟩ => ⟨S128x2048, .f32⟩
  | .hbm, ⟨20, _⟩ => ⟨S128x2048, .f32⟩
  | .hbm, ⟨21, _⟩ => ⟨S_, .f32⟩
  | .hbm, ⟨22, _⟩ => ⟨S128x2048, .f32⟩
  | .hbm, ⟨23, _⟩ => ⟨S128x2048, .f32⟩
  | .hbm, ⟨24, _⟩ => ⟨S128x15360, .f32⟩
  | .hbm, ⟨25, _⟩ => ⟨S15360x4096, .f32⟩
  | .hbm, ⟨26, _⟩ => ⟨S128x4096, .f32⟩
  | .hbm, ⟨27, _⟩ => ⟨S1x4096, .f32⟩
  | .hbm, ⟨28, _⟩ => ⟨S128x4096, .f32⟩
  | .hbm, ⟨29, _⟩ => ⟨S128x4096, .f32⟩
  | .hbm, ⟨30, _⟩ => ⟨S_, .f32⟩
  | .hbm, ⟨31, _⟩ => ⟨S128x4096, .f32⟩
  | .hbm, ⟨32, _⟩ => ⟨S128x4096, .f32⟩
  | .hbm, ⟨33, _⟩ => ⟨S4096x2048, .f32⟩
  | .hbm, ⟨34, _⟩ => ⟨S128x2048, .f32⟩
  | .hbm, ⟨35, _⟩ => ⟨S1x2048, .f32⟩
  | .hbm, ⟨36, _⟩ => ⟨S128x2048, .f32⟩
  | .hbm, ⟨37, _⟩ => ⟨S128x2048, .f32⟩
  | .hbm, ⟨38, _⟩ => ⟨S_, .f32⟩
  | .hbm, ⟨39, _⟩ => ⟨S128x2048, .f32⟩
  | .hbm, ⟨40, _⟩ => ⟨S128x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256, .f32⟩
  | .hbm, ⟨45, _⟩ => ⟨S256x1, .f32⟩
  | .hbm, ⟨46, _⟩ => ⟨S256x1, .f32⟩
  | .hbm, ⟨47, _⟩ => ⟨S_, .f32⟩
  | .hbm, ⟨48, _⟩ => ⟨S256x1, .f32⟩
  | .hbm, ⟨49, _⟩ => ⟨S256x1, .f32⟩
  | .hbm, ⟨50, _⟩ => ⟨S256x2048, .f32⟩
  | .hbm, ⟨51, _⟩ => ⟨S256x2048, .f32⟩
  | .hbm, ⟨52, _⟩ => ⟨S2048x256, .f32⟩
  | .hbm, ⟨53, _⟩ => ⟨S256x256, .f32⟩
  | .hbm, ⟨54, _⟩ => ⟨S128, .i32⟩
  | .hbm, ⟨55, _⟩ => ⟨S128, .i32⟩
  | .hbm, ⟨56, _⟩ => ⟨S_, .i32⟩
  | .hbm, ⟨57, _⟩ => ⟨S128, .i32⟩
  | .hbm, ⟨58, _⟩ => ⟨S128, .i32⟩
  | .hbm, ⟨59, _⟩ => ⟨S_, .i32⟩
  | .hbm, ⟨60, _⟩ => ⟨S128, .i32⟩
  | .hbm, ⟨61, _⟩ => ⟨S128, .i1⟩
  | .hbm, ⟨62, _⟩ => ⟨S_, .i32⟩
  | .hbm, ⟨63, _⟩ => ⟨S128, .i32⟩
  | .hbm, ⟨64, _⟩ => ⟨S128, .i32⟩
  | .hbm, ⟨65, _⟩ => ⟨S128, .i32⟩
  | .hbm, ⟨66, _⟩ => ⟨S_, .i32⟩
  | .hbm, ⟨67, _⟩ => ⟨S128, .i32⟩
  | .hbm, ⟨68, _⟩ => ⟨S128, .i1⟩
  | .hbm, ⟨69, _⟩ => ⟨S_, .i32⟩
  | .hbm, ⟨70, _⟩ => ⟨S128, .i32⟩
  | .hbm, ⟨71, _⟩ => ⟨S128, .i32⟩
  | .hbm, ⟨72, _⟩ => ⟨S128, .i32⟩
  | .hbm, ⟨73, _⟩ => ⟨S128x1, .i32⟩
  | .hbm, ⟨74, _⟩ => ⟨S128x1, .i32⟩
  | .hbm, ⟨75, _⟩ => ⟨S128x2, .i32⟩
  | .hbm, ⟨76, _⟩ => ⟨S128, .f32⟩
  | .hbm, ⟨77, _⟩ => ⟨S128, .i32⟩
  | .hbm, ⟨78, _⟩ => ⟨S128, .i32⟩
  | .hbm, ⟨79, _⟩ => ⟨S_, .i32⟩
  | .hbm, ⟨80, _⟩ => ⟨S128, .i32⟩
  | .hbm, ⟨81, _⟩ => ⟨S128, .i32⟩
  | .hbm, ⟨82, _⟩ => ⟨S_, .i32⟩
  | .hbm, ⟨83, _⟩ => ⟨S128, .i32⟩
  | .hbm, ⟨84, _⟩ => ⟨S128, .i1⟩
  | .hbm, ⟨85, _⟩ => ⟨S_, .i32⟩
  | .hbm, ⟨86, _⟩ => ⟨S128, .i32⟩
  | .hbm, ⟨87, _⟩ => ⟨S128, .i32⟩
  | .hbm, ⟨88, _⟩ => ⟨S128, .i32⟩
  | .hbm, ⟨89, _⟩ => ⟨S_, .i32⟩
  | .hbm, ⟨90, _⟩ => ⟨S128, .i32⟩
  | .hbm, ⟨91, _⟩ => ⟨S128, .i1⟩
  | .hbm, ⟨92, _⟩ => ⟨S_, .i32⟩
  | .hbm, ⟨93, _⟩ => ⟨S128, .i32⟩
  | .hbm, ⟨94, _⟩ => ⟨S128, .i32⟩
  | .hbm, ⟨95, _⟩ => ⟨S128, .i32⟩
  | .hbm, ⟨96, _⟩ => ⟨S128x1, .i32⟩
  | .hbm, ⟨97, _⟩ => ⟨S128x1, .i32⟩
  | .hbm, ⟨98, _⟩ => ⟨S128x2, .i32⟩
  | .hbm, ⟨99, _⟩ => ⟨S128, .f32⟩
  | .hbm, ⟨100, _⟩ => ⟨S256, .f32⟩
  | .hbm, ⟨101, _⟩ => ⟨S256x256, .i32⟩
  | .hbm, ⟨102, _⟩ => ⟨S256x256, .i32⟩
  | .hbm, ⟨103, _⟩ => ⟨S_, .i32⟩
  | .hbm, ⟨104, _⟩ => ⟨S256x256, .i32⟩
  | .hbm, ⟨105, _⟩ => ⟨S256x256, .i32⟩
  | .hbm, ⟨106, _⟩ => ⟨S256x256, .i1⟩
  | .hbm, ⟨107, _⟩ => ⟨S256x256, .f32⟩
  | .hbm, ⟨108, _⟩ => ⟨S_, .f32⟩
  | .hbm, ⟨109, _⟩ => ⟨S256x256, .f32⟩
  | .hbm, ⟨110, _⟩ => ⟨S256x256, .f32⟩
  | .hbm, ⟨111, _⟩ => ⟨S_, .f32⟩
  | .hbm, ⟨112, _⟩ => ⟨S256x256, .f32⟩
  | .hbm, ⟨113, _⟩ => ⟨S256x256, .f32⟩
  | .hbm, ⟨114, _⟩ => ⟨S256x256, .f32⟩
  | .hbm, ⟨115, _⟩ => ⟨S256x256, .f32⟩
  | .hbm, ⟨116, _⟩ => ⟨S_, .f32⟩
  | .hbm, ⟨117, _⟩ => ⟨S256, .f32⟩
  | .hbm, ⟨118, _⟩ => ⟨S_, .f32⟩
  | .hbm, ⟨119, _⟩ => ⟨S256, .f32⟩
  | .hbm, ⟨120, _⟩ => ⟨S256, .f32⟩
  | .hbm, ⟨121, _⟩ => ⟨S256, .f32⟩
  | .hbm, ⟨122, _⟩ => ⟨S256, .f32⟩
  | .hbm, ⟨123, _⟩ => ⟨S256, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S128x512x5x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call2_cst : Ref sig .tc := ⟨.hbm, 21, rfl⟩
abbrev main_call2_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call3_cst : Ref sig .tc := ⟨.hbm, 30, rfl⟩
abbrev main_call3_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call4_cst : Ref sig .tc := ⟨.hbm, 38, rfl⟩
abbrev main_call4_v0 : Ref sig .tc := ⟨.hbm, 39, rfl⟩
abbrev main_v26 : Ref sig .tc := ⟨.hbm, 40, rfl⟩
abbrev main_v27 : Ref sig .tc := ⟨.hbm, 41, rfl⟩
abbrev main_call5_v0 : Ref sig .tc := ⟨.hbm, 42, rfl⟩
abbrev main_call5_cst : Ref sig .tc := ⟨.hbm, 43, rfl⟩
abbrev main_call5_v1 : Ref sig .tc := ⟨.hbm, 44, rfl⟩
abbrev main_call5_v2 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call6_v0 : Ref sig .tc := ⟨.hbm, 54, rfl⟩
abbrev main_call6_v1 : Ref sig .tc := ⟨.hbm, 55, rfl⟩
abbrev main_call6_c : Ref sig .tc := ⟨.hbm, 56, rfl⟩
abbrev main_call6_v2 : Ref sig .tc := ⟨.hbm, 57, rfl⟩
abbrev main_call6_v3 : Ref sig .tc := ⟨.hbm, 58, rfl⟩
abbrev main_call6_c_0 : Ref sig .tc := ⟨.hbm, 59, rfl⟩
abbrev main_call6_v4 : Ref sig .tc := ⟨.hbm, 60, rfl⟩
abbrev main_call6_v5 : Ref sig .tc := ⟨.hbm, 61, rfl⟩
abbrev main_call6_c_1 : Ref sig .tc := ⟨.hbm, 62, rfl⟩
abbrev main_call6_v6 : Ref sig .tc := ⟨.hbm, 63, rfl⟩
abbrev main_call6_v7 : Ref sig .tc := ⟨.hbm, 64, rfl⟩
abbrev main_call6_v8 : Ref sig .tc := ⟨.hbm, 65, rfl⟩
abbrev main_call6_c_2 : Ref sig .tc := ⟨.hbm, 66, rfl⟩
abbrev main_call6_v9 : Ref sig .tc := ⟨.hbm, 67, rfl⟩
abbrev main_call6_v10 : Ref sig .tc := ⟨.hbm, 68, rfl⟩
abbrev main_call6_c_3 : Ref sig .tc := ⟨.hbm, 69, rfl⟩
abbrev main_call6_v11 : Ref sig .tc := ⟨.hbm, 70, rfl⟩
abbrev main_call6_v12 : Ref sig .tc := ⟨.hbm, 71, rfl⟩
abbrev main_call6_v13 : Ref sig .tc := ⟨.hbm, 72, rfl⟩
abbrev main_call6_v14 : Ref sig .tc := ⟨.hbm, 73, rfl⟩
abbrev main_call6_v15 : Ref sig .tc := ⟨.hbm, 74, rfl⟩
abbrev main_call6_v16 : Ref sig .tc := ⟨.hbm, 75, rfl⟩
abbrev main_v35 : Ref sig .tc := ⟨.hbm, 76, rfl⟩
abbrev main_call7_v0 : Ref sig .tc := ⟨.hbm, 77, rfl⟩
abbrev main_call7_v1 : Ref sig .tc := ⟨.hbm, 78, rfl⟩
abbrev main_call7_c : Ref sig .tc := ⟨.hbm, 79, rfl⟩
abbrev main_call7_v2 : Ref sig .tc := ⟨.hbm, 80, rfl⟩
abbrev main_call7_v3 : Ref sig .tc := ⟨.hbm, 81, rfl⟩
abbrev main_call7_c_0 : Ref sig .tc := ⟨.hbm, 82, rfl⟩
abbrev main_call7_v4 : Ref sig .tc := ⟨.hbm, 83, rfl⟩
abbrev main_call7_v5 : Ref sig .tc := ⟨.hbm, 84, rfl⟩
abbrev main_call7_c_1 : Ref sig .tc := ⟨.hbm, 85, rfl⟩
abbrev main_call7_v6 : Ref sig .tc := ⟨.hbm, 86, rfl⟩
abbrev main_call7_v7 : Ref sig .tc := ⟨.hbm, 87, rfl⟩
abbrev main_call7_v8 : Ref sig .tc := ⟨.hbm, 88, rfl⟩
abbrev main_call7_c_2 : Ref sig .tc := ⟨.hbm, 89, rfl⟩
abbrev main_call7_v9 : Ref sig .tc := ⟨.hbm, 90, rfl⟩
abbrev main_call7_v10 : Ref sig .tc := ⟨.hbm, 91, rfl⟩
abbrev main_call7_c_3 : Ref sig .tc := ⟨.hbm, 92, rfl⟩
abbrev main_call7_v11 : Ref sig .tc := ⟨.hbm, 93, rfl⟩
abbrev main_call7_v12 : Ref sig .tc := ⟨.hbm, 94, rfl⟩
abbrev main_call7_v13 : Ref sig .tc := ⟨.hbm, 95, rfl⟩
abbrev main_call7_v14 : Ref sig .tc := ⟨.hbm, 96, rfl⟩
abbrev main_call7_v15 : Ref sig .tc := ⟨.hbm, 97, rfl⟩
abbrev main_call7_v16 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_c : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_0 : Ref sig .tc := ⟨.hbm, 108, rfl⟩
abbrev main_v44 : Ref sig .tc := ⟨.hbm, 109, rfl⟩
abbrev main_v45 : Ref sig .tc := ⟨.hbm, 110, rfl⟩
abbrev main_cst_1 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_cst_2 : Ref sig .tc := ⟨.hbm, 116, rfl⟩
abbrev main_v50 : Ref sig .tc := ⟨.hbm, 117, rfl⟩
abbrev main_cst_3 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_4 : Ref sig .tc := ⟨.hbm, 124, rfl⟩
abbrev main_v56 : Ref sig .tc := ⟨.hbm, 125, rfl⟩
abbrev main_cst_5 : Ref sig .tc := ⟨.hbm, 126, rfl⟩
abbrev main_v57 : Ref sig .tc := ⟨.hbm, 127, rfl⟩

abbrev nD : Nat := 1
abbrev τ : Topo := Topo.v7x

variable {F : FTy → Type} [FloatOps F]

class Facts₀ : Prop where
  shapeCasts_S128x512x5x6_S128x15360 : S128x512x5x6.ShapeCasts S128x15360
  transposes_S4096x15360_S15360x4096_1_0 : S4096x15360.Transposes [1, 0] S15360x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  bcast_S_S128x4096 : S_.BroadcastsInDim S128x4096 (![] : Fin 0 → Fin S128x4096.rank)
  transposes_S2048x4096_S4096x2048_1_0 : S2048x4096.Transposes [1, 0] S4096x2048
  bcast_S2048_S1x2048_1 : S2048.BroadcastsInDim S1x2048 (![1] : Fin 1 → Fin S1x2048.rank)
  bcast_S1x2048_S128x2048_0_1 : S1x2048.BroadcastsInDim S128x2048 (![0, 1] : Fin 2 → Fin S128x2048.rank)
  bcast_S_S128x2048 : S_.BroadcastsInDim S128x2048 (![] : Fin 0 → Fin S128x2048.rank)
  concatenates_S128x2048_S128x2048_S256x2048_d0 : Shape.Concatenates [S128x2048, S128x2048] S256x2048 0
  reducesTo_S256x2048_S256_d1 : S256x2048.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x2048_0_1 : S256x1.BroadcastsInDim S256x2048 (![0, 1] : Fin 2 → Fin S256x2048.rank)
  transposes_S256x2048_S2048x256_1_0 : S256x2048.Transposes [1, 0] S2048x256
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  concatenates_S128_S128_S256_d0 : Shape.Concatenates [S128, S128] S256 0
  bcast_S_S256x256 : S_.BroadcastsInDim S256x256 (![] : Fin 0 → Fin S256x256.rank)
  reducesTo_S256x256_S256_d1 : S256x256.ReducesTo [1] S256
  bcast_S_S256 : S_.BroadcastsInDim S256 (![] : Fin 0 → Fin S256.rank)
  reducesTo_S256_S_d0 : S256.ReducesTo [0] S_
  dot_S128x15360_S15360x4096_S128x4096_1_0_0_1_n_n_wf : DotDims.WF S128x15360 S15360x4096 S128x4096 [1] [0] [0] [1] [] []
  dot_S128x4096_S4096x2048_S128x2048_1_0_0_1_n_n_wf : DotDims.WF S128x4096 S4096x2048 S128x2048 [1] [0] [0] [1] [] []
  dot_S256x2048_S2048x256_S256x256_1_0_0_1_n_n_wf : DotDims.WF S256x2048 S2048x256 S256x256 [1] [0] [0] [1] [] []
  gather_S256x256_S128x2_S128_n_01_n_n_01_1_11_wf : GatherDims.WF S256x256 S128x2 S128 [] [0, 1] [] [0, 1] [] 1 ![1, 1]

variable [Facts₀]

def dot_S128x15360_S15360x4096_S128x4096_1_0_0_1_n_n : DotDims S128x15360 S15360x4096 S128x4096 where
  lhsContracting := [1]
  rhsContracting := [0]
  lhsNonContracting := [0]
  rhsNonContracting := [1]
  lhsBatch := []
  rhsBatch := []
  wf := dot_S128x15360_S15360x4096_S128x4096_1_0_0_1_n_n_wf
def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def gather_S256x256_S128x2_S128_n_01_n_n_01_1_11 : GatherDims S256x256 S128x2 S128 where
  offsetDims := []
  collapsedSliceDims := [0, 1]
  operandBatchingDims := []
  startIndicesBatchingDims := []
  startIndexMap := [0, 1]
  indexVectorDim := 1
  sliceSizes := ![1, 1]
  wf := gather_S256x256_S128x2_S128_n_01_n_n_01_1_11_wf

class Facts : Prop extends Facts₀ where

variable [Facts]
-- ==== Proof.KB.Kit0.lean ====
/-
  Layer 1 of the perceptron head as a pipelined matmul: grid (n, k) = (4, 8), point t = 8·n + k.  The body zeroes its
  VMEM accumulator at k = 0, adds the k-th tile product x[:, 1920k : 1920(k+1)] · W1[1024n : 1024(n+1), 1920k : 1920(k+1)]ᵀ
  at every point, and at k = 7 stores max(acc + b1[1024n : 1024(n+1)], 0) into the output block.  This module holds what
  the three control cases of the body share: the two branch conditions in closed form over the grid, where the output
  window is idle, and the names of the staging and scratch memrefs the body is called with.
-/
import proofs.«124963_j54348516163877_2_alg».proof.Proof.Gen.Kernel.Launch
import proofs.«124963_j54348516163877_2_alg».proof.Proof.Gen.Kernel.Skeleton
import proofs.«124963_j54348516163877_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first tile of the contraction" (k = 0), as the body computes it from the grid coordinates. -/
abbrev cond0_0 (i : grid0.Coords) : Prop := (Scalar.cmpi .ne (Scalar.extui (Scalar.cmpi .eq (BitVec.ofNat 32 (i 1).val) 0#32)) 0#32) = 1#1
/-- It holds exactly at the points t ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last tile of the contraction" (k = 7). -/
abbrev cond0_1 (i : grid0.Coords) : Prop := k0_cond2 i = 1#1
/-- It holds exactly at the points t ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last tile nothing is stored into the output block, and the block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last tile the output block is stored. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S256x1024 .bf16 := (Memref.whole cc0_stg3_0 : Memref sig .tc .vmem S256x1024 .bf16).view
abbrev ms0_0 (t : Fin cfg0.N) : Memref sig .tc .vmem S256x15360 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1920 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S256x1024 .f32 := Memref.whole cc0_scratch0
abbrev VS0_0 : View sig .tc .vmem S256x1024 .f32 := scM0_0.view

/-- The scoped buffers of the core that belong to the OTHER layer's kernel (its staging buffers and accumulator), each
    whole at some contents: they ride through this layer's invariant untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with this layer's accumulator as a memref owned at some contents, beside the other layer's
    scoped buffers and the generator register. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

theorem PhiA0_in (c : Dev nD) :
    (Pipeline.ΦA spec0 c : sProp 𝕄) ⊢ iprop(iprop((∃ d, owns (c : Thread nD τ) scM0_0 fullShare d) ∗ rest0 c) ∗ (∃ r, prngReg c r)) := by
  rw [PhiA0_eq]
theorem PhiA0_out (c : Dev nD) :
    (iprop(iprop((∃ d, owns (c : Thread nD τ) scM0_0 fullShare d) ∗ rest0 c) ∗ (∃ r, prngReg c r)) : sProp 𝕄) ⊢ Pipeline.ΦA spec0 c := by
  rw [PhiA0_eq]

theorem hz2 : (![0, 0] : Fin 2 → Nat) = fun _ => 0 := funext fun a => by fin_cases a <;> rfl
theorem hz1 : (![0] : Fin 1 → Nat) = fun _ => 0 := funext fun a => by fin_cases a; rfl

end Cert.Kernel.Hand

end
-- ==== Proof.KB.Acc0.lean ====
/-
  Layer 1 as proof data for the pipeline: what every staging buffer and the accumulator hold after each grid point.
  The accumulator after point t = 8·n + k is the running sum of the tile products of row block n, restarted from zero
  at k = 0; the output block written back at k = 7 is max(acc + bias, 0) of it.  Definitions only: the accumulation by
  recursion on the point, the invariant that carries the accumulator between points, and the proof data.
-/
import proofs.«124963_j54348516163877_2_alg».proof.Proof.KB.Kit0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The k-th column tile of the resident input block, as the body loads it. -/
abbrev xsl0 (i : grid0.Coords) (x0 : Vec F S256x15360 .bf16) : Vec F S256x1920 .bf16 :=
  View.ld x0 (Rect.unit (s := S256x15360) (k0_off1 i) S256x1920.size (k0_off1_inb i))

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation -/

/-- The tile product of point `t` added to `s`. -/
abbrev step0 (c : Dev nD) (t : Fin cfg0.N) (s : Vec F S256x1024 .f32) : Vec F S256x1024 .f32 :=
  k0_pay2 (xsl0 (grid0.coords t) (iblk0 V c 0 t)) (iblk0 V c 1 t) s

/-- The accumulator after point `n`: restarted from zero at the first tile of each contraction, the running sum after. -/
def accAt0 (c : Dev nD) : (n : ℕ) → n < cfg0.N → Vec F S256x1024 .f32
  | 0, h => step0 V c ⟨0, h⟩ (k0_pay1 (F := F))
  | n + 1, h =>
    if (n + 1) % 8 = 0 then step0 V c ⟨n + 1, h⟩ (k0_pay1 (F := F))
    else step0 V c ⟨n + 1, h⟩ (accAt0 c n (Nat.lt_of_succ_lt h))

theorem accAt0_first (c : Dev nD) (t : Fin cfg0.N) (h0 : t.val % 8 = 0) :
    accAt0 V c t.val t.isLt = step0 V c t (k0_pay1 (F := F)) := by
  obtain ⟨n, hn⟩ := t
  cases n with
  | zero => rfl
  | succ n => exact (if_pos h0).trans rfl

theorem accAt0_next (c : Dev nD) (t : Fin cfg0.N) (h0 : ¬t.val % 8 = 0) :
    accAt0 V c t.val t.isLt = step0 V c t (accAt0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The invariant before position `n`: before the first point the class's; afterwards the accumulator at what the point
    before left, the other layer's scoped buffers and the generator register at anything. -/
def PhiS0 (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare (accAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (accAt0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (accAt0 V c (n - 1) (by omega)) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 2 t) (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (iblk0 V c 2 t) (accAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp (MT nD τ sig Unit (Elt F) ℕ (UR sig nD τ) ℕ) :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

end Region

end Cert.Kernel.Hand

end
-- ==== Proof.KB.Kit1.lean ====
/-
  Layer 2 of the perceptron head as a pipelined matmul: grid (n, k) = (2, 4), point t = 4·n + k.  The body zeroes its
  VMEM accumulator at k = 0, adds the k-th tile product h[:, 1024k : 1024(k+1)] · W2[1024n : 1024(n+1), 1024k : 1024(k+1)]ᵀ
  at every point, and at k = 3 stores max(acc + b2[1024n : 1024(n+1)], 0) into the output block.  This module holds what
  the three control cases of the body share, as for layer 1.
-/
import proofs.«124963_j54348516163877_2_alg».proof.Proof.KB.Kit0
import proofs.«124963_j54348516163877_2_alg».proof.Proof.Gen.Kernel.Launch
import proofs.«124963_j54348516163877_2_alg».proof.Proof.Gen.Kernel.Skeleton
import proofs.«124963_j54348516163877_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first tile of the contraction" (k = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points t ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last tile of the contraction" (k = 3). -/
abbrev cond1_1 (i : grid1.Coords) : Prop := k1_cond2 i = 1#1
/-- It holds exactly at the points t ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last tile nothing is stored into the output block, and the block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last tile the output block is stored. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S256x1024 .f32 := (Memref.whole cc1_stg3_0 : Memref sig .tc .vmem S256x1024 .f32).view
abbrev ms1_0 (t : Fin cfg1.N) : Memref sig .tc .vmem S256x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S256x1024 .f32 := Memref.whole cc1_scratch0
abbrev VS1_0 : View sig .tc .vmem S256x1024 .f32 := scM1_0.view

/-- The scoped buffers of the core that belong to the OTHER layer's kernel (its staging buffers and accumulator), each
    whole at some contents: they ride through this layer's invariant untouched. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

theorem PhiA1_in (c : Dev nD) :
    (Pipeline.ΦA spec1 c : sProp 𝕄) ⊢ iprop(iprop((∃ d, owns (c : Thread nD τ) scM1_0 fullShare d) ∗ rest1 c) ∗ (∃ r, prngReg c r)) := by
  unfold Pipeline.ΦA rest1; rw [scopedRest1_eq]; simp only [scM1_0, owns_whole]
  iintro ⟨⟨R1, R2, R3, R4, R5, R6, R7, R8, HS⟩, Hg⟩
  isplitl [R1 R2 R3 R4 R5 R6 R7 R8 HS]
  · isplitl [HS]; · iexact HS
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hg
theorem PhiA1_out (c : Dev nD) :
    (iprop(iprop((∃ d, owns (c : Thread nD τ) scM1_0 fullShare d) ∗ rest1 c) ∗ (∃ r, prngReg c r)) : sProp 𝕄) ⊢ Pipeline.ΦA spec1 c := by
  unfold Pipeline.ΦA rest1; rw [scopedRest1_eq]; simp only [scM1_0, owns_whole]
  iintro ⟨⟨HS, R1, R2, R3, R4, R5, R6, R7, R8⟩, Hg⟩
  isplitl [R1 R2 R3 R4 R5 R6 R7 R8 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  iexact Hg

end Cert.Kernel.Hand

end
-- ==== Proof.KB.Acc1.lean ====
/-
  Layer 2 as proof data for the pipeline: what every staging buffer and the accumulator hold after each grid point.
  The accumulator after point t = 4·n + k is the running sum of the tile products of row block n, restarted from zero
  at k = 0; the output block written back at k = 3 is max(acc + bias, 0) of it.  Definitions only: the accumulation by
  recursion on the point, the invariant that carries the accumulator between points, and the proof data.
-/
import proofs.«124963_j54348516163877_2_alg».proof.Proof.KB.Kit1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The k-th column tile of the resident input block, as the body loads it. -/
abbrev xsl1 (i : grid1.Coords) (x0 : Vec F S256x4096 .bf16) : Vec F S256x1024 .bf16 :=
  View.ld x0 (Rect.unit (s := S256x4096) (k1_off1 i) S256x1024.size (k1_off1_inb i))

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation -/

/-- The tile product of point `t` added to `s`. -/
abbrev step1 (c : Dev nD) (t : Fin cfg1.N) (s : Vec F S256x1024 .f32) : Vec F S256x1024 .f32 :=
  k1_pay2 (xsl1 (grid1.coords t) (iblk1 V c 0 t)) (iblk1 V c 1 t) s

/-- The accumulator after point `n`: restarted from zero at the first tile of each contraction, the running sum after. -/
def accAt1 (c : Dev nD) : (n : ℕ) → n < cfg1.N → Vec F S256x1024 .f32
  | 0, h => step1 V c ⟨0, h⟩ (k1_pay1 (F := F))
  | n + 1, h =>
    if (n + 1) % 4 = 0 then step1 V c ⟨n + 1, h⟩ (k1_pay1 (F := F))
    else step1 V c ⟨n + 1, h⟩ (accAt1 c n (Nat.lt_of_succ_lt h))

theorem accAt1_first (c : Dev nD) (t : Fin cfg1.N) (h0 : t.val % 4 = 0) :
    accAt1 V c t.val t.isLt = step1 V c t (k1_pay1 (F := F)) := by
  obtain ⟨n, hn⟩ := t
  cases n with
  | zero => rfl
  | succ n => exact (if_pos h0).trans rfl

theorem accAt1_next (c : Dev nD) (t : Fin cfg1.N) (h0 : ¬t.val % 4 = 0) :
    accAt1 V c t.val t.isLt = step1 V c t (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The invariant before position `n`: before the first point the class's; afterwards the accumulator at what the point
    before left, the other layer's scoped buffers and the generator register at anything. -/
def PhiS1 (c : Dev nD) : (n : ℕ) → n ≤ cfg1.N → sProp (MT nD τ sig Unit (Elt F) ℕ (UR sig nD τ) ℕ)
  | 0, _ => Pipeline.ΦA spec1 c
  | n + 1, hn => iprop(iprop(owns (c : Thread nD τ) scM1_0 fullShare (accAt1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (accAt1 V c n hn) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (iblk1 V c 2 t) (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (iblk1 V c 2 t) (accAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp (MT nD τ sig Unit (Elt F) ℕ (UR sig nD τ) ℕ) :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

end Region

end Cert.Kernel.Hand

end
-- ==== Proof.KB.Vals.lean ====
/-
  The contents of every unscoped buffer of a core at each boundary between the program's nine segments: the launch
  memory, folded through each stretch of host operations, and across each layer's region changed only at that region's
  arrays, to what the pipeline's write-backs leave.  No segment writes an argument array.
-/
import proofs.«124963_j54348516163877_2_alg».proof.Proof.KB.Acc0
import proofs.«124963_j54348516163877_2_alg».proof.Proof.KB.Acc1
import proofs.«124963_j54348516163877_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m (c, b)
abbrev W1 : Dev nD → Valuation τ sig (Elt F) := fun c => StableHlo.after hostOps0 (W0 m c)
/-- At layer 1's entry. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
/-- At layer 1's exit, which is layer 2's entry: layer 1's arrays at what the pipeline leaves, everything else as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)
/-- At layer 2's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)
abbrev W9 : Dev nD → Valuation τ sig (Elt F) := fun c => StableHlo.after hostOps2_4 (W8 m c)

/-! ## The arguments end as launched -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps2_4 _ hostOps2_4_writes (r := main_arg0) (by decide)
    _ = W7 m c (Proc.devRef .tc main_arg0) := StableHlo.after_of_writes_sub hostOps2_3 _ hostOps2_3_writes (r := main_arg0) (by decide)
    _ = W6 m c (Proc.devRef .tc main_arg0) := StableHlo.after_of_writes_sub hostOps2_2 _ hostOps2_2_writes (r := main_arg0) (by decide)
    _ = W5 m c (Proc.devRef .tc main_arg0) := StableHlo.after_of_writes_sub hostOps2_1 _ hostOps2_1_writes (r := main_arg0) (by decide)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_writes_sub hostOps0_1 _ hostOps0_1_writes (r := main_arg0) (by decide)
    _ = W0 m c (Proc.devRef .tc main_arg0) := StableHlo.after_of_writes_sub hostOps0 _ hostOps0_writes (r := main_arg0) (by decide)
    _ = m ((c : Thread nD τ).loc main_arg0) := rfl

theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps2_4 _ hostOps2_4_writes (r := main_arg1) (by decide)
    _ = W7 m c (Proc.devRef .tc main_arg1) := StableHlo.after_of_writes_sub hostOps2_3 _ hostOps2_3_writes (r := main_arg1) (by decide)
    _ = W6 m c (Proc.devRef .tc main_arg1) := StableHlo.after_of_writes_sub hostOps2_2 _ hostOps2_2_writes (r := main_arg1) (by decide)
    _ = W5 m c (Proc.devRef .tc main_arg1) := StableHlo.after_of_writes_sub hostOps2_1 _ hostOps2_1_writes (r := main_arg1) (by decide)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := StableHlo.after_of_writes_sub hostOps0_1 _ hostOps0_1_writes (r := main_arg1) (by decide)
    _ = W0 m c (Proc.devRef .tc main_arg1) := StableHlo.after_of_writes_sub hostOps0 _ hostOps0_writes (r := main_arg1) (by decide)
    _ = m ((c : Thread nD τ).loc main_arg1) := rfl

theorem W9_main_arg2 (c : Dev nD) : W9 m c (Proc.devRef .tc main_arg2) = m ((c : Thread nD τ).loc main_arg2) :=
  calc W9 m c (Proc.devRef .tc main_arg2)
    _ = W8 m c (Proc.devRef .tc main_arg2) := StableHlo.after_of_writes_sub hostOps2_4 _ hostOps2_4_writes (r := main_arg2) (by decide)
    _ = W7 m c (Proc.devRef .tc main_arg2) := StableHlo.after_of_writes_sub hostOps2_3 _ hostOps2_3_writes (r := main_arg2) (by decide)
    _ = W6 m c (Proc.devRef .tc main_arg2) := StableHlo.after_of_writes_sub hostOps2_2 _ hostOps2_2_writes (r := main_arg2) (by decide)
    _ = W5 m c (Proc.devRef .tc main_arg2) := StableHlo.after_of_writes_sub hostOps2_1 _ hostOps2_1_writes (r := main_arg2) (by decide)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := (W3_arr m c 1).trans (((dat0 (V2 m) c).arrAt_in 1 rfl _).trans (A_eq0 (V2 m) c 1))
    _ = W1 m c (Proc.devRef .tc main_arg2) := StableHlo.after_of_writes_sub hostOps0_1 _ hostOps0_1_writes (r := main_arg2) (by decide)
    _ = W0 m c (Proc.devRef .tc main_arg2) := StableHlo.after_of_writes_sub hostOps0 _ hostOps0_writes (r := main_arg2) (by decide)
    _ = m ((c : Thread nD τ).loc main_arg2) := rfl

theorem W9_main_arg3 (c : Dev nD) : W9 m c (Proc.devRef .tc main_arg3) = m ((c : Thread nD τ).loc main_arg3) :=
  calc W9 m c (Proc.devRef .tc main_arg3)
    _ = W8 m c (Proc.devRef .tc main_arg3) := StableHlo.after_of_writes_sub hostOps2_4 _ hostOps2_4_writes (r := main_arg3) (by decide)
    _ = W7 m c (Proc.devRef .tc main_arg3) := StableHlo.after_of_writes_sub hostOps2_3 _ hostOps2_3_writes (r := main_arg3) (by decide)
    _ = W6 m c (Proc.devRef .tc main_arg3) := StableHlo.after_of_writes_sub hostOps2_2 _ hostOps2_2_writes (r := main_arg3) (by decide)
    _ = W5 m c (Proc.devRef .tc main_arg3) := StableHlo.after_of_writes_sub hostOps2_1 _ hostOps2_1_writes (r := main_arg3) (by decide)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := (W3_arr m c 2).trans (((dat0 (V2 m) c).arrAt_in 2 rfl _).trans (A_eq0 (V2 m) c 2))
    _ = W1 m c (Proc.devRef .tc main_arg3) := StableHlo.after_of_writes_sub hostOps0_1 _ hostOps0_1_writes (r := main_arg3) (by decide)
    _ = W0 m c (Proc.devRef .tc main_arg3) := StableHlo.after_of_writes_sub hostOps0 _ hostOps0_writes (r := main_arg3) (by decide)
    _ = m ((c : Thread nD τ).loc main_arg3) := rfl

theorem W9_main_arg4 (c : Dev nD) : W9 m c (Proc.devRef .tc main_arg4) = m ((c : Thread nD τ).loc main_arg4) :=
  calc W9 m c (Proc.devRef .tc main_arg4)
    _ = W8 m c (Proc.devRef .tc main_arg4) := StableHlo.after_of_writes_sub hostOps2_4 _ hostOps2_4_writes (r := main_arg4) (by decide)
    _ = W7 m c (Proc.devRef .tc main_arg4) := StableHlo.after_of_writes_sub hostOps2_3 _ hostOps2_3_writes (r := main_arg4) (by decide)
    _ = W6 m c (Proc.devRef .tc main_arg4) := StableHlo.after_of_writes_sub hostOps2_2 _ hostOps2_2_writes (r := main_arg4) (by decide)
    _ = W5 m c (Proc.devRef .tc main_arg4) := StableHlo.after_of_writes_sub hostOps2_1 _ hostOps2_1_writes (r := main_arg4) (by decide)
    _ = W4 m c (Proc.devRef .tc main_arg4) := StableHlo.after_of_writes_sub hostOps2 _ hostOps2_writes (r := main_arg4) (by decide)
    _ = W3 m c (Proc.devRef .tc main_arg4) := (W4_arr m c 1).trans (((dat1 (V3 m) c).arrAt_in 1 rfl _).trans (A_eq1 (V3 m) c 1))
    _ = W2 m c (Proc.devRef .tc main_arg4) := W3_of_ne m c main_arg4 (by decide)
    _ = W1 m c (Proc.devRef .tc main_arg4) := StableHlo.after_of_writes_sub hostOps0_1 _ hostOps0_1_writes (r := main_arg4) (by decide)
    _ = W0 m c (Proc.devRef .tc main_arg4) := StableHlo.after_of_writes_sub hostOps0 _ hostOps0_writes (r := main_arg4) (by decide)
    _ = m ((c : Thread nD τ).loc main_arg4) := rfl

theorem W9_main_arg5 (c : Dev nD) : W9 m c (Proc.devRef .tc main_arg5) = m ((c : Thread nD τ).loc main_arg5) :=
  calc W9 m c (Proc.devRef .tc main_arg5)
    _ = W8 m c (Proc.devRef .tc main_arg5) := StableHlo.after_of_writes_sub hostOps2_4 _ hostOps2_4_writes (r := main_arg5) (by decide)
    _ = W7 m c (Proc.devRef .tc main_arg5) := StableHlo.after_of_writes_sub hostOps2_3 _ hostOps2_3_writes (r := main_arg5) (by decide)
    _ = W6 m c (Proc.devRef .tc main_arg5) := StableHlo.after_of_writes_sub hostOps2_2 _ hostOps2_2_writes (r := main_arg5) (by decide)
    _ = W5 m c (Proc.devRef .tc main_arg5) := StableHlo.after_of_writes_sub hostOps2_1 _ hostOps2_1_writes (r := main_arg5) (by decide)
    _ = W4 m c (Proc.devRef .tc main_arg5) := StableHlo.after_of_writes_sub hostOps2 _ hostOps2_writes (r := main_arg5) (by decide)
    _ = W3 m c (Proc.devRef .tc main_arg5) := (W4_arr m c 2).trans (((dat1 (V3 m) c).arrAt_in 2 rfl _).trans (A_eq1 (V3 m) c 2))
    _ = W2 m c (Proc.devRef .tc main_arg5) := W3_of_ne m c main_arg5 (by decide)
    _ = W1 m c (Proc.devRef .tc main_arg5) := StableHlo.after_of_writes_sub hostOps0_1 _ hostOps0_1_writes (r := main_arg5) (by decide)
    _ = W0 m c (Proc.devRef .tc main_arg5) := StableHlo.after_of_writes_sub hostOps0 _ hostOps0_writes (r := main_arg5) (by decide)
    _ = m ((c : Thread nD τ).loc main_arg5) := rfl

end Cert.Kernel.Hand

end
-- ==== Proof.KB.Run0A.lean ====
/-
  Layer 1's kernel body run once, symbolically, at the FIRST tile of a contraction (k = 0): the accumulator, found at anything, is zeroed, then the tile product is added.
  The witness is the list of pieces the body's stores leave in each buffer it writes; the inputs' buffers are handed back
  as they were found.
-/
import proofs.«124963_j54348516163877_2_alg».proof.Proof.KB.Kit0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this control case, on any whole staging memrefs: the input blocks at their contents, the accumulator at anything, the output block untouched. -/
noncomputable def kernelRun0_A (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : cond0_0 i) (hc1 : ¬cond0_1 i)
    (x0 : Vec F S256x15360 .bf16) (x1 : Vec F S1024x1920 .f32) (x2 : Vec F S1024 .f32) :
    { LS0 : List (View.Piece (Elt F) S256x1024 .f32) //
      ∀ (y3 : Vec F S256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare y3 ∗ (∃ f, arg6.view.loc (c : Thread nD τ) ↦[arg6.view.set]{fullShare} arg6.view.writes (Elt F) f LS0)) -∗ K ⟨⟩))
          ⊢ wp frame (wpE (defs₀ (F := F)) Variants.none c none) E (cc0__linear_relu_kernel i arg2 harg2 arg3 harg3 arg4 harg4 arg5 harg5 arg6 harg6) K } := by
  refine ⟨?_, fun y3 E K => ?run⟩
  case run =>
    simp only [cc0__linear_relu_kernel_eq_skeleton]; unfold cc0__linear_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KB.Run0B.lean ====
/-
  Layer 1's kernel body run once, symbolically, at a MIDDLE tile of a contraction (0 < k < 7): the tile product is added to the accumulator the point before left.
  The witness is the list of pieces the body's stores leave in each buffer it writes; the inputs' buffers are handed back
  as they were found.
-/
import proofs.«124963_j54348516163877_2_alg».proof.Proof.KB.Kit0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this control case, on any whole staging memrefs: the input blocks at their contents, the accumulator at what the point before left, the output block untouched. -/
noncomputable def kernelRun0_B (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : ¬cond0_1 i)
    (x0 : Vec F S256x15360 .bf16) (x1 : Vec F S1024x1920 .f32) (x2 : Vec F S1024 .f32) (xs0 : Vec F S256x1024 .f32) :
    { LS0 : List (View.Piece (Elt F) S256x1024 .f32) //
      ∀ (y3 : Vec F S256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare y3 ∗ (∃ f, arg6.view.loc (c : Thread nD τ) ↦[arg6.view.set]{fullShare} arg6.view.writes (Elt F) f LS0)) -∗ K ⟨⟩))
          ⊢ wp frame (wpE (defs₀ (F := F)) Variants.none c none) E (cc0__linear_relu_kernel i arg2 harg2 arg3 harg3 arg4 harg4 arg5 harg5 arg6 harg6) K } := by
  refine ⟨?_, fun y3 E K => ?run⟩
  case run =>
    simp only [cc0__linear_relu_kernel_eq_skeleton]; unfold cc0__linear_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KB.Run0C.lean ====
/-
  Layer 1's kernel body run once, symbolically, at the LAST tile of a contraction (k = 7): the tile product is added to the accumulator, then max(acc + bias, 0) is stored into the output block.
  The witness is the list of pieces the body's stores leave in each buffer it writes; the inputs' buffers are handed back
  as they were found.
-/
import proofs.«124963_j54348516163877_2_alg».proof.Proof.KB.Kit0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this control case, on any whole staging memrefs: the input blocks at their contents, the accumulator at what the point before left, the output block at anything. -/
noncomputable def kernelRun0_C (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : cond0_1 i)
    (x0 : Vec F S256x15360 .bf16) (x1 : Vec F S1024x1920 .f32) (x2 : Vec F S1024 .f32) (xs0 : Vec F S256x1024 .f32) :
    Σ' (L3 : List (View.Piece (Elt F) S256x1024 .bf16)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__linear_relu_kernel i arg2 harg2 arg3 harg3 arg4 harg4 arg5 harg5 arg6 harg6) K } := by
  refine ⟨?_, ?_, fun E K => ?run⟩
  case run =>
    simp only [cc0__linear_relu_kernel_eq_skeleton]; unfold cc0__linear_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KB.Body0.lean ====
/-
  Layer 1's body obligation.  The three control cases of the body are run once each (the run modules); here the pieces
  those runs found are read back as the body's named payloads (0 + tile product at k = 0, acc + tile product after,
  max(acc + bias, 0) into the output block at k = 7), and the obligation is discharged at a generic point by a case
  split on k = 0 / 0 < k < 7 / k = 7.
-/
import proofs.«124963_j54348516163877_2_alg».proof.Proof.KB.Acc0
import proofs.«124963_j54348516163877_2_alg».proof.Proof.KB.Run0A
import proofs.«124963_j54348516163877_2_alg».proof.Proof.KB.Run0B
import proofs.«124963_j54348516163877_2_alg».proof.Proof.KB.Run0C
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the found pieces are -/

theorem scover0_A (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : cond0_0 i) (hc1 : ¬cond0_1 i)
    (x0 : Vec F S256x15360 .bf16) (x1 : Vec F S1024x1920 .f32) (x2 : Vec F S1024 .f32) (y : S256x1024.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S256x1024.size (by sl_kernel_rfl) y

theorem scover0_B (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : ¬cond0_1 i)
    (x0 : Vec F S256x15360 .bf16) (x1 : Vec F S1024x1920 .f32) (x2 : Vec F S1024 .f32) (xs0 : Vec F S256x1024 .f32) (y : S256x1024.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S256x1024.size (by sl_kernel_rfl) y

theorem scover0_C (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : cond0_1 i)
    (x0 : Vec F S256x15360 .bf16) (x1 : Vec F S1024x1920 .f32) (x2 : Vec F S1024 .f32) (xs0 : Vec F S256x1024 .f32) (y : S256x1024.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S256x1024.size (by sl_kernel_rfl) y

theorem cover0_C (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : cond0_1 i)
    (x0 : Vec F S256x15360 .bf16) (x1 : Vec F S1024x1920 .f32) (x2 : Vec F S1024 .f32) (xs0 : Vec F S256x1024 .f32) (y : S256x1024.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S256x1024.size (by sl_kernel_rfl) y

/-- First tile: the accumulator ends at 0 + the tile product (the zero store read back, then the covering store). -/
theorem sval0_A (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : cond0_0 i) (hc1 : ¬cond0_1 i)
    (x0 : Vec F S256x15360 .bf16) (x1 : Vec F S1024x1920 .f32) (x2 : Vec F S1024 .f32) :
    VS0_0.read (Elt F) (VS0_0.writes (Elt F) VS0_0.junk (kernelRun0_A c i arg2 harg2 arg3 harg3 arg4 harg4 arg5 harg5 arg6 harg6 hc0 hc1 x0 x1 x2).1)
      = k0_pay2 (xsl0 i x0) x1 (k0_pay1 (F := F)) := by
  rw [View.read_writes_eq_canon _ _ _ (scover0_A c i arg2 harg2 arg3 harg3 arg4 harg4 arg5 harg5 arg6 harg6 hc0 hc1 x0 x1 x2)]
  unfold kernelRun0_A
  dsimp only
  try sl_unfold_words
  rw [View.canon_cons_unit_zero (S := S256x1024) hz2, View.readCov_unit_zero (S := S256x1024) _ hz2]
  simp only [View.readAt_eq_ld, harg2.read_unread, harg3.read_unread, View.ld_unit_zero (S := S1024x1920) hz2]
  rfl

/-- A middle tile: the accumulator ends at what it held plus the tile product. -/
theorem sval0_B (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : ¬cond0_1 i)
    (x0 : Vec F S256x15360 .bf16) (x1 : Vec F S1024x1920 .f32) (x2 : Vec F S1024 .f32) (xs0 : Vec F S256x1024 .f32) :
    VS0_0.read (Elt F) (VS0_0.writes (Elt F) VS0_0.junk (kernelRun0_B c i arg2 harg2 arg3 harg3 arg4 harg4 arg5 harg5 arg6 harg6 hc0 hc1 x0 x1 x2 xs0).1)
      = k0_pay2 (xsl0 i x0) x1 xs0 := by
  rw [View.read_writes_eq_canon _ _ _ (scover0_B c i arg2 harg2 arg3 harg3 arg4 harg4 arg5 harg5 arg6 harg6 hc0 hc1 x0 x1 x2 xs0)]
  unfold kernelRun0_B
  dsimp only
  try sl_unfold_words
  rw [View.canon_unit_zero hz2]
  simp only [View.readAt_eq_ld, harg2.read_unread, harg3.read_unread, harg6.read_unread, View.ld_unit_zero (S := S1024x1920) hz2, View.ld_unit_zero (S := S256x1024) hz2]
  rfl

/-- The last tile: the accumulator as at a middle tile, -/
theorem sval0_C (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : cond0_1 i)
    (x0 : Vec F S256x15360 .bf16) (x1 : Vec F S1024x1920 .f32) (x2 : Vec F S1024 .f32) (xs0 : Vec F S256x1024 .f32) :
    VS0_0.read (Elt F) (VS0_0.writes (Elt F) VS0_0.junk (kernelRun0_C c i arg2 harg2 arg3 harg3 arg4 harg4 arg5 harg5 arg6 harg6 hc0 hc1 x0 x1 x2 xs0).2.1)
      = k0_pay2 (xsl0 i x0) x1 xs0 := by
  rw [View.read_writes_eq_canon _ _ _ (scover0_C c i arg2 harg2 arg3 harg3 arg4 harg4 arg5 harg5 arg6 harg6 hc0 hc1 x0 x1 x2 xs0)]
  unfold kernelRun0_C
  dsimp only
  try sl_unfold_words
  rw [View.canon_unit_zero hz2]
  simp only [View.readAt_eq_ld, harg2.read_unread, harg3.read_unread, harg6.read_unread, View.ld_unit_zero (S := S1024x1920) hz2, View.ld_unit_zero (S := S256x1024) hz2]
  rfl

/-- and the output block at max(acc + bias, 0) of the accumulator just stored. -/
theorem oval0_C (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : cond0_1 i)
    (x0 : Vec F S256x15360 .bf16) (x1 : Vec F S1024x1920 .f32) (x2 : Vec F S1024 .f32) (xs0 : Vec F S256x1024 .f32) :
    VO0_3.read (Elt F) (VO0_3.writes (Elt F) VO0_3.junk (kernelRun0_C c i arg2 harg2 arg3 harg3 arg4 harg4 arg5 harg5 arg6 harg6 hc0 hc1 x0 x1 x2 xs0).1)
      = k0_pay3 x2 (k0_pay2 (xsl0 i x0) x1 xs0) := by
  rw [View.read_writes_eq_canon _ _ _ (cover0_C c i arg2 harg2 arg3 harg3 arg4 harg4 arg5 harg5 arg6 harg6 hc0 hc1 x0 x1 x2 xs0)]
  unfold kernelRun0_C
  dsimp only
  try sl_unfold_words
  rw [View.canon_unit_zero hz2]
  simp only [View.readAt_eq_ld, harg2.read_unread, harg3.read_unread, harg4.read_unread, harg6.read_unread, View.ld_unit_zero (S := S1024x1920) hz2, View.ld_unit_zero (S := S256x1024) hz2, View.ld_unit_zero (S := S1024) hz1, View.readCov_unit_zero (S := S256x1024) _ hz2]
  rfl

section Region
variable (V : (c : Dev nD) → (b : Ref sig .tc) → Buf (Elt F) ((c : Thread nD τ).loc b))

set_option maxHeartbeats 4800000 in
/-- The body at any point, by the case of its tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 32 := lt_of_lt_of_eq t.isLt (show cfg0.N = 32 from N_0)
  by_cases h1 : t.val % 8 = 7
  · have h0 : ¬t.val % 8 = 0 := by omega
    have hc0 : ¬cond0_0 (grid0.coords t) := fun h => h0 ((hcond0_0 t).mp h)
    have hc1 : cond0_1 (grid0.coords t) := (hcond0_1 t).mpr h1
    have hz : t.val ≠ 0 := by omega
    rw [show (dat0 V c).leavesExact 3 t = owns (c : Thread nD τ) (ms0_3 t) fullShare ((dat0 V c).after 3 t) from by
      unfold Dat.leavesExact; rw [liveAt0_3 t hc1], after0_3]
    rw [accAt0_next V c t h0]
    rw [PhiS0_castSucc V c t, PhiS0_pos V c _ _ hz]
    iintro ⟨⟨⟨HS0, Hrest⟩, Hg⟩, Ho, ⟨%d0, H0⟩, ⟨%d1, H1⟩, ⟨%d2, H2⟩, ⟨%d3, H3⟩⟩
    iapply ((kernelRun0_C c (grid0.coords t) _ _ _ _ _ _ _ _ _ _ hc0 hc1 (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact (View.read_writes_of_cover _ _ VS0_0 VS0_0.junk _ (scover0_C c _ _ _ _ _ _ _ _ _ _ _ hc0 hc1 _ _ _ _)).trans (sval0_C c _ _ _ _ _ _ _ _ _ _ _ hc0 hc1 _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact (View.read_writes_of_cover _ _ VO0_3 VO0_3.junk _ (cover0_C c _ _ _ _ _ _ _ _ _ _ _ hc0 hc1 _ _ _ _)).trans (oval0_C c _ _ _ _ _ _ _ _ _ _ _ hc0 hc1 _ _ _ _)
  · have hc1 : ¬cond0_1 (grid0.coords t) := fun h => h1 ((hcond0_1 t).mp h)
    rw [Dat.leavesExact_idle (dat0 V c) 3 t (idleAt0_3 t hc1) (noFlush0_3 t hc1)]
    by_cases h0 : t.val % 8 = 0
    · have hc0 : cond0_0 (grid0.coords t) := (hcond0_0 t).mpr h0
      rw [accAt0_first V c t h0]
      by_cases hz : t.val = 0
      · rw [PhiS0_castSucc V c t, PhiS0_zero V c _ _ hz]
        have hPin := PhiA0_in (F := F) c
        iintro ⟨HP, Ho, ⟨%d0, H0⟩, ⟨%d1, H1⟩, ⟨%d2, H2⟩, ⟨%d3, H3⟩⟩
        ihave HP' := hPin $$ HP
        icases HP' with ⟨⟨HS0, Hrest⟩, Hg⟩
        iapply ((kernelRun0_A c (grid0.coords t) _ _ _ _ _ _ _ _ _ _ hc0 hc1 (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact (View.read_writes_of_cover _ _ VS0_0 VS0_0.junk _ (scover0_A c _ _ _ _ _ _ _ _ _ _ _ hc0 hc1 _ _ _)).trans (sval0_A c _ _ _ _ _ _ _ _ _ _ _ hc0 hc1 _ _ _)
            iexact Hrest
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩⟩
        iapply ((kernelRun0_A c (grid0.coords t) _ _ _ _ _ _ _ _ _ _ hc0 hc1 (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact (View.read_writes_of_cover _ _ VS0_0 VS0_0.junk _ (scover0_A c _ _ _ _ _ _ _ _ _ _ _ hc0 hc1 _ _ _)).trans (sval0_A c _ _ _ _ _ _ _ _ _ _ _ hc0 hc1 _ _ _)
            iexact Hrest
          iexact Hg
        isplitl [Ho]; · iexact Ho
        isplitl [H0]; · iexact H0
        isplitl [H1]; · iexact H1
        isplitl [H2]; · iexact H2
        iexists _; iexact H3
    · have hc0 : ¬cond0_0 (grid0.coords t) := fun h => h0 ((hcond0_0 t).mp h)
      have hz : t.val ≠ 0 := fun h => h0 (by rw [h])
      rw [accAt0_next V c t h0]
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact (View.read_writes_of_cover _ _ VS0_0 VS0_0.junk _ (scover0_B c _ _ _ _ _ _ _ _ _ _ _ hc0 hc1 _ _ _ _)).trans (sval0_B c _ _ _ _ _ _ _ _ _ _ _ hc0 hc1 _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  refine .trans ?_ (PhiA0_out (F := F) c)
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 32 := N_0; omega)

end Region

end Cert.Kernel.Hand

end
-- ==== Proof.KB.Run1A.lean ====
/-
  Layer 2's kernel body run once, symbolically, at the FIRST tile of a contraction (k = 0): the accumulator, found at anything, is zeroed, then the tile product is added.
  The witness is the list of pieces the body's stores leave in each buffer it writes; the inputs' buffers are handed back
  as they were found.
-/
import proofs.«124963_j54348516163877_2_alg».proof.Proof.KB.Kit1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this control case, on any whole staging memrefs: the input blocks at their contents, the accumulator at anything, the output block untouched. -/
noncomputable def kernelRun1_A (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : cond1_0 i) (hc1 : ¬cond1_1 i)
    (x0 : Vec F S256x4096 .bf16) (x1 : Vec F S1024x1024 .f32) (x2 : Vec F S1024 .f32) :
    { LS0 : List (View.Piece (Elt F) S256x1024 .f32) //
      ∀ (y3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare y3 ∗ (∃ f, arg6.view.loc (c : Thread nD τ) ↦[arg6.view.set]{fullShare} arg6.view.writes (Elt F) f LS0)) -∗ K ⟨⟩))
          ⊢ wp frame (wpE (defs₀ (F := F)) Variants.none c none) E (cc1__linear_relu_kernel i arg2 harg2 arg3 harg3 arg4 harg4 arg5 harg5 arg6 harg6) K } := by
  refine ⟨?_, fun y3 E K => ?run⟩
  case run =>
    simp only [cc1__linear_relu_kernel_eq_skeleton]; unfold cc1__linear_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KB.Run1B.lean ====
/-
  Layer 2's kernel body run once, symbolically, at a MIDDLE tile of a contraction (0 < k < 3): the tile product is added to the accumulator the point before left.
  The witness is the list of pieces the body's stores leave in each buffer it writes; the inputs' buffers are handed back
  as they were found.
-/
import proofs.«124963_j54348516163877_2_alg».proof.Proof.KB.Kit1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this control case, on any whole staging memrefs: the input blocks at their contents, the accumulator at what the point before left, the output block untouched. -/
noncomputable def kernelRun1_B (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : ¬cond1_1 i)
    (x0 : Vec F S256x4096 .bf16) (x1 : Vec F S1024x1024 .f32) (x2 : Vec F S1024 .f32) (xs0 : Vec F S256x1024 .f32) :
    { LS0 : List (View.Piece (Elt F) S256x1024 .f32) //
      ∀ (y3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare y3 ∗ (∃ f, arg6.view.loc (c : Thread nD τ) ↦[arg6.view.set]{fullShare} arg6.view.writes (Elt F) f LS0)) -∗ K ⟨⟩))
          ⊢ wp frame (wpE (defs₀ (F := F)) Variants.none c none) E (cc1__linear_relu_kernel i arg2 harg2 arg3 harg3 arg4 harg4 arg5 harg5 arg6 harg6) K } := by
  refine ⟨?_, fun y3 E K => ?run⟩
  case run =>
    simp only [cc1__linear_relu_kernel_eq_skeleton]; unfold cc1__linear_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KB.Run1C.lean ====
/-
  Layer 2's kernel body run once, symbolically, at the LAST tile of a contraction (k = 3): the tile product is added to the accumulator, then max(acc + bias, 0) is stored into the output block.
  The witness is the list of pieces the body's stores leave in each buffer it writes; the inputs' buffers are handed back
  as they were found.
-/
import proofs.«124963_j54348516163877_2_alg».proof.Proof.KB.Kit1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this control case, on any whole staging memrefs: the input blocks at their contents, the accumulator at what the point before left, the output block at anything. -/
noncomputable def kernelRun1_C (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : cond1_1 i)
    (x0 : Vec F S256x4096 .bf16) (x1 : Vec F S1024x1024 .f32) (x2 : Vec F S1024 .f32) (xs0 : Vec F S256x1024 .f32) :
    Σ' (L3 : List (View.Piece (Elt F) S256x1024 .f32)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__linear_relu_kernel i arg2 harg2 arg3 harg3 arg4 harg4 arg5 harg5 arg6 harg6) K } := by
  refine ⟨?_, ?_, fun E K => ?run⟩
  case run =>
    simp only [cc1__linear_relu_kernel_eq_skeleton]; unfold cc1__linear_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KB.Body1.lean ====
/-
  Layer 2's body obligation.  The three control cases of the body are run once each (the run modules); here the pieces
  those runs found are read back as the body's named payloads (0 + tile product at k = 0, acc + tile product after,
  max(acc + bias, 0) into the output block at k = 3), and the obligation is discharged at a generic point by a case
  split on k = 0 / 0 < k < 3 / k = 3.
-/
import proofs.«124963_j54348516163877_2_alg».proof.Proof.KB.Acc1
import proofs.«124963_j54348516163877_2_alg».proof.Proof.KB.Run1A
import proofs.«124963_j54348516163877_2_alg».proof.Proof.KB.Run1B
import proofs.«124963_j54348516163877_2_alg».proof.Proof.KB.Run1C
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the found pieces are -/

theorem scover1_A (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : cond1_0 i) (hc1 : ¬cond1_1 i)
    (x0 : Vec F S256x4096 .bf16) (x1 : Vec F S1024x1024 .f32) (x2 : Vec F S1024 .f32) (y : S256x1024.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S256x1024.size (by sl_kernel_rfl) y

theorem scover1_B (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : ¬cond1_1 i)
    (x0 : Vec F S256x4096 .bf16) (x1 : Vec F S1024x1024 .f32) (x2 : Vec F S1024 .f32) (xs0 : Vec F S256x1024 .f32) (y : S256x1024.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S256x1024.size (by sl_kernel_rfl) y

theorem scover1_C (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : cond1_1 i)
    (x0 : Vec F S256x4096 .bf16) (x1 : Vec F S1024x1024 .f32) (x2 : Vec F S1024 .f32) (xs0 : Vec F S256x1024 .f32) (y : S256x1024.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S256x1024.size (by sl_kernel_rfl) y

theorem cover1_C (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : cond1_1 i)
    (x0 : Vec F S256x4096 .bf16) (x1 : Vec F S1024x1024 .f32) (x2 : Vec F S1024 .f32) (xs0 : Vec F S256x1024 .f32) (y : S256x1024.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S256x1024.size (by sl_kernel_rfl) y

/-- First tile: the accumulator ends at 0 + the tile product (the zero store read back, then the covering store). -/
theorem sval1_A (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : cond1_0 i) (hc1 : ¬cond1_1 i)
    (x0 : Vec F S256x4096 .bf16) (x1 : Vec F S1024x1024 .f32) (x2 : Vec F S1024 .f32) :
    VS1_0.read (Elt F) (VS1_0.writes (Elt F) VS1_0.junk (kernelRun1_A c i arg2 harg2 arg3 harg3 arg4 harg4 arg5 harg5 arg6 harg6 hc0 hc1 x0 x1 x2).1)
      = k1_pay2 (xsl1 i x0) x1 (k1_pay1 (F := F)) := by
  rw [View.read_writes_eq_canon _ _ _ (scover1_A c i arg2 harg2 arg3 harg3 arg4 harg4 arg5 harg5 arg6 harg6 hc0 hc1 x0 x1 x2)]
  unfold kernelRun1_A
  dsimp only
  try sl_unfold_words
  rw [View.canon_cons_unit_zero (S := S256x1024) hz2, View.readCov_unit_zero (S := S256x1024) _ hz2]
  simp only [View.readAt_eq_ld, harg2.read_unread, harg3.read_unread, View.ld_unit_zero (S := S1024x1024) hz2]
  rfl

/-- A middle tile: the accumulator ends at what it held plus the tile product. -/
theorem sval1_B (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : ¬cond1_1 i)
    (x0 : Vec F S256x4096 .bf16) (x1 : Vec F S1024x1024 .f32) (x2 : Vec F S1024 .f32) (xs0 : Vec F S256x1024 .f32) :
    VS1_0.read (Elt F) (VS1_0.writes (Elt F) VS1_0.junk (kernelRun1_B c i arg2 harg2 arg3 harg3 arg4 harg4 arg5 harg5 arg6 harg6 hc0 hc1 x0 x1 x2 xs0).1)
      = k1_pay2 (xsl1 i x0) x1 xs0 := by
  rw [View.read_writes_eq_canon _ _ _ (scover1_B c i arg2 harg2 arg3 harg3 arg4 harg4 arg5 harg5 arg6 harg6 hc0 hc1 x0 x1 x2 xs0)]
  unfold kernelRun1_B
  dsimp only
  try sl_unfold_words
  rw [View.canon_unit_zero hz2]
  simp only [View.readAt_eq_ld, harg2.read_unread, harg3.read_unread, harg6.read_unread, View.ld_unit_zero (S := S1024x1024) hz2, View.ld_unit_zero (S := S256x1024) hz2]
  rfl

/-- The last tile: the accumulator as at a middle tile, -/
theorem sval1_C (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : cond1_1 i)
    (x0 : Vec F S256x4096 .bf16) (x1 : Vec F S1024x1024 .f32) (x2 : Vec F S1024 .f32) (xs0 : Vec F S256x1024 .f32) :
    VS1_0.read (Elt F) (VS1_0.writes (Elt F) VS1_0.junk (kernelRun1_C c i arg2 harg2 arg3 harg3 arg4 harg4 arg5 harg5 arg6 harg6 hc0 hc1 x0 x1 x2 xs0).2.1)
      = k1_pay2 (xsl1 i x0) x1 xs0 := by
  rw [View.read_writes_eq_canon _ _ _ (scover1_C c i arg2 harg2 arg3 harg3 arg4 harg4 arg5 harg5 arg6 harg6 hc0 hc1 x0 x1 x2 xs0)]
  unfold kernelRun1_C
  dsimp only
  try sl_unfold_words
  rw [View.canon_unit_zero hz2]
  simp only [View.readAt_eq_ld, harg2.read_unread, harg3.read_unread, harg6.read_unread, View.ld_unit_zero (S := S1024x1024) hz2, View.ld_unit_zero (S := S256x1024) hz2]
  rfl

/-- and the output block at max(acc + bias, 0) of the accumulator just stored. -/
theorem oval1_C (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : cond1_1 i)
    (x0 : Vec F S256x4096 .bf16) (x1 : Vec F S1024x1024 .f32) (x2 : Vec F S1024 .f32) (xs0 : Vec F S256x1024 .f32) :
    VO1_3.read (Elt F) (VO1_3.writes (Elt F) VO1_3.junk (kernelRun1_C c i arg2 harg2 arg3 harg3 arg4 harg4 arg5 harg5 arg6 harg6 hc0 hc1 x0 x1 x2 xs0).1)
      = k1_pay3 x2 (k1_pay2 (xsl1 i x0) x1 xs0) := by
  rw [View.read_writes_eq_canon _ _ _ (cover1_C c i arg2 harg2 arg3 harg3 arg4 harg4 arg5 harg5 arg6 harg6 hc0 hc1 x0 x1 x2 xs0)]
  unfold kernelRun1_C
  dsimp only
  try sl_unfold_words
  rw [View.canon_unit_zero hz2]
  simp only [View.readAt_eq_ld, harg2.read_unread, harg3.read_unread, harg4.read_unread, harg6.read_unread, View.ld_unit_zero (S := S1024x1024) hz2, View.ld_unit_zero (S := S256x1024) hz2, View.ld_unit_zero (S := S1024) hz1, View.readCov_unit_zero (S := S256x1024) _ hz2]
  rfl

section Region
variable (V : (c : Dev nD) → (b : Ref sig .tc) → Buf (Elt F) ((c : Thread nD τ).loc b))

set_option maxHeartbeats 4800000 in
/-- The body at any point, by the case of its tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 8 := lt_of_lt_of_eq t.isLt (show cfg1.N = 8 from N_1)
  by_cases h1 : t.val % 4 = 3
  · have h0 : ¬t.val % 4 = 0 := by omega
    have hc0 : ¬cond1_0 (grid1.coords t) := fun h => h0 ((hcond1_0 t).mp h)
    have hc1 : cond1_1 (grid1.coords t) := (hcond1_1 t).mpr h1
    have hz : t.val ≠ 0 := by omega
    rw [show (dat1 V c).leavesExact 3 t = owns (c : Thread nD τ) (ms1_3 t) fullShare ((dat1 V c).after 3 t) from by
      unfold Dat.leavesExact; rw [liveAt1_3 t hc1], after1_3]
    rw [accAt1_next V c t h0]
    rw [PhiS1_castSucc V c t, PhiS1_pos V c _ _ hz]
    iintro ⟨⟨⟨HS0, Hrest⟩, Hg⟩, Ho, ⟨%d0, H0⟩, ⟨%d1, H1⟩, ⟨%d2, H2⟩, ⟨%d3, H3⟩⟩
    iapply ((kernelRun1_C c (grid1.coords t) _ _ _ _ _ _ _ _ _ _ hc0 hc1 (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact (View.read_writes_of_cover _ _ VS1_0 VS1_0.junk _ (scover1_C c _ _ _ _ _ _ _ _ _ _ _ hc0 hc1 _ _ _ _)).trans (sval1_C c _ _ _ _ _ _ _ _ _ _ _ hc0 hc1 _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact (View.read_writes_of_cover _ _ VO1_3 VO1_3.junk _ (cover1_C c _ _ _ _ _ _ _ _ _ _ _ hc0 hc1 _ _ _ _)).trans (oval1_C c _ _ _ _ _ _ _ _ _ _ _ hc0 hc1 _ _ _ _)
  · have hc1 : ¬cond1_1 (grid1.coords t) := fun h => h1 ((hcond1_1 t).mp h)
    rw [Dat.leavesExact_idle (dat1 V c) 3 t (idleAt1_3 t hc1) (noFlush1_3 t hc1)]
    by_cases h0 : t.val % 4 = 0
    · have hc0 : cond1_0 (grid1.coords t) := (hcond1_0 t).mpr h0
      rw [accAt1_first V c t h0]
      by_cases hz : t.val = 0
      · rw [PhiS1_castSucc V c t, PhiS1_zero V c _ _ hz]
        have hPin := PhiA1_in (F := F) c
        iintro ⟨HP, Ho, ⟨%d0, H0⟩, ⟨%d1, H1⟩, ⟨%d2, H2⟩, ⟨%d3, H3⟩⟩
        ihave HP' := hPin $$ HP
        icases HP' with ⟨⟨HS0, Hrest⟩, Hg⟩
        iapply ((kernelRun1_A c (grid1.coords t) _ _ _ _ _ _ _ _ _ _ hc0 hc1 (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact (View.read_writes_of_cover _ _ VS1_0 VS1_0.junk _ (scover1_A c _ _ _ _ _ _ _ _ _ _ _ hc0 hc1 _ _ _)).trans (sval1_A c _ _ _ _ _ _ _ _ _ _ _ hc0 hc1 _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ hc0 hc1 (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact (View.read_writes_of_cover _ _ VS1_0 VS1_0.junk _ (scover1_A c _ _ _ _ _ _ _ _ _ _ _ hc0 hc1 _ _ _)).trans (sval1_A c _ _ _ _ _ _ _ _ _ _ _ hc0 hc1 _ _ _)
            iexact Hrest
          iexact Hg
        isplitl [Ho]; · iexact Ho
        isplitl [H0]; · iexact H0
        isplitl [H1]; · iexact H1
        isplitl [H2]; · iexact H2
        iexists _; iexact H3
    · have hc0 : ¬cond1_0 (grid1.coords t) := fun h => h0 ((hcond1_0 t).mp h)
      have hz : t.val ≠ 0 := fun h => h0 (by rw [h])
      rw [accAt1_next V c t h0]
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) _ _ _ _ _ _ _ _ _ _ hc0 hc1 (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact (View.read_writes_of_cover _ _ VS1_0 VS1_0.junk _ (scover1_B c _ _ _ _ _ _ _ _ _ _ _ hc0 hc1 _ _ _ _)).trans (sval1_B c _ _ _ _ _ _ _ _ _ _ _ hc0 hc1 _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_out (F := F) c)
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 8 := N_1; omega)

end Region

end Cert.Kernel.Hand

end
-- ==== Proof.KB.Frame.lean ====
/-
  The whole program as a run of nine segments: two stretches of host operations (the mirrored view; the two flattened
  views stacked and rounded), layer 1's region, layer 2's region, and five stretches of host operations (the loss from
  the head's output).  Between segments the thread holds every unscoped buffer of the core at a valuation: the launch
  memory, folded through each host stretch, and across a region changed only at that region's arrays, to what the
  pipeline's write-backs leave.  The run ends with every unscoped buffer at the last valuation; the frame (each
  argument as launched) and the result are read off it.
-/
import proofs.«124963_j54348516163877_2_alg».proof.Proof.KB.Vals
import proofs.«124963_j54348516163877_2_alg».proof.Proof.KB.Body0
import proofs.«124963_j54348516163877_2_alg».proof.Proof.KB.Body1
import proofs.«124963_j54348516163877_2_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp (MT nD τ sig Unit (Elt F) ℕ (UR sig nD τ) ℕ) := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp (MT nD τ sig Unit (Elt F) ℕ (UR sig nD τ) ℕ) := iprop(StableHlo.held (c : Thread nD τ) (Pipeline.ucRefs τ sig) (W9 m c) ∗ ∃ r, prngReg c r)

/-! ## The regions as segments -/

set_option backward.isDefEq.respectTransparency.types false in
/-- Layer 1's region over the thread state: entered from every unscoped buffer at `W2`, left at `W3`.  Its arrays
    are split out of the unscoped buffers and put back at the exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered from every unscoped buffer at `W3`, left at `W4`.  Its arrays
    are split out of the unscoped buffers and put back at the exit contents; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final memory holds each unscoped buffer of each core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m c) ∗ R c) : sProp (MT nD τ sig Unit (Elt F) ℕ (UR sig nD τ) ℕ))
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c)⟩) (run_all m ρ)

end Cert.Kernel.Hand

end
-- ==== Proof.KI.Kit0.lean ====
/-
  Layer 1 of the perceptron head as a pipelined matmul: grid (n, k) = (4, 8), point t = 8·n + k.  The body zeroes its
  VMEM accumulator at k = 0, adds the k-th tile product x[:, 1920k : 1920(k+1)] · W1[1024n : 1024(n+1), 1920k : 1920(k+1)]ᵀ
  at every point, and at k = 7 stores max(acc + b1[1024n : 1024(n+1)], 0) into the output block.  This module holds what
  the three control cases of the body share: the two branch conditions in closed form over the grid, where the output
  window is idle, and the names of the staging and scratch memrefs the body is called with.
-/
import proofs.«124963_j54348516163877_2_alg».proof.Proof.Gen.KernelIdeal.Launch
import proofs.«124963_j54348516163877_2_alg».proof.Proof.Gen.KernelIdeal.Skeleton
import proofs.«124963_j54348516163877_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first tile of the contraction" (k = 0), as the body computes it from the grid coordinates. -/
abbrev cond0_0 (i : grid0.Coords) : Prop := (Scalar.cmpi .ne (Scalar.extui (Scalar.cmpi .eq (BitVec.ofNat 32 (i 1).val) 0#32)) 0#32) = 1#1
/-- It holds exactly at the points t ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last tile of the contraction" (k = 7). -/
abbrev cond0_1 (i : grid0.Coords) : Prop := k0_cond2 i = 1#1
/-- It holds exactly at the points t ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last tile nothing is stored into the output block, and the block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last tile the output block is stored. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S256x1024 .bf16 := (Memref.whole cc0_stg3_0 : Memref sig .tc .vmem S256x1024 .bf16).view
abbrev ms0_0 (t : Fin cfg0.N) : Memref sig .tc .vmem S256x15360 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1920 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S256x1024 .f32 := Memref.whole cc0_scratch0
abbrev VS0_0 : View sig .tc .vmem S256x1024 .f32 := scM0_0.view

/-- The scoped buffers of the core that belong to the OTHER layer's kernel (its staging buffers and accumulator), each
    whole at some contents: they ride through this layer's invariant untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with this layer's accumulator as a memref owned at some contents, beside the other layer's
    scoped buffers and the generator register. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

theorem PhiA0_in (c : Dev nD) :
    (Pipeline.ΦA spec0 c : sProp 𝕄) ⊢ iprop(iprop((∃ d, owns (c : Thread nD τ) scM0_0 fullShare d) ∗ rest0 c) ∗ (∃ r, prngReg c r)) := by
  rw [PhiA0_eq]
theorem PhiA0_out (c : Dev nD) :
    (iprop(iprop((∃ d, owns (c : Thread nD τ) scM0_0 fullShare d) ∗ rest0 c) ∗ (∃ r, prngReg c r)) : sProp 𝕄) ⊢ Pipeline.ΦA spec0 c := by
  rw [PhiA0_eq]

theorem hz2 : (![0, 0] : Fin 2 → Nat) = fun _ => 0 := funext fun a => by fin_cases a <;> rfl
theorem hz1 : (![0] : Fin 1 → Nat) = fun _ => 0 := funext fun a => by fin_cases a; rfl

end Cert.KernelIdeal.Hand

end
-- ==== Proof.KI.Acc0.lean ====
/-
  Layer 1 as proof data for the pipeline: what every staging buffer and the accumulator hold after each grid point.
  The accumulator after point t = 8·n + k is the running sum of the tile products of row block n, restarted from zero
  at k = 0; the output block written back at k = 7 is max(acc + bias, 0) of it.  Definitions only: the accumulation by
  recursion on the point, the invariant that carries the accumulator between points, and the proof data.
-/
import proofs.«124963_j54348516163877_2_alg».proof.Proof.KI.Kit0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The k-th column tile of the resident input block, as the body loads it. -/
abbrev xsl0 (i : grid0.Coords) (x0 : Vec F S256x15360 .bf16) : Vec F S256x1920 .bf16 :=
  View.ld x0 (Rect.unit (s := S256x15360) (k0_off1 i) S256x1920.size (k0_off1_inb i))

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation -/

/-- The tile product of point `t` added to `s`. -/
abbrev step0 (c : Dev nD) (t : Fin cfg0.N) (s : Vec F S256x1024 .f32) : Vec F S256x1024 .f32 :=
  k0_pay2 (xsl0 (grid0.coords t) (iblk0 V c 0 t)) (iblk0 V c 1 t) s

/-- The accumulator after point `n`: restarted from zero at the first tile of each contraction, the running sum after. -/
def accAt0 (c : Dev nD) : (n : ℕ) → n < cfg0.N → Vec F S256x1024 .f32
  | 0, h => step0 V c ⟨0, h⟩ (k0_pay1 (F := F))
  | n + 1, h =>
    if (n + 1) % 8 = 0 then step0 V c ⟨n + 1, h⟩ (k0_pay1 (F := F))
    else step0 V c ⟨n + 1, h⟩ (accAt0 c n (Nat.lt_of_succ_lt h))

theorem accAt0_first (c : Dev nD) (t : Fin cfg0.N) (h0 : t.val % 8 = 0) :
    accAt0 V c t.val t.isLt = step0 V c t (k0_pay1 (F := F)) := by
  obtain ⟨n, hn⟩ := t
  cases n with
  | zero => rfl
  | succ n => exact (if_pos h0).trans rfl

theorem accAt0_next (c : Dev nD) (t : Fin cfg0.N) (h0 : ¬t.val % 8 = 0) :
    accAt0 V c t.val t.isLt = step0 V c t (accAt0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The invariant before position `n`: before the first point the class's; afterwards the accumulator at what the point
    before left, the other layer's scoped buffers and the generator register at anything. -/
def PhiS0 (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare (accAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (accAt0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (accAt0 V c (n - 1) (by omega)) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 2 t) (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (iblk0 V c 2 t) (accAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp (MT nD τ sig Unit (Elt F) ℕ (UR sig nD τ) ℕ) :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

end Region

end Cert.KernelIdeal.Hand

end
-- ==== Proof.KI.Kit1.lean ====
/-
  Layer 2 of the perceptron head as a pipelined matmul: grid (n, k) = (2, 4), point t = 4·n + k.  The body zeroes its
  VMEM accumulator at k = 0, adds the k-th tile product h[:, 1024k : 1024(k+1)] · W2[1024n : 1024(n+1), 1024k : 1024(k+1)]ᵀ
  at every point, and at k = 3 stores max(acc + b2[1024n : 1024(n+1)], 0) into the output block.  This module holds what
  the three control cases of the body share, as for layer 1.
-/
import proofs.«124963_j54348516163877_2_alg».proof.Proof.KI.Kit0
import proofs.«124963_j54348516163877_2_alg».proof.Proof.Gen.KernelIdeal.Launch
import proofs.«124963_j54348516163877_2_alg».proof.Proof.Gen.KernelIdeal.Skeleton
import proofs.«124963_j54348516163877_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first tile of the contraction" (k = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points t ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last tile of the contraction" (k = 3). -/
abbrev cond1_1 (i : grid1.Coords) : Prop := k1_cond2 i = 1#1
/-- It holds exactly at the points t ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last tile nothing is stored into the output block, and the block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last tile the output block is stored. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S256x1024 .f32 := (Memref.whole cc1_stg3_0 : Memref sig .tc .vmem S256x1024 .f32).view
abbrev ms1_0 (t : Fin cfg1.N) : Memref sig .tc .vmem S256x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S256x1024 .f32 := Memref.whole cc1_scratch0
abbrev VS1_0 : View sig .tc .vmem S256x1024 .f32 := scM1_0.view

/-- The scoped buffers of the core that belong to the OTHER layer's kernel (its staging buffers and accumulator), each
    whole at some contents: they ride through this layer's invariant untouched. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

theorem PhiA1_in (c : Dev nD) :
    (Pipeline.ΦA spec1 c : sProp 𝕄) ⊢ iprop(iprop((∃ d, owns (c : Thread nD τ) scM1_0 fullShare d) ∗ rest1 c) ∗ (∃ r, prngReg c r)) := by
  unfold Pipeline.ΦA rest1; rw [scopedRest1_eq]; simp only [scM1_0, owns_whole]
  iintro ⟨⟨R1, R2, R3, R4, R5, R6, R7, R8, HS⟩, Hg⟩
  isplitl [R1 R2 R3 R4 R5 R6 R7 R8 HS]
  · isplitl [HS]; · iexact HS
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hg
theorem PhiA1_out (c : Dev nD) :
    (iprop(iprop((∃ d, owns (c : Thread nD τ) scM1_0 fullShare d) ∗ rest1 c) ∗ (∃ r, prngReg c r)) : sProp 𝕄) ⊢ Pipeline.ΦA spec1 c := by
  unfold Pipeline.ΦA rest1; rw [scopedRest1_eq]; simp only [scM1_0, owns_whole]
  iintro ⟨⟨HS, R1, R2, R3, R4, R5, R6, R7, R8⟩, Hg⟩
  isplitl [R1 R2 R3 R4 R5 R6 R7 R8 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  iexact Hg

end Cert.KernelIdeal.Hand

end
-- ==== Proof.KI.Acc1.lean ====
/-
  Layer 2 as proof data for the pipeline: what every staging buffer and the accumulator hold after each grid point.
  The accumulator after point t = 4·n + k is the running sum of the tile products of row block n, restarted from zero
  at k = 0; the output block written back at k = 3 is max(acc + bias, 0) of it.  Definitions only: the accumulation by
  recursion on the point, the invariant that carries the accumulator between points, and the proof data.
-/
import proofs.«124963_j54348516163877_2_alg».proof.Proof.KI.Kit1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The k-th column tile of the resident input block, as the body loads it. -/
abbrev xsl1 (i : grid1.Coords) (x0 : Vec F S256x4096 .bf16) : Vec F S256x1024 .bf16 :=
  View.ld x0 (Rect.unit (s := S256x4096) (k1_off1 i) S256x1024.size (k1_off1_inb i))

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation -/

/-- The tile product of point `t` added to `s`. -/
abbrev step1 (c : Dev nD) (t : Fin cfg1.N) (s : Vec F S256x1024 .f32) : Vec F S256x1024 .f32 :=
  k1_pay2 (xsl1 (grid1.coords t) (iblk1 V c 0 t)) (iblk1 V c 1 t) s

/-- The accumulator after point `n`: restarted from zero at the first tile of each contraction, the running sum after. -/
def accAt1 (c : Dev nD) : (n : ℕ) → n < cfg1.N → Vec F S256x1024 .f32
  | 0, h => step1 V c ⟨0, h⟩ (k1_pay1 (F := F))
  | n + 1, h =>
    if (n + 1) % 4 = 0 then step1 V c ⟨n + 1, h⟩ (k1_pay1 (F := F))
    else step1 V c ⟨n + 1, h⟩ (accAt1 c n (Nat.lt_of_succ_lt h))

theorem accAt1_first (c : Dev nD) (t : Fin cfg1.N) (h0 : t.val % 4 = 0) :
    accAt1 V c t.val t.isLt = step1 V c t (k1_pay1 (F := F)) := by
  obtain ⟨n, hn⟩ := t
  cases n with
  | zero => rfl
  | succ n => exact (if_pos h0).trans rfl

theorem accAt1_next (c : Dev nD) (t : Fin cfg1.N) (h0 : ¬t.val % 4 = 0) :
    accAt1 V c t.val t.isLt = step1 V c t (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The invariant before position `n`: before the first point the class's; afterwards the accumulator at what the point
    before left, the other layer's scoped buffers and the generator register at anything. -/
def PhiS1 (c : Dev nD) : (n : ℕ) → n ≤ cfg1.N → sProp (MT nD τ sig Unit (Elt F) ℕ (UR sig nD τ) ℕ)
  | 0, _ => Pipeline.ΦA spec1 c
  | n + 1, hn => iprop(iprop(owns (c : Thread nD τ) scM1_0 fullShare (accAt1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (accAt1 V c n hn) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (iblk1 V c 2 t) (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (iblk1 V c 2 t) (accAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp (MT nD τ sig Unit (Elt F) ℕ (UR sig nD τ) ℕ) :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

end Region

end Cert.KernelIdeal.Hand

end
-- ==== Proof.KI.Vals.lean ====
/-
  The contents of every unscoped buffer of a core at each boundary between the program's nine segments: the launch
  memory, folded through each stretch of host operations, and across each layer's region changed only at that region's
  arrays, to what the pipeline's write-backs leave.  No segment writes an argument array.
-/
import proofs.«124963_j54348516163877_2_alg».proof.Proof.KI.Acc0
import proofs.«124963_j54348516163877_2_alg».proof.Proof.KI.Acc1
import proofs.«124963_j54348516163877_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m (c, b)
abbrev W1 : Dev nD → Valuation τ sig (Elt F) := fun c => StableHlo.after hostOps0 (W0 m c)
/-- At layer 1's entry. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
/-- At layer 1's exit, which is layer 2's entry: layer 1's arrays at what the pipeline leaves, everything else as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)
/-- At layer 2's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)
abbrev W9 : Dev nD → Valuation τ sig (Elt F) := fun c => StableHlo.after hostOps2_4 (W8 m c)

/-! ## The arguments end as launched -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps2_4 _ hostOps2_4_writes (r := main_arg0) (by decide)
    _ = W7 m c (Proc.devRef .tc main_arg0) := StableHlo.after_of_writes_sub hostOps2_3 _ hostOps2_3_writes (r := main_arg0) (by decide)
    _ = W6 m c (Proc.devRef .tc main_arg0) := StableHlo.after_of_writes_sub hostOps2_2 _ hostOps2_2_writes (r := main_arg0) (by decide)
    _ = W5 m c (Proc.devRef .tc main_arg0) := StableHlo.after_of_writes_sub hostOps2_1 _ hostOps2_1_writes (r := main_arg0) (by decide)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_writes_sub hostOps0_1 _ hostOps0_1_writes (r := main_arg0) (by decide)
    _ = W0 m c (Proc.devRef .tc main_arg0) := StableHlo.after_of_writes_sub hostOps0 _ hostOps0_writes (r := main_arg0) (by decide)
    _ = m ((c : Thread nD τ).loc main_arg0) := rfl

theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps2_4 _ hostOps2_4_writes (r := main_arg1) (by decide)
    _ = W7 m c (Proc.devRef .tc main_arg1) := StableHlo.after_of_writes_sub hostOps2_3 _ hostOps2_3_writes (r := main_arg1) (by decide)
    _ = W6 m c (Proc.devRef .tc main_arg1) := StableHlo.after_of_writes_sub hostOps2_2 _ hostOps2_2_writes (r := main_arg1) (by decide)
    _ = W5 m c (Proc.devRef .tc main_arg1) := StableHlo.after_of_writes_sub hostOps2_1 _ hostOps2_1_writes (r := main_arg1) (by decide)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := StableHlo.after_of_writes_sub hostOps0_1 _ hostOps0_1_writes (r := main_arg1) (by decide)
    _ = W0 m c (Proc.devRef .tc main_arg1) := StableHlo.after_of_writes_sub hostOps0 _ hostOps0_writes (r := main_arg1) (by decide)
    _ = m ((c : Thread nD τ).loc main_arg1) := rfl

theorem W9_main_arg2 (c : Dev nD) : W9 m c (Proc.devRef .tc main_arg2) = m ((c : Thread nD τ).loc main_arg2) :=
  calc W9 m c (Proc.devRef .tc main_arg2)
    _ = W8 m c (Proc.devRef .tc main_arg2) := StableHlo.after_of_writes_sub hostOps2_4 _ hostOps2_4_writes (r := main_arg2) (by decide)
    _ = W7 m c (Proc.devRef .tc main_arg2) := StableHlo.after_of_writes_sub hostOps2_3 _ hostOps2_3_writes (r := main_arg2) (by decide)
    _ = W6 m c (Proc.devRef .tc main_arg2) := StableHlo.after_of_writes_sub hostOps2_2 _ hostOps2_2_writes (r := main_arg2) (by decide)
    _ = W5 m c (Proc.devRef .tc main_arg2) := StableHlo.after_of_writes_sub hostOps2_1 _ hostOps2_1_writes (r := main_arg2) (by decide)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := (W3_arr m c 1).trans (((dat0 (V2 m) c).arrAt_in 1 rfl _).trans (A_eq0 (V2 m) c 1))
    _ = W1 m c (Proc.devRef .tc main_arg2) := StableHlo.after_of_writes_sub hostOps0_1 _ hostOps0_1_writes (r := main_arg2) (by decide)
    _ = W0 m c (Proc.devRef .tc main_arg2) := StableHlo.after_of_writes_sub hostOps0 _ hostOps0_writes (r := main_arg2) (by decide)
    _ = m ((c : Thread nD τ).loc main_arg2) := rfl

theorem W9_main_arg3 (c : Dev nD) : W9 m c (Proc.devRef .tc main_arg3) = m ((c : Thread nD τ).loc main_arg3) :=
  calc W9 m c (Proc.devRef .tc main_arg3)
    _ = W8 m c (Proc.devRef .tc main_arg3) := StableHlo.after_of_writes_sub hostOps2_4 _ hostOps2_4_writes (r := main_arg3) (by decide)
    _ = W7 m c (Proc.devRef .tc main_arg3) := StableHlo.after_of_writes_sub hostOps2_3 _ hostOps2_3_writes (r := main_arg3) (by decide)
    _ = W6 m c (Proc.devRef .tc main_arg3) := StableHlo.after_of_writes_sub hostOps2_2 _ hostOps2_2_writes (r := main_arg3) (by decide)
    _ = W5 m c (Proc.devRef .tc main_arg3) := StableHlo.after_of_writes_sub hostOps2_1 _ hostOps2_1_writes (r := main_arg3) (by decide)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := (W3_arr m c 2).trans (((dat0 (V2 m) c).arrAt_in 2 rfl _).trans (A_eq0 (V2 m) c 2))
    _ = W1 m c (Proc.devRef .tc main_arg3) := StableHlo.after_of_writes_sub hostOps0_1 _ hostOps0_1_writes (r := main_arg3) (by decide)
    _ = W0 m c (Proc.devRef .tc main_arg3) := StableHlo.after_of_writes_sub hostOps0 _ hostOps0_writes (r := main_arg3) (by decide)
    _ = m ((c : Thread nD τ).loc main_arg3) := rfl

theorem W9_main_arg4 (c : Dev nD) : W9 m c (Proc.devRef .tc main_arg4) = m ((c : Thread nD τ).loc main_arg4) :=
  calc W9 m c (Proc.devRef .tc main_arg4)
    _ = W8 m c (Proc.devRef .tc main_arg4) := StableHlo.after_of_writes_sub hostOps2_4 _ hostOps2_4_writes (r := main_arg4) (by decide)
    _ = W7 m c (Proc.devRef .tc main_arg4) := StableHlo.after_of_writes_sub hostOps2_3 _ hostOps2_3_writes (r := main_arg4) (by decide)
    _ = W6 m c (Proc.devRef .tc main_arg4) := StableHlo.after_of_writes_sub hostOps2_2 _ hostOps2_2_writes (r := main_arg4) (by decide)
    _ = W5 m c (Proc.devRef .tc main_arg4) := StableHlo.after_of_writes_sub hostOps2_1 _ hostOps2_1_writes (r := main_arg4) (by decide)
    _ = W4 m c (Proc.devRef .tc main_arg4) := StableHlo.after_of_writes_sub hostOps2 _ hostOps2_writes (r := main_arg4) (by decide)
    _ = W3 m c (Proc.devRef .tc main_arg4) := (W4_arr m c 1).trans (((dat1 (V3 m) c).arrAt_in 1 rfl _).trans (A_eq1 (V3 m) c 1))
    _ = W2 m c (Proc.devRef .tc main_arg4) := W3_of_ne m c main_arg4 (by decide)
    _ = W1 m c (Proc.devRef .tc main_arg4) := StableHlo.after_of_writes_sub hostOps0_1 _ hostOps0_1_writes (r := main_arg4) (by decide)
    _ = W0 m c (Proc.devRef .tc main_arg4) := StableHlo.after_of_writes_sub hostOps0 _ hostOps0_writes (r := main_arg4) (by decide)
    _ = m ((c : Thread nD τ).loc main_arg4) := rfl

theorem W9_main_arg5 (c : Dev nD) : W9 m c (Proc.devRef .tc main_arg5) = m ((c : Thread nD τ).loc main_arg5) :=
  calc W9 m c (Proc.devRef .tc main_arg5)
    _ = W8 m c (Proc.devRef .tc main_arg5) := StableHlo.after_of_writes_sub hostOps2_4 _ hostOps2_4_writes (r := main_arg5) (by decide)
    _ = W7 m c (Proc.devRef .tc main_arg5) := StableHlo.after_of_writes_sub hostOps2_3 _ hostOps2_3_writes (r := main_arg5) (by decide)
    _ = W6 m c (Proc.devRef .tc main_arg5) := StableHlo.after_of_writes_sub hostOps2_2 _ hostOps2_2_writes (r := main_arg5) (by decide)
    _ = W5 m c (Proc.devRef .tc main_arg5) := StableHlo.after_of_writes_sub hostOps2_1 _ hostOps2_1_writes (r := main_arg5) (by decide)
    _ = W4 m c (Proc.devRef .tc main_arg5) := StableHlo.after_of_writes_sub hostOps2 _ hostOps2_writes (r := main_arg5) (by decide)
    _ = W3 m c (Proc.devRef .tc main_arg5) := (W4_arr m c 2).trans (((dat1 (V3 m) c).arrAt_in 2 rfl _).trans (A_eq1 (V3 m) c 2))
    _ = W2 m c (Proc.devRef .tc main_arg5) := W3_of_ne m c main_arg5 (by decide)
    _ = W1 m c (Proc.devRef .tc main_arg5) := StableHlo.after_of_writes_sub hostOps0_1 _ hostOps0_1_writes (r := main_arg5) (by decide)
    _ = W0 m c (Proc.devRef .tc main_arg5) := StableHlo.after_of_writes_sub hostOps0 _ hostOps0_writes (r := main_arg5) (by decide)
    _ = m ((c : Thread nD τ).loc main_arg5) := rfl

end Cert.KernelIdeal.Hand

end
-- ==== Proof.KI.Run0A.lean ====
/-
  Layer 1's kernel body run once, symbolically, at the FIRST tile of a contraction (k = 0): the accumulator, found at anything, is zeroed, then the tile product is added.
  The witness is the list of pieces the body's stores leave in each buffer it writes; the inputs' buffers are handed back
  as they were found.
-/
import proofs.«124963_j54348516163877_2_alg».proof.Proof.KI.Kit0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this control case, on any whole staging memrefs: the input blocks at their contents, the accumulator at anything, the output block untouched. -/
noncomputable def kernelRun0_A (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : cond0_0 i) (hc1 : ¬cond0_1 i)
    (x0 : Vec F S256x15360 .bf16) (x1 : Vec F S1024x1920 .f32) (x2 : Vec F S1024 .f32) :
    { LS0 : List (View.Piece (Elt F) S256x1024 .f32) //
      ∀ (y3 : Vec F S256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare y3 ∗ (∃ f, arg6.view.loc (c : Thread nD τ) ↦[arg6.view.set]{fullShare} arg6.view.writes (Elt F) f LS0)) -∗ K ⟨⟩))
          ⊢ wp frame (wpE (defs₀ (F := F)) Variants.none c none) E (cc0__linear_relu_kernel i arg2 harg2 arg3 harg3 arg4 harg4 arg5 harg5 arg6 harg6) K } := by
  refine ⟨?_, fun y3 E K => ?run⟩
  case run =>
    simp only [cc0__linear_relu_kernel_eq_skeleton]; unfold cc0__linear_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Run0B.lean ====
/-
  Layer 1's kernel body run once, symbolically, at a MIDDLE tile of a contraction (0 < k < 7): the tile product is added to the accumulator the point before left.
  The witness is the list of pieces the body's stores leave in each buffer it writes; the inputs' buffers are handed back
  as they were found.
-/
import proofs.«124963_j54348516163877_2_alg».proof.Proof.KI.Kit0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this control case, on any whole staging memrefs: the input blocks at their contents, the accumulator at what the point before left, the output block untouched. -/
noncomputable def kernelRun0_B (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : ¬cond0_1 i)
    (x0 : Vec F S256x15360 .bf16) (x1 : Vec F S1024x1920 .f32) (x2 : Vec F S1024 .f32) (xs0 : Vec F S256x1024 .f32) :
    { LS0 : List (View.Piece (Elt F) S256x1024 .f32) //
      ∀ (y3 : Vec F S256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare y3 ∗ (∃ f, arg6.view.loc (c : Thread nD τ) ↦[arg6.view.set]{fullShare} arg6.view.writes (Elt F) f LS0)) -∗ K ⟨⟩))
          ⊢ wp frame (wpE (defs₀ (F := F)) Variants.none c none) E (cc0__linear_relu_kernel i arg2 harg2 arg3 harg3 arg4 harg4 arg5 harg5 arg6 harg6) K } := by
  refine ⟨?_, fun y3 E K => ?run⟩
  case run =>
    simp only [cc0__linear_relu_kernel_eq_skeleton]; unfold cc0__linear_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Run0C.lean ====
/-
  Layer 1's kernel body run once, symbolically, at the LAST tile of a contraction (k = 7): the tile product is added to the accumulator, then max(acc + bias, 0) is stored into the output block.
  The witness is the list of pieces the body's stores leave in each buffer it writes; the inputs' buffers are handed back
  as they were found.
-/
import proofs.«124963_j54348516163877_2_alg».proof.Proof.KI.Kit0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this control case, on any whole staging memrefs: the input blocks at their contents, the accumulator at what the point before left, the output block at anything. -/
noncomputable def kernelRun0_C (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : cond0_1 i)
    (x0 : Vec F S256x15360 .bf16) (x1 : Vec F S1024x1920 .f32) (x2 : Vec F S1024 .f32) (xs0 : Vec F S256x1024 .f32) :
    Σ' (L3 : List (View.Piece (Elt F) S256x1024 .bf16)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__linear_relu_kernel i arg2 harg2 arg3 harg3 arg4 harg4 arg5 harg5 arg6 harg6) K } := by
  refine ⟨?_, ?_, fun E K => ?run⟩
  case run =>
    simp only [cc0__linear_relu_kernel_eq_skeleton]; unfold cc0__linear_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Body0.lean ====
/-
  Layer 1's body obligation.  The three control cases of the body are run once each (the run modules); here the pieces
  those runs found are read back as the body's named payloads (0 + tile product at k = 0, acc + tile product after,
  max(acc + bias, 0) into the output block at k = 7), and the obligation is discharged at a generic point by a case
  split on k = 0 / 0 < k < 7 / k = 7.
-/
import proofs.«124963_j54348516163877_2_alg».proof.Proof.KI.Acc0
import proofs.«124963_j54348516163877_2_alg».proof.Proof.KI.Run0A
import proofs.«124963_j54348516163877_2_alg».proof.Proof.KI.Run0B
import proofs.«124963_j54348516163877_2_alg».proof.Proof.KI.Run0C
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the found pieces are -/

theorem scover0_A (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : cond0_0 i) (hc1 : ¬cond0_1 i)
    (x0 : Vec F S256x15360 .bf16) (x1 : Vec F S1024x1920 .f32) (x2 : Vec F S1024 .f32) (y : S256x1024.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S256x1024.size (by sl_kernel_rfl) y

theorem scover0_B (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : ¬cond0_1 i)
    (x0 : Vec F S256x15360 .bf16) (x1 : Vec F S1024x1920 .f32) (x2 : Vec F S1024 .f32) (xs0 : Vec F S256x1024 .f32) (y : S256x1024.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S256x1024.size (by sl_kernel_rfl) y

theorem scover0_C (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : cond0_1 i)
    (x0 : Vec F S256x15360 .bf16) (x1 : Vec F S1024x1920 .f32) (x2 : Vec F S1024 .f32) (xs0 : Vec F S256x1024 .f32) (y : S256x1024.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S256x1024.size (by sl_kernel_rfl) y

theorem cover0_C (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : cond0_1 i)
    (x0 : Vec F S256x15360 .bf16) (x1 : Vec F S1024x1920 .f32) (x2 : Vec F S1024 .f32) (xs0 : Vec F S256x1024 .f32) (y : S256x1024.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S256x1024.size (by sl_kernel_rfl) y

/-- First tile: the accumulator ends at 0 + the tile product (the zero store read back, then the covering store). -/
theorem sval0_A (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : cond0_0 i) (hc1 : ¬cond0_1 i)
    (x0 : Vec F S256x15360 .bf16) (x1 : Vec F S1024x1920 .f32) (x2 : Vec F S1024 .f32) :
    VS0_0.read (Elt F) (VS0_0.writes (Elt F) VS0_0.junk (kernelRun0_A c i arg2 harg2 arg3 harg3 arg4 harg4 arg5 harg5 arg6 harg6 hc0 hc1 x0 x1 x2).1)
      = k0_pay2 (xsl0 i x0) x1 (k0_pay1 (F := F)) := by
  rw [View.read_writes_eq_canon _ _ _ (scover0_A c i arg2 harg2 arg3 harg3 arg4 harg4 arg5 harg5 arg6 harg6 hc0 hc1 x0 x1 x2)]
  unfold kernelRun0_A
  dsimp only
  try sl_unfold_words
  rw [View.canon_cons_unit_zero (S := S256x1024) hz2, View.readCov_unit_zero (S := S256x1024) _ hz2]
  simp only [View.readAt_eq_ld, harg2.read_unread, harg3.read_unread, View.ld_unit_zero (S := S1024x1920) hz2]
  rfl

/-- A middle tile: the accumulator ends at what it held plus the tile product. -/
theorem sval0_B (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : ¬cond0_1 i)
    (x0 : Vec F S256x15360 .bf16) (x1 : Vec F S1024x1920 .f32) (x2 : Vec F S1024 .f32) (xs0 : Vec F S256x1024 .f32) :
    VS0_0.read (Elt F) (VS0_0.writes (Elt F) VS0_0.junk (kernelRun0_B c i arg2 harg2 arg3 harg3 arg4 harg4 arg5 harg5 arg6 harg6 hc0 hc1 x0 x1 x2 xs0).1)
      = k0_pay2 (xsl0 i x0) x1 xs0 := by
  rw [View.read_writes_eq_canon _ _ _ (scover0_B c i arg2 harg2 arg3 harg3 arg4 harg4 arg5 harg5 arg6 harg6 hc0 hc1 x0 x1 x2 xs0)]
  unfold kernelRun0_B
  dsimp only
  try sl_unfold_words
  rw [View.canon_unit_zero hz2]
  simp only [View.readAt_eq_ld, harg2.read_unread, harg3.read_unread, harg6.read_unread, View.ld_unit_zero (S := S1024x1920) hz2, View.ld_unit_zero (S := S256x1024) hz2]
  rfl

/-- The last tile: the accumulator as at a middle tile, -/
theorem sval0_C (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : cond0_1 i)
    (x0 : Vec F S256x15360 .bf16) (x1 : Vec F S1024x1920 .f32) (x2 : Vec F S1024 .f32) (xs0 : Vec F S256x1024 .f32) :
    VS0_0.read (Elt F) (VS0_0.writes (Elt F) VS0_0.junk (kernelRun0_C c i arg2 harg2 arg3 harg3 arg4 harg4 arg5 harg5 arg6 harg6 hc0 hc1 x0 x1 x2 xs0).2.1)
      = k0_pay2 (xsl0 i x0) x1 xs0 := by
  rw [View.read_writes_eq_canon _ _ _ (scover0_C c i arg2 harg2 arg3 harg3 arg4 harg4 arg5 harg5 arg6 harg6 hc0 hc1 x0 x1 x2 xs0)]
  unfold kernelRun0_C
  dsimp only
  try sl_unfold_words
  rw [View.canon_unit_zero hz2]
  simp only [View.readAt_eq_ld, harg2.read_unread, harg3.read_unread, harg6.read_unread, View.ld_unit_zero (S := S1024x1920) hz2, View.ld_unit_zero (S := S256x1024) hz2]
  rfl

/-- and the output block at max(acc + bias, 0) of the accumulator just stored. -/
theorem oval0_C (c : Dev nD) (i : grid0.Coords) (arg2 : Memref sig .tc .vmem S256x15360 .bf16) (harg2 : arg2.IsWhole) (arg3 : Memref sig .tc .vmem S1024x1920 .f32) (harg3 : arg3.IsWhole) (arg4 : Memref sig .tc .vmem S1024 .f32) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : cond0_1 i)
    (x0 : Vec F S256x15360 .bf16) (x1 : Vec F S1024x1920 .f32) (x2 : Vec F S1024 .f32) (xs0 : Vec F S256x1024 .f32) :
    VO0_3.read (Elt F) (VO0_3.writes (Elt F) VO0_3.junk (kernelRun0_C c i arg2 harg2 arg3 harg3 arg4 harg4 arg5 harg5 arg6 harg6 hc0 hc1 x0 x1 x2 xs0).1)
      = k0_pay3 x2 (k0_pay2 (xsl0 i x0) x1 xs0) := by
  rw [View.read_writes_eq_canon _ _ _ (cover0_C c i arg2 harg2 arg3 harg3 arg4 harg4 arg5 harg5 arg6 harg6 hc0 hc1 x0 x1 x2 xs0)]
  unfold kernelRun0_C
  dsimp only
  try sl_unfold_words
  rw [View.canon_unit_zero hz2]
  simp only [View.readAt_eq_ld, harg2.read_unread, harg3.read_unread, harg4.read_unread, harg6.read_unread, View.ld_unit_zero (S := S1024x1920) hz2, View.ld_unit_zero (S := S256x1024) hz2, View.ld_unit_zero (S := S1024) hz1, View.readCov_unit_zero (S := S256x1024) _ hz2]
  rfl

section Region
variable (V : (c : Dev nD) → (b : Ref sig .tc) → Buf (Elt F) ((c : Thread nD τ).loc b))

set_option maxHeartbeats 4800000 in
/-- The body at any point, by the case of its tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 32 := lt_of_lt_of_eq t.isLt (show cfg0.N = 32 from N_0)
  by_cases h1 : t.val % 8 = 7
  · have h0 : ¬t.val % 8 = 0 := by omega
    have hc0 : ¬cond0_0 (grid0.coords t) := fun h => h0 ((hcond0_0 t).mp h)
    have hc1 : cond0_1 (grid0.coords t) := (hcond0_1 t).mpr h1
    have hz : t.val ≠ 0 := by omega
    rw [show (dat0 V c).leavesExact 3 t = owns (c : Thread nD τ) (ms0_3 t) fullShare ((dat0 V c).after 3 t) from by
      unfold Dat.leavesExact; rw [liveAt0_3 t hc1], after0_3]
    rw [accAt0_next V c t h0]
    rw [PhiS0_castSucc V c t, PhiS0_pos V c _ _ hz]
    iintro ⟨⟨⟨HS0, Hrest⟩, Hg⟩, Ho, ⟨%d0, H0⟩, ⟨%d1, H1⟩, ⟨%d2, H2⟩, ⟨%d3, H3⟩⟩
    iapply ((kernelRun0_C c (grid0.coords t) _ _ _ _ _ _ _ _ _ _ hc0 hc1 (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact (View.read_writes_of_cover _ _ VS0_0 VS0_0.junk _ (scover0_C c _ _ _ _ _ _ _ _ _ _ _ hc0 hc1 _ _ _ _)).trans (sval0_C c _ _ _ _ _ _ _ _ _ _ _ hc0 hc1 _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact (View.read_writes_of_cover _ _ VO0_3 VO0_3.junk _ (cover0_C c _ _ _ _ _ _ _ _ _ _ _ hc0 hc1 _ _ _ _)).trans (oval0_C c _ _ _ _ _ _ _ _ _ _ _ hc0 hc1 _ _ _ _)
  · have hc1 : ¬cond0_1 (grid0.coords t) := fun h => h1 ((hcond0_1 t).mp h)
    rw [Dat.leavesExact_idle (dat0 V c) 3 t (idleAt0_3 t hc1) (noFlush0_3 t hc1)]
    by_cases h0 : t.val % 8 = 0
    · have hc0 : cond0_0 (grid0.coords t) := (hcond0_0 t).mpr h0
      rw [accAt0_first V c t h0]
      by_cases hz : t.val = 0
      · rw [PhiS0_castSucc V c t, PhiS0_zero V c _ _ hz]
        have hPin := PhiA0_in (F := F) c
        iintro ⟨HP, Ho, ⟨%d0, H0⟩, ⟨%d1, H1⟩, ⟨%d2, H2⟩, ⟨%d3, H3⟩⟩
        ihave HP' := hPin $$ HP
        icases HP' with ⟨⟨HS0, Hrest⟩, Hg⟩
        iapply ((kernelRun0_A c (grid0.coords t) _ _ _ _ _ _ _ _ _ _ hc0 hc1 (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact (View.read_writes_of_cover _ _ VS0_0 VS0_0.junk _ (scover0_A c _ _ _ _ _ _ _ _ _ _ _ hc0 hc1 _ _ _)).trans (sval0_A c _ _ _ _ _ _ _ _ _ _ _ hc0 hc1 _ _ _)
            iexact Hrest
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩⟩
        iapply ((kernelRun0_A c (grid0.coords t) _ _ _ _ _ _ _ _ _ _ hc0 hc1 (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact (View.read_writes_of_cover _ _ VS0_0 VS0_0.junk _ (scover0_A c _ _ _ _ _ _ _ _ _ _ _ hc0 hc1 _ _ _)).trans (sval0_A c _ _ _ _ _ _ _ _ _ _ _ hc0 hc1 _ _ _)
            iexact Hrest
          iexact Hg
        isplitl [Ho]; · iexact Ho
        isplitl [H0]; · iexact H0
        isplitl [H1]; · iexact H1
        isplitl [H2]; · iexact H2
        iexists _; iexact H3
    · have hc0 : ¬cond0_0 (grid0.coords t) := fun h => h0 ((hcond0_0 t).mp h)
      have hz : t.val ≠ 0 := fun h => h0 (by rw [h])
      rw [accAt0_next V c t h0]
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact (View.read_writes_of_cover _ _ VS0_0 VS0_0.junk _ (scover0_B c _ _ _ _ _ _ _ _ _ _ _ hc0 hc1 _ _ _ _)).trans (sval0_B c _ _ _ _ _ _ _ _ _ _ _ hc0 hc1 _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  refine .trans ?_ (PhiA0_out (F := F) c)
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 32 := N_0; omega)

end Region

end Cert.KernelIdeal.Hand

end
-- ==== Proof.KI.Run1A.lean ====
/-
  Layer 2's kernel body run once, symbolically, at the FIRST tile of a contraction (k = 0): the accumulator, found at anything, is zeroed, then the tile product is added.
  The witness is the list of pieces the body's stores leave in each buffer it writes; the inputs' buffers are handed back
  as they were found.
-/
import proofs.«124963_j54348516163877_2_alg».proof.Proof.KI.Kit1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this control case, on any whole staging memrefs: the input blocks at their contents, the accumulator at anything, the output block untouched. -/
noncomputable def kernelRun1_A (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : cond1_0 i) (hc1 : ¬cond1_1 i)
    (x0 : Vec F S256x4096 .bf16) (x1 : Vec F S1024x1024 .f32) (x2 : Vec F S1024 .f32) :
    { LS0 : List (View.Piece (Elt F) S256x1024 .f32) //
      ∀ (y3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare y3 ∗ (∃ f, arg6.view.loc (c : Thread nD τ) ↦[arg6.view.set]{fullShare} arg6.view.writes (Elt F) f LS0)) -∗ K ⟨⟩))
          ⊢ wp frame (wpE (defs₀ (F := F)) Variants.none c none) E (cc1__linear_relu_kernel i arg2 harg2 arg3 harg3 arg4 harg4 arg5 harg5 arg6 harg6) K } := by
  refine ⟨?_, fun y3 E K => ?run⟩
  case run =>
    simp only [cc1__linear_relu_kernel_eq_skeleton]; unfold cc1__linear_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Run1B.lean ====
/-
  Layer 2's kernel body run once, symbolically, at a MIDDLE tile of a contraction (0 < k < 3): the tile product is added to the accumulator the point before left.
  The witness is the list of pieces the body's stores leave in each buffer it writes; the inputs' buffers are handed back
  as they were found.
-/
import proofs.«124963_j54348516163877_2_alg».proof.Proof.KI.Kit1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this control case, on any whole staging memrefs: the input blocks at their contents, the accumulator at what the point before left, the output block untouched. -/
noncomputable def kernelRun1_B (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : ¬cond1_1 i)
    (x0 : Vec F S256x4096 .bf16) (x1 : Vec F S1024x1024 .f32) (x2 : Vec F S1024 .f32) (xs0 : Vec F S256x1024 .f32) :
    { LS0 : List (View.Piece (Elt F) S256x1024 .f32) //
      ∀ (y3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare y3 ∗ (∃ f, arg6.view.loc (c : Thread nD τ) ↦[arg6.view.set]{fullShare} arg6.view.writes (Elt F) f LS0)) -∗ K ⟨⟩))
          ⊢ wp frame (wpE (defs₀ (F := F)) Variants.none c none) E (cc1__linear_relu_kernel i arg2 harg2 arg3 harg3 arg4 harg4 arg5 harg5 arg6 harg6) K } := by
  refine ⟨?_, fun y3 E K => ?run⟩
  case run =>
    simp only [cc1__linear_relu_kernel_eq_skeleton]; unfold cc1__linear_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Run1C.lean ====
/-
  Layer 2's kernel body run once, symbolically, at the LAST tile of a contraction (k = 3): the tile product is added to the accumulator, then max(acc + bias, 0) is stored into the output block.
  The witness is the list of pieces the body's stores leave in each buffer it writes; the inputs' buffers are handed back
  as they were found.
-/
import proofs.«124963_j54348516163877_2_alg».proof.Proof.KI.Kit1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this control case, on any whole staging memrefs: the input blocks at their contents, the accumulator at what the point before left, the output block at anything. -/
noncomputable def kernelRun1_C (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : cond1_1 i)
    (x0 : Vec F S256x4096 .bf16) (x1 : Vec F S1024x1024 .f32) (x2 : Vec F S1024 .f32) (xs0 : Vec F S256x1024 .f32) :
    Σ' (L3 : List (View.Piece (Elt F) S256x1024 .f32)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__linear_relu_kernel i arg2 harg2 arg3 harg3 arg4 harg4 arg5 harg5 arg6 harg6) K } := by
  refine ⟨?_, ?_, fun E K => ?run⟩
  case run =>
    simp only [cc1__linear_relu_kernel_eq_skeleton]; unfold cc1__linear_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Body1.lean ====
/-
  Layer 2's body obligation.  The three control cases of the body are run once each (the run modules); here the pieces
  those runs found are read back as the body's named payloads (0 + tile product at k = 0, acc + tile product after,
  max(acc + bias, 0) into the output block at k = 3), and the obligation is discharged at a generic point by a case
  split on k = 0 / 0 < k < 3 / k = 3.
-/
import proofs.«124963_j54348516163877_2_alg».proof.Proof.KI.Acc1
import proofs.«124963_j54348516163877_2_alg».proof.Proof.KI.Run1A
import proofs.«124963_j54348516163877_2_alg».proof.Proof.KI.Run1B
import proofs.«124963_j54348516163877_2_alg».proof.Proof.KI.Run1C
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the found pieces are -/

theorem scover1_A (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : cond1_0 i) (hc1 : ¬cond1_1 i)
    (x0 : Vec F S256x4096 .bf16) (x1 : Vec F S1024x1024 .f32) (x2 : Vec F S1024 .f32) (y : S256x1024.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S256x1024.size (by sl_kernel_rfl) y

theorem scover1_B (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : ¬cond1_1 i)
    (x0 : Vec F S256x4096 .bf16) (x1 : Vec F S1024x1024 .f32) (x2 : Vec F S1024 .f32) (xs0 : Vec F S256x1024 .f32) (y : S256x1024.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S256x1024.size (by sl_kernel_rfl) y

theorem scover1_C (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : cond1_1 i)
    (x0 : Vec F S256x4096 .bf16) (x1 : Vec F S1024x1024 .f32) (x2 : Vec F S1024 .f32) (xs0 : Vec F S256x1024 .f32) (y : S256x1024.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S256x1024.size (by sl_kernel_rfl) y

theorem cover1_C (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : cond1_1 i)
    (x0 : Vec F S256x4096 .bf16) (x1 : Vec F S1024x1024 .f32) (x2 : Vec F S1024 .f32) (xs0 : Vec F S256x1024 .f32) (y : S256x1024.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S256x1024.size (by sl_kernel_rfl) y

/-- First tile: the accumulator ends at 0 + the tile product (the zero store read back, then the covering store). -/
theorem sval1_A (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : cond1_0 i) (hc1 : ¬cond1_1 i)
    (x0 : Vec F S256x4096 .bf16) (x1 : Vec F S1024x1024 .f32) (x2 : Vec F S1024 .f32) :
    VS1_0.read (Elt F) (VS1_0.writes (Elt F) VS1_0.junk (kernelRun1_A c i arg2 harg2 arg3 harg3 arg4 harg4 arg5 harg5 arg6 harg6 hc0 hc1 x0 x1 x2).1)
      = k1_pay2 (xsl1 i x0) x1 (k1_pay1 (F := F)) := by
  rw [View.read_writes_eq_canon _ _ _ (scover1_A c i arg2 harg2 arg3 harg3 arg4 harg4 arg5 harg5 arg6 harg6 hc0 hc1 x0 x1 x2)]
  unfold kernelRun1_A
  dsimp only
  try sl_unfold_words
  rw [View.canon_cons_unit_zero (S := S256x1024) hz2, View.readCov_unit_zero (S := S256x1024) _ hz2]
  simp only [View.readAt_eq_ld, harg2.read_unread, harg3.read_unread, View.ld_unit_zero (S := S1024x1024) hz2]
  rfl

/-- A middle tile: the accumulator ends at what it held plus the tile product. -/
theorem sval1_B (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : ¬cond1_1 i)
    (x0 : Vec F S256x4096 .bf16) (x1 : Vec F S1024x1024 .f32) (x2 : Vec F S1024 .f32) (xs0 : Vec F S256x1024 .f32) :
    VS1_0.read (Elt F) (VS1_0.writes (Elt F) VS1_0.junk (kernelRun1_B c i arg2 harg2 arg3 harg3 arg4 harg4 arg5 harg5 arg6 harg6 hc0 hc1 x0 x1 x2 xs0).1)
      = k1_pay2 (xsl1 i x0) x1 xs0 := by
  rw [View.read_writes_eq_canon _ _ _ (scover1_B c i arg2 harg2 arg3 harg3 arg4 harg4 arg5 harg5 arg6 harg6 hc0 hc1 x0 x1 x2 xs0)]
  unfold kernelRun1_B
  dsimp only
  try sl_unfold_words
  rw [View.canon_unit_zero hz2]
  simp only [View.readAt_eq_ld, harg2.read_unread, harg3.read_unread, harg6.read_unread, View.ld_unit_zero (S := S1024x1024) hz2, View.ld_unit_zero (S := S256x1024) hz2]
  rfl

/-- The last tile: the accumulator as at a middle tile, -/
theorem sval1_C (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : cond1_1 i)
    (x0 : Vec F S256x4096 .bf16) (x1 : Vec F S1024x1024 .f32) (x2 : Vec F S1024 .f32) (xs0 : Vec F S256x1024 .f32) :
    VS1_0.read (Elt F) (VS1_0.writes (Elt F) VS1_0.junk (kernelRun1_C c i arg2 harg2 arg3 harg3 arg4 harg4 arg5 harg5 arg6 harg6 hc0 hc1 x0 x1 x2 xs0).2.1)
      = k1_pay2 (xsl1 i x0) x1 xs0 := by
  rw [View.read_writes_eq_canon _ _ _ (scover1_C c i arg2 harg2 arg3 harg3 arg4 harg4 arg5 harg5 arg6 harg6 hc0 hc1 x0 x1 x2 xs0)]
  unfold kernelRun1_C
  dsimp only
  try sl_unfold_words
  rw [View.canon_unit_zero hz2]
  simp only [View.readAt_eq_ld, harg2.read_unread, harg3.read_unread, harg6.read_unread, View.ld_unit_zero (S := S1024x1024) hz2, View.ld_unit_zero (S := S256x1024) hz2]
  rfl

/-- and the output block at max(acc + bias, 0) of the accumulator just stored. -/
theorem oval1_C (c : Dev nD) (i : grid1.Coords) (arg2 : Memref sig .tc .vmem S256x4096 .bf16) (harg2 : arg2.IsWhole) (arg3 : Memref sig .tc .vmem S1024x1024 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256x1024 .f32) (harg6 : arg6.IsWhole) (hc0 : ¬cond1_0 i) (hc1 : cond1_1 i)
    (x0 : Vec F S256x4096 .bf16) (x1 : Vec F S1024x1024 .f32) (x2 : Vec F S1024 .f32) (xs0 : Vec F S256x1024 .f32) :
    VO1_3.read (Elt F) (VO1_3.writes (Elt F) VO1_3.junk (kernelRun1_C c i arg2 harg2 arg3 harg3 arg4 harg4 arg5 harg5 arg6 harg6 hc0 hc1 x0 x1 x2 xs0).1)
      = k1_pay3 x2 (k1_pay2 (xsl1 i x0) x1 xs0) := by
  rw [View.read_writes_eq_canon _ _ _ (cover1_C c i arg2 harg2 arg3 harg3 arg4 harg4 arg5 harg5 arg6 harg6 hc0 hc1 x0 x1 x2 xs0)]
  unfold kernelRun1_C
  dsimp only
  try sl_unfold_words
  rw [View.canon_unit_zero hz2]
  simp only [View.readAt_eq_ld, harg2.read_unread, harg3.read_unread, harg4.read_unread, harg6.read_unread, View.ld_unit_zero (S := S1024x1024) hz2, View.ld_unit_zero (S := S256x1024) hz2, View.ld_unit_zero (S := S1024) hz1, View.readCov_unit_zero (S := S256x1024) _ hz2]
  rfl

section Region
variable (V : (c : Dev nD) → (b : Ref sig .tc) → Buf (Elt F) ((c : Thread nD τ).loc b))

set_option maxHeartbeats 4800000 in
/-- The body at any point, by the case of its tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 8 := lt_of_lt_of_eq t.isLt (show cfg1.N = 8 from N_1)
  by_cases h1 : t.val % 4 = 3
  · have h0 : ¬t.val % 4 = 0 := by omega
    have hc0 : ¬cond1_0 (grid1.coords t) := fun h => h0 ((hcond1_0 t).mp h)
    have hc1 : cond1_1 (grid1.coords t) := (hcond1_1 t).mpr h1
    have hz : t.val ≠ 0 := by omega
    rw [show (dat1 V c).leavesExact 3 t = owns (c : Thread nD τ) (ms1_3 t) fullShare ((dat1 V c).after 3 t) from by
      unfold Dat.leavesExact; rw [liveAt1_3 t hc1], after1_3]
    rw [accAt1_next V c t h0]
    rw [PhiS1_castSucc V c t, PhiS1_pos V c _ _ hz]
    iintro ⟨⟨⟨HS0, Hrest⟩, Hg⟩, Ho, ⟨%d0, H0⟩, ⟨%d1, H1⟩, ⟨%d2, H2⟩, ⟨%d3, H3⟩⟩
    iapply ((kernelRun1_C c (grid1.coords t) _ _ _ _ _ _ _ _ _ _ hc0 hc1 (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact (View.read_writes_of_cover _ _ VS1_0 VS1_0.junk _ (scover1_C c _ _ _ _ _ _ _ _ _ _ _ hc0 hc1 _ _ _ _)).trans (sval1_C c _ _ _ _ _ _ _ _ _ _ _ hc0 hc1 _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact (View.read_writes_of_cover _ _ VO1_3 VO1_3.junk _ (cover1_C c _ _ _ _ _ _ _ _ _ _ _ hc0 hc1 _ _ _ _)).trans (oval1_C c _ _ _ _ _ _ _ _ _ _ _ hc0 hc1 _ _ _ _)
  · have hc1 : ¬cond1_1 (grid1.coords t) := fun h => h1 ((hcond1_1 t).mp h)
    rw [Dat.leavesExact_idle (dat1 V c) 3 t (idleAt1_3 t hc1) (noFlush1_3 t hc1)]
    by_cases h0 : t.val % 4 = 0
    · have hc0 : cond1_0 (grid1.coords t) := (hcond1_0 t).mpr h0
      rw [accAt1_first V c t h0]
      by_cases hz : t.val = 0
      · rw [PhiS1_castSucc V c t, PhiS1_zero V c _ _ hz]
        have hPin := PhiA1_in (F := F) c
        iintro ⟨HP, Ho, ⟨%d0, H0⟩, ⟨%d1, H1⟩, ⟨%d2, H2⟩, ⟨%d3, H3⟩⟩
        ihave HP' := hPin $$ HP
        icases HP' with ⟨⟨HS0, Hrest⟩, Hg⟩
        iapply ((kernelRun1_A c (grid1.coords t) _ _ _ _ _ _ _ _ _ _ hc0 hc1 (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact (View.read_writes_of_cover _ _ VS1_0 VS1_0.junk _ (scover1_A c _ _ _ _ _ _ _ _ _ _ _ hc0 hc1 _ _ _)).trans (sval1_A c _ _ _ _ _ _ _ _ _ _ _ hc0 hc1 _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ hc0 hc1 (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact (View.read_writes_of_cover _ _ VS1_0 VS1_0.junk _ (scover1_A c _ _ _ _ _ _ _ _ _ _ _ hc0 hc1 _ _ _)).trans (sval1_A c _ _ _ _ _ _ _ _ _ _ _ hc0 hc1 _ _ _)
            iexact Hrest
          iexact Hg
        isplitl [Ho]; · iexact Ho
        isplitl [H0]; · iexact H0
        isplitl [H1]; · iexact H1
        isplitl [H2]; · iexact H2
        iexists _; iexact H3
    · have hc0 : ¬cond1_0 (grid1.coords t) := fun h => h0 ((hcond1_0 t).mp h)
      have hz : t.val ≠ 0 := fun h => h0 (by rw [h])
      rw [accAt1_next V c t h0]
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) _ _ _ _ _ _ _ _ _ _ hc0 hc1 (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact (View.read_writes_of_cover _ _ VS1_0 VS1_0.junk _ (scover1_B c _ _ _ _ _ _ _ _ _ _ _ hc0 hc1 _ _ _ _)).trans (sval1_B c _ _ _ _ _ _ _ _ _ _ _ hc0 hc1 _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_out (F := F) c)
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 8 := N_1; omega)

end Region

end Cert.KernelIdeal.Hand

end
-- ==== Proof.KI.Frame.lean ====
/-
  The whole program as a run of nine segments: two stretches of host operations (the mirrored view; the two flattened
  views stacked and rounded), layer 1's region, layer 2's region, and five stretches of host operations (the loss from
  the head's output).  Between segments the thread holds every unscoped buffer of the core at a valuation: the launch
  memory, folded through each host stretch, and across a region changed only at that region's arrays, to what the
  pipeline's write-backs leave.  The run ends with every unscoped buffer at the last valuation; the frame (each
  argument as launched) and the result are read off it.
-/
import proofs.«124963_j54348516163877_2_alg».proof.Proof.KI.Vals
import proofs.«124963_j54348516163877_2_alg».proof.Proof.KI.Body0
import proofs.«124963_j54348516163877_2_alg».proof.Proof.KI.Body1
import proofs.«124963_j54348516163877_2_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp (MT nD τ sig Unit (Elt F) ℕ (UR sig nD τ) ℕ) := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp (MT nD τ sig Unit (Elt F) ℕ (UR sig nD τ) ℕ) := iprop(StableHlo.held (c : Thread nD τ) (Pipeline.ucRefs τ sig) (W9 m c) ∗ ∃ r, prngReg c r)

/-! ## The regions as segments -/

set_option backward.isDefEq.respectTransparency.types false in
/-- Layer 1's region over the thread state: entered from every unscoped buffer at `W2`, left at `W3`.  Its arrays
    are split out of the unscoped buffers and put back at the exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered from every unscoped buffer at `W3`, left at `W4`.  Its arrays
    are split out of the unscoped buffers and put back at the exit contents; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final memory holds each unscoped buffer of each core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m c) ∗ R c) : sProp (MT nD τ sig Unit (Elt F) ℕ (UR sig nD τ) ℕ))
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c)⟩) (run_all m ρ)

end Cert.KernelIdeal.Hand

end
-- ==== Proof.LibDotNT.lean ====
/-
  A matrix product against a transposed right operand, read at an entry.  For dimension numbers that contract the
  second axis of BOTH operands (no batch axes), the product of an M × K array by an N × K array at entry (r, c) is the
  sum over k < K of left(r, k) · right(c, k) — the inner product of the left operand's row r with the right operand's
  row c — for the kernel's product into a zero accumulator and for the host's product alike.  The contraction index of
  the dimension numbers is a one-coordinate tuple; the sum is re-indexed by that coordinate.
-/
import Idealize.ShloMosaic.PureOps.Ideal.Laws
import Idealize.ShloMosaic.Lib.ValueIdx

noncomputable section

namespace Cert.LibDotNT

open Idealize.ShloMosaic Idealize.ShloMosaic.ValueIdx

variable {M K N : Nat} {φ₁ φ₂ : FTy}
  (D : DotDims (⟨2, ![M, K]⟩ : Shape) (⟨2, ![N, K]⟩ : Shape) (⟨2, ![M, N]⟩ : Shape))
  (hrank : D.contr.rank = 1) (hsize : D.contr.size ⟨0, by omega⟩ = K)
  (hlc : D.lhsContracting = [1]) (hrc : D.rhsContracting = [1])
  (hL0 : ∀ j k, (D.lhsIdx j k 0).val = (j 0).val) (hR0 : ∀ j k, (D.rhsIdx j k 0).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR0 in
/-- The right operand's index there is (c, k): its row is the output's column. -/
theorem rhsIdx_eq (r : Fin M) (c : Fin N) (k : Fin K) :
    D.rhsIdx (ix2 r c) ((contrEquiv1 D K hrank hsize).symm k) = ix2 c k := by
  funext a; apply Fin.ext
  match a with
  | ⟨0, _⟩ => exact hR0 _ _
  | ⟨1, _⟩ => exact (D.rhsIdx_val_of_single hrc _ _).trans (contrEquiv1_symm_val D K hrank hsize k)

include hrank hsize hlc hrc hL0 hR0 in
/-- The sum over the contraction index is the sum over k < K of the two operands at (r, k) and (c, k). -/
theorem sum_contr (lhs : FVec Ideal (⟨2, ![M, K]⟩ : Shape) φ₁) (rhs : FVec Ideal (⟨2, ![N, K]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 c k) := by
  rw [← Equiv.sum_comp (contrEquiv1 D K hrank hsize).symm]
  refine Finset.sum_congr rfl fun k _ => ?_
  rw [lhsIdx_eq D hrank hsize hlc hL0 r c k, rhsIdx_eq D hrank hsize hrc hR0 r c k]

include hrank hsize hlc hrc hL0 hR0 in
/-- The kernel's product into the zero accumulator, at an entry. -/
theorem matmul_zero_apply (prec : Option ContractPrecision) (lhs : FVec Ideal (⟨2, ![M, K]⟩ : Shape) φ₁)
    (rhs : FVec Ideal (⟨2, ![N, K]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 c k) :=
  (Ideal.matmul_constant_zero_apply D prec lhs rhs (ix2 r c)).trans (sum_contr D hrank hsize hlc hrc hL0 hR0 lhs rhs r c)

include hrank hsize hlc hrc hL0 hR0 in
/-- The host's product, at an entry, whatever its schedule. -/
theorem dotGeneral_apply (prec : Option ContractPrecision) (sched : HostSchedule) (lhs : FVec Ideal (⟨2, ![M, K]⟩ : Shape) φ₁)
    (rhs : FVec Ideal (⟨2, ![N, K]⟩ : Shape) φ₂) (r : Fin M) (c : Fin N) :
    FloatOps.dotGeneral D prec sched lhs rhs (ix2 r c) = ∑ k : Fin K, lhs (ix2 r k) * rhs (ix2 c k) :=
  (Ideal.dotGeneral_apply D prec sched lhs rhs (ix2 r c)).trans (sum_contr D hrank hsize hlc hrc hL0 hR0 lhs rhs r c)

end Cert.LibDotNT

end
-- ==== Proof.PayloadMath.lean ====
/-
  The pure arithmetic of the two layers of a two-layer perceptron head, read at an entry.  Each layer accumulates,
  tile by tile along the contraction axis, the product of an activation tile by the transpose of a weight tile into an
  accumulator that starts at zero, and at the last tile adds the bias row and clamps below at zero.  At the extended
  reals a change of float format is the identity, a cast of a shape to itself is the identity, and the all-zero word
  is 0; so the accumulation step at entry (r, j) is the accumulator there plus the inner product of row r of the
  activation tile with row j of the weight tile, and the final step is max(acc(r, j) + bias(j), 0).  Two facts about
  sums of extended reals close the file: a left fold of additions starting from 0 is the finite sum, and a sum over
  T·L consecutive indices is the sum over T tiles of the sums over the L indices inside a tile.  Addition of extended
  reals is a commutative monoid, so neither fact needs any finiteness.
-/
import proofs.«124963_j54348516163877_2_alg».proof.Proof.Gen.KernelIdeal.Skeleton
import proofs.«124963_j54348516163877_2_alg».proof.Proof.LibDotNT
import Idealize.ShloMosaic.Lib.ValueLayout

noncomputable section

namespace Cert.PayloadMath

open Idealize.ShloMosaic Idealize.ShloMosaic.ValueIdx Cert.KernelIdeal Cert.KernelIdeal.Gen

/-! ## What both layers share: the bias row added and the result clamped below at zero -/

/-- A bias row of length n, cast to one row and broadcast over m rows, added to an m × n array and clamped below at
    the zero word: at (r, j) it is max(s(r, j) + b(j), 0). -/
theorem bias_relu_apply {m n : ℕ} (b : FVec Ideal (⟨1, ![n]⟩ : Shape) .f32) (s : FVec Ideal (⟨2, ![m, n]⟩ : Shape) .f32)
    (hc : (⟨1, ![n]⟩ : Shape).ShapeCasts ⟨2, ![1, n]⟩) (hb : (⟨2, ![1, n]⟩ : Shape).Broadcasts ⟨2, ![m, n]⟩)
    (r : Fin m) (j : Fin n) :
    maximumf (addf s (broadcastTo ⟨2, ![m, n]⟩ (shapeCast ⟨2, ![1, n]⟩ b hc) hb))
        (broadcast ⟨2, ![m, n]⟩ (Scalar.ofBits (F := Ideal) .f32 0x00000000#32)) (ix2 r j)
      = max (s (ix2 r j) + b (ix1 j)) 0 := by
  rw [maximumf_apply, addf_apply, broadcast_apply, broadcastTo_1b_ab_apply, shapeCast_a_1a_apply]
  exact congrArg (max (s (ix2 r j) + b (ix1 j))) Ideal.ofBits_zero_f32

/-! ## The first layer: tiles 256 × 1920 by 1024 × 1920 -/

/-- The zero accumulator reads 0 everywhere. -/
theorem pay0_1 (r : Fin 256) (j : Fin 1024) : k0_pay1 (F := Ideal) (ix2 r j) = 0 := by
  unfold k0_pay1
  rw [shapeCast_self]
  exact Ideal.ofBits_zero_f32

/-- The left operand's row coordinate is the output's row coordinate. -/
theorem lhs0_0 (i : S256x1024.Idx) (q : dot_S256x1920_S1024x1920_S256x1024_1_1_0_0_n_n.contr.Idx) :
    (dot_S256x1920_S1024x1920_S256x1024_1_1_0_0_n_n.lhsIdx i q 0).val = (i 0).val := by
  unfold DotDims.lhsIdx
  rw [dif_neg (show ¬(0 : Fin S256x1920.rank) ∈ dot_S256x1920_S1024x1920_S256x1024_1_1_0_0_n_n.lhsBatch by decide), dif_pos (show (0 : Fin S256x1920.rank) ∈ dot_S256x1920_S1024x1920_S256x1024_1_1_0_0_n_n.lhsNonContracting by decide)]
  rfl

/-- The right operand's row coordinate is the output's column coordinate. -/
theorem rhs0_0 (i : S256x1024.Idx) (q : dot_S256x1920_S1024x1920_S256x1024_1_1_0_0_n_n.contr.Idx) :
    (dot_S256x1920_S1024x1920_S256x1024_1_1_0_0_n_n.rhsIdx i q 0).val = (i 1).val := by
  unfold DotDims.rhsIdx
  rw [dif_neg (show ¬(0 : Fin S1024x1920.rank) ∈ dot_S256x1920_S1024x1920_S256x1024_1_1_0_0_n_n.rhsBatch by decide), dif_pos (show (0 : Fin S1024x1920.rank) ∈ dot_S256x1920_S1024x1920_S256x1024_1_1_0_0_n_n.rhsNonContracting by decide)]
  rfl

/-- One accumulation step: the accumulator plus the inner product of row r of the activations with row j of the
    weights. -/
theorem pay0_2 (x : Vec Ideal S256x1920 .bf16) (w : Vec Ideal S1024x1920 .f32) (s : Vec Ideal S256x1024 .f32) (r : Fin 256) (j : Fin 1024) :
    k0_pay2 (F := Ideal) x w s (ix2 r j) = s (ix2 r j) + ∑ q : Fin 1920, x (ix2 r q) * w (ix2 j q) := by
  unfold k0_pay2
  rw [shapeCast_self, shapeCast_self, addf_apply]
  exact congrArg (s (ix2 r j) + ·)
    (Cert.LibDotNT.matmul_zero_apply (M := 256) (K := 1920) (N := 1024) dot_S256x1920_S1024x1920_S256x1024_1_1_0_0_n_n rfl rfl rfl rfl lhs0_0 rhs0_0 none x
      (truncf .bf16 w bitsLt_bf16_f32) r j)

/-- The last step: the bias added, the result clamped below at zero (the change of format after it is the identity). -/
theorem pay0_3 (b : Vec Ideal S1024 .f32) (s : Vec Ideal S256x1024 .f32) (r : Fin 256) (j : Fin 1024) :
    k0_pay3 (F := Ideal) b s (ix2 r j) = max (s (ix2 r j) + b (ix1 j)) 0 := by
  unfold k0_pay3
  rw [truncf_apply]
  exact bias_relu_apply (m := 256) (n := 1024) b s shapeCasts_S1024_S1x1024 broadcasts_S1x1024_S256x1024 r j

/-! ## The second layer: tiles 256 × 1024 by 1024 × 1024 -/

/-- The zero accumulator reads 0 everywhere. -/
theorem pay1_1 (r : Fin 256) (j : Fin 1024) : k1_pay1 (F := Ideal) (ix2 r j) = 0 := by
  unfold k1_pay1
  rw [shapeCast_self]
  exact Ideal.ofBits_zero_f32

/-- The left operand's row coordinate is the output's row coordinate. -/
theorem lhs1_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl

/-- The right operand's row coordinate is the output's column coordinate. -/
theorem rhs1_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl

/-- One accumulation step: the accumulator plus the inner product of row r of the activations with row j of the
    weights. -/
theorem pay1_2 (x : Vec Ideal S256x1024 .bf16) (w : Vec Ideal S1024x1024 .f32) (s : Vec Ideal S256x1024 .f32) (r : Fin 256) (j : Fin 1024) :
    k1_pay2 (F := Ideal) x w s (ix2 r j) = s (ix2 r j) + ∑ q : Fin 1024, x (ix2 r q) * w (ix2 j q) := by
  unfold k1_pay2
  rw [shapeCast_self, shapeCast_self, addf_apply]
  exact congrArg (s (ix2 r j) + ·)
    (Cert.LibDotNT.matmul_zero_apply (M := 256) (K := 1024) (N := 1024) dot_S256x1024_S1024x1024_S256x1024_1_1_0_0_n_n rfl rfl rfl rfl lhs1_0 rhs1_0 none x
      (truncf .bf16 w bitsLt_bf16_f32) r j)

/-- The last step: the bias added, the result clamped below at zero. -/
theorem pay1_3 (b : Vec Ideal S1024 .f32) (s : Vec Ideal S256x1024 .f32) (r : Fin 256) (j : Fin 1024) :
    k1_pay3 (F := Ideal) b s (ix2 r j) = max (s (ix2 r j) + b (ix1 j)) 0 := by
  unfold k1_pay3
  exact bias_relu_apply (m := 256) (n := 1024) b s shapeCasts_S1024_S1x1024 broadcasts_S1x1024_S256x1024 r j

/-! ## Sums of extended reals -/

/-- The accumulator after tile t when tile i contributes g i: it starts as 0 + g 0 and each later tile adds its own
    contribution. -/
def accFold (g : ℕ → EReal) : ℕ → EReal
  | 0 => 0 + g 0
  | (t + 1) => accFold g t + g (t + 1)

/-- The fold is the finite sum of the contributions up to tile t. -/
theorem accFold_eq (g : ℕ → EReal) (t : ℕ) : accFold g t = ∑ i ∈ Finset.range (t + 1), g i := by
  induction t with
  | zero => simp [accFold]
  | succ n ih => rw [accFold, ih, Finset.sum_range_succ _ (n + 1)]

/-- A sum over the first T·L naturals is the sum over T tiles of the sums over the L offsets inside a tile: one more
    tile appends L consecutive terms. -/
theorem sum_tiles_range (T L : ℕ) (f : ℕ → EReal) :
    ∑ k ∈ Finset.range (T * L), f k = ∑ t ∈ Finset.range T, ∑ q ∈ Finset.range L, f (t * L + q) := by
  induction T with
  | zero => simp
  | succ n ih => rw [Nat.succ_mul, Finset.sum_range_add, ih, Finset.sum_range_succ]

/-- The same with the whole range and the offsets inside a tile indexed by bounded naturals. -/
theorem sum_tiles_fin (T L : ℕ) (f : ℕ → EReal) :
    ∑ k : Fin (T * L), f k.val = ∑ t ∈ Finset.range T, ∑ q : Fin L, f (t * L + q.val) := by
  rw [Fin.sum_univ_eq_sum_range f (T * L), sum_tiles_range]
  refine Finset.sum_congr rfl fun t _ => ?_
  exact (Fin.sum_univ_eq_sum_range (fun q => f (t * L + q)) L).symm

end Cert.PayloadMath

end
-- ==== Proof.KI.Value0.lean ====
/-
  The first layer's output array after its region, entry by entry.  The 4 × 8 grid's point t = 8·n + k adds, into an
  accumulator zeroed at k = 0, the product of the k-th tile of 1920 columns of the activations with the k-th tile of
  the n-th block of 1024 rows of the weights; at k = 7 it writes max(acc + bias, 0) to the n-th block of 1024 columns
  of the output.  So after point t the accumulator at (r, j) is the fold of the tiles 0 … t % 8 of the inner product
  of row r of the activations with row 1024·(t / 8) + j of the weights; at t % 8 = 7 that is the whole inner product
  over the 15360 columns; and since column m of the output lies in the block written at point 8·(m / 1024) + 7, the
  array ends holding, at (r, m), max(⟨activations row r, weights row m⟩ + bias m, 0).
-/
import proofs.«124963_j54348516163877_2_alg».proof.Proof.KI.Acc0
import proofs.«124963_j54348516163877_2_alg».proof.Proof.PayloadMath
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.PayloadMath

namespace Value0

/-! ## Where each point's blocks sit

  Point t = 8·n + k of the 4 × 8 grid has n = t / 8 and k = t % 8.  Its weight tile is block (n, k) of the weights, its
  bias tile block n of the bias, its output tile block (0, n) of the output; the activations are resident whole and
  the body reads their columns from 1920·k on. -/

theorem idx0 : ∀ t : Fin cfg0.N,
    win0_1.index t (0 : Fin 2) = t.val / 8 ∧ win0_1.index t (1 : Fin 2) = t.val % 8
    ∧ win0_2.index t (0 : Fin 1) = t.val / 8
    ∧ win0_3.index t (0 : Fin 2) = 0 ∧ win0_3.index t (1 : Fin 2) = t.val / 8
    ∧ win0_0.index t (0 : Fin 2) = 0 ∧ win0_0.index t (1 : Fin 2) = 0
    ∧ k0_off1 (grid0.coords t) (0 : Fin 2) = 0 ∧ k0_off1 (grid0.coords t) (1 : Fin 2) = t.val % 8 * 1920
    ∧ t.val < 32 :=
  (by decide +kernel : ∀ t : Fin grid0.N, _)

/-! ## The terms of the inner product, tile by tile -/

/-- The product of the entries in column p of row r of the activations and of row m of the weights (0 past the last
    column, so that it is a function of every natural). -/
def colProd (X : S256x15360.Idx → EReal) (W : S4096x15360.Idx → EReal) (r : Fin 256) (m : Fin 4096) (p : ℕ) : EReal :=
  if h : p < 15360 then X (ix2 r ⟨p, h⟩) * W (ix2 m ⟨p, h⟩) else 0

/-- The part of the inner product that tile i of 1920 columns contributes. -/
def tileSum (X : S256x15360.Idx → EReal) (W : S4096x15360.Idx → EReal) (r : Fin 256) (m : Fin 4096) (i : ℕ) : EReal :=
  ∑ q : Fin 1920, colProd X W r m (i * 1920 + q.val)

/-- The eight tiles together are the whole inner product over the 15360 columns. -/
theorem sum_tileSum (X : S256x15360.Idx → EReal) (W : S4096x15360.Idx → EReal) (r : Fin 256) (m : Fin 4096) :
    ∑ i ∈ Finset.range 8, tileSum X W r m i = ∑ p : Fin 15360, X (ix2 r p) * W (ix2 m p) := by
  unfold tileSum
  refine (sum_tiles_fin 8 1920 (colProd X W r m)).symm.trans ?_
  refine Finset.sum_congr rfl fun p _ => ?_
  exact dif_pos p.isLt

/-- What the output holds at (r, m): the inner product of row r of the activations with row m of the weights, the bias
    at m added, clamped below at zero. -/
def outAt (X : S256x15360.Idx → EReal) (W : S4096x15360.Idx → EReal) (B : S4096.Idx → EReal) (r : Fin 256) (m : Fin 4096) : EReal :=
  max ((∑ p : Fin 15360, X (ix2 r p) * W (ix2 m p)) + B (ix1 m)) 0

theorem outAt_def (X : S256x15360.Idx → EReal) (W : S4096x15360.Idx → EReal) (B : S4096.Idx → EReal) (r : Fin 256) (m : Fin 4096) :
    outAt X W B r m = max ((∑ p : Fin 15360, X (ix2 r p) * W (ix2 m p)) + B (ix1 m)) 0 := rfl

section Region
variable (V : (c : Dev nD) → (b : Ref sig .tc) → Buf (Elt Ideal) ((c : Thread nD τ).loc b))

/-! ## The blocks read off their arrays -/

/-- The weight tile of point t at (j, q) is the weights at row 1024·(t / 8) + j, column 1920·(t % 8) + q. -/
theorem iblk0_1_apply (c : Dev nD) (t : Fin cfg0.N) (j : Fin 1024) (q : Fin 1920) (m : Fin 4096)
    (hm : m.val = t.val / 8 * 1024 + j.val) (hq : t.val % 8 * 1920 + q.val < 15360) :
    (iblk0 V c 1 t : Vec Ideal S1024x1920 .f32) (ix2 j q)
      = (V c main_arg2 : S4096x15360.Idx → EReal) (ix2 m ⟨t.val % 8 * 1920 + q.val, hq⟩) := by
  obtain ⟨e0, e1, -⟩ := idx0 t
  unfold iblk0
  rw [View.read_apply]
  show V c main_arg2 _ = V c main_arg2 _
  congr 1
  funext a
  apply Fin.ext
  match a with
  | ⟨0, _⟩ => show win0_1.index t (0 : Fin 2) * 1024 + 1 * j.val = m.val; rw [e0, hm]; omega
  | ⟨1, _⟩ => show win0_1.index t (1 : Fin 2) * 1920 + 1 * q.val = t.val % 8 * 1920 + q.val; rw [e1]; omega

/-- The bias tile of point t at j is the bias at 1024·(t / 8) + j. -/
theorem iblk0_2_apply (c : Dev nD) (t : Fin cfg0.N) (j : Fin 1024) (m : Fin 4096) (hm : m.val = t.val / 8 * 1024 + j.val) :
    (iblk0 V c 2 t : Vec Ideal S1024 .f32) (ix1 j) = (V c main_arg3 : S4096.Idx → EReal) (ix1 m) := by
  obtain ⟨-, -, e2, -⟩ := idx0 t
  unfold iblk0
  rw [View.read_apply]
  show V c main_arg3 _ = V c main_arg3 _
  congr 1
  funext a
  apply Fin.ext
  match a with
  | ⟨0, _⟩ => show win0_2.index t (0 : Fin 1) * 1024 + 1 * j.val = m.val; rw [e2, hm]; omega

/-- The activation tile the body loads at point t, at (r, q), is the activations at row r, column 1920·(t % 8) + q. -/
theorem xsl0_apply (c : Dev nD) (t : Fin cfg0.N) (r : Fin 256) (q : Fin 1920) (hq : t.val % 8 * 1920 + q.val < 15360) :
    (xsl0 (grid0.coords t) (iblk0 V c 0 t) : Vec Ideal S256x1920 .bf16) (ix2 r q)
      = (V c main_v4 : S256x15360.Idx → EReal) (ix2 r ⟨t.val % 8 * 1920 + q.val, hq⟩) := by
  obtain ⟨-, -, -, -, -, e5, e6, e7, e8, -⟩ := idx0 t
  show V c main_v4 _ = V c main_v4 _
  congr 1
  funext a
  apply Fin.ext
  match a with
  | ⟨0, _⟩ => show win0_0.index t (0 : Fin 2) * 256 + 1 * (k0_off1 (grid0.coords t) (0 : Fin 2) + 1 * r.val) = r.val; rw [e5, e7]; omega
  | ⟨1, _⟩ => show win0_0.index t (1 : Fin 2) * 15360 + 1 * (k0_off1 (grid0.coords t) (1 : Fin 2) + 1 * q.val) = t.val % 8 * 1920 + q.val; rw [e6, e8]; omega

/-! ## The accumulator -/

/-- One step at point t adds tile t % 8 of the inner product of row r with row 1024·(t / 8) + j. -/
theorem step0_apply (c : Dev nD) (t : Fin cfg0.N) (s : Vec Ideal S256x1024 .f32) (r : Fin 256) (j : Fin 1024) (m : Fin 4096)
    (hm : m.val = t.val / 8 * 1024 + j.val) :
    step0 V c t s (ix2 r j) = s (ix2 r j) + tileSum (V c main_v4) (V c main_arg2) r m (t.val % 8) := by
  refine (pay0_2 _ _ s r j).trans ?_
  refine congrArg (s (ix2 r j) + ·) ?_
  refine Finset.sum_congr rfl fun q _ => ?_
  have hq : t.val % 8 * 1920 + q.val < 15360 := by have := q.isLt; omega
  refine (congrArg₂ (· * ·) (xsl0_apply V c t r q hq) (iblk0_1_apply V c t j q m hm hq)).trans ?_
  unfold colProd
  rw [dif_pos hq]

/-- After point n the accumulator at (r, j) is the fold of the tiles 0 … n % 8 of that inner product. -/
theorem accAt0_apply (c : Dev nD) : ∀ (n : ℕ) (h : n < cfg0.N) (r : Fin 256) (j : Fin 1024) (m : Fin 4096),
    m.val = n / 8 * 1024 + j.val →
    accAt0 V c n h (ix2 r j) = accFold (tileSum (V c main_v4) (V c main_arg2) r m) (n % 8) := by
  intro n
  induction n with
  | zero =>
    intro h r j m hm
    refine (step0_apply V c ⟨0, h⟩ _ r j m hm).trans ?_
    rw [pay0_1]
    rfl
  | succ n ih =>
    intro h r j m hm
    by_cases h0 : (n + 1) % 8 = 0
    · refine (congrFun (accAt0_first V c ⟨n + 1, h⟩ h0) (ix2 r j)).trans ?_
      refine (step0_apply V c ⟨n + 1, h⟩ _ r j m hm).trans ?_
      rw [pay0_1]
      show 0 + tileSum _ _ r m ((n + 1) % 8) = accFold _ ((n + 1) % 8)
      rw [h0]
      rfl
    · refine (congrFun (accAt0_next V c ⟨n + 1, h⟩ h0) (ix2 r j)).trans ?_
      refine (step0_apply V c ⟨n + 1, h⟩ _ r j m hm).trans ?_
      have e2 : (n + 1) % 8 = n % 8 + 1 := by omega
      have hm' : m.val = n / 8 * 1024 + j.val := by omega
      show accAt0 V c n _ (ix2 r j) + tileSum _ _ r m ((n + 1) % 8) = accFold _ ((n + 1) % 8)
      rw [e2, ih (Nat.lt_of_succ_lt h) r j m hm']
      rfl

/-! ## The output tile, and the array -/

/-- The function the output array ends holding. -/
def G0 (c : Dev nD) : S256x4096.Idx → EReal :=
  fun i => outAt (V c main_v4) (V c main_arg2) (V c main_arg3) (i 0) (i 1)

/-- What a last point of a contraction stores at (r, j): the output's value at row r, column 1024·(t / 8) + j. -/
theorem out_tile_eq (c : Dev nD) (t : Fin cfg0.N) (h7 : t.val % 8 = 7) (r : Fin 256) (j : Fin 1024) (m : Fin 4096)
    (hm : m.val = t.val / 8 * 1024 + j.val) :
    k0_pay3 (iblk0 V c 2 t) (accAt0 V c t.val t.isLt) (ix2 r j) = outAt (V c main_v4) (V c main_arg2) (V c main_arg3) r m := by
  refine (pay0_3 _ _ r j).trans ?_
  have hacc := (accAt0_apply V c t.val t.isLt r j m hm).trans
    ((congrArg (accFold (tileSum (V c main_v4) (V c main_arg2) r m)) h7).trans ((accFold_eq _ 7).trans (sum_tileSum _ _ r m)))
  rw [hacc, iblk0_2_apply V c t j m hm]
  rfl

/-- The same with both indices given by their coordinates. -/
theorem out_tile_G0 (c : Dev nD) (t : Fin cfg0.N) (h7 : t.val % 8 = 7) (y : S256x1024.Idx) (i : S256x4096.Idx)
    (hi0 : (i 0).val = (y 0).val) (hi1 : (i 1).val = t.val / 8 * 1024 + (y 1).val) :
    k0_pay3 (iblk0 V c 2 t) (accAt0 V c t.val t.isLt) y = G0 V c i := by
  obtain ⟨r, j, rfl⟩ : ∃ (r : Fin 256) (j : Fin 1024), y = ix2 r j := ⟨y 0, y 1, eq_ix2 y⟩
  obtain ⟨r', m, rfl⟩ : ∃ (r' : Fin 256) (m : Fin 4096), i = ix2 r' m := ⟨i 0, i 1, eq_ix2 i⟩
  obtain rfl : r' = r := Fin.ext hi0
  exact out_tile_eq V c t h7 r' j m hi1

/-- What a flushing point writes back is its block of G0. -/
theorem flushed0_eq (c : Dev nD) (t : Fin cfg0.N) (hf : (cfg0.win 3).flush t = true) :
    (dat0 V c).flushed 3 t = ((cfg0.win 3).blk t).view.read (Elt Ideal) (G0 V c) := by
  have h7 : t.val % 8 = 7 := (flush0_3 t).mp hf
  obtain ⟨-, -, -, e3, e4, -⟩ := idx0 t
  show (cfg0.win 3).cut (grid0.coords t) ((dat0 V c).after 3 t) = _
  rw [after0_3]
  funext y
  refine out_tile_G0 V c t h7 y _ ?_ ?_
  · show win0_3.index t (0 : Fin 2) * 256 + 1 * (y 0).val = (y 0).val
    rw [e3]; omega
  · show win0_3.index t (1 : Fin 2) * 1024 + 1 * (y 1).val = t.val / 8 * 1024 + (y 1).val
    rw [e4]; omega

/-- An index of the output is in point t's block iff each coordinate is in the block's range on its axis. -/
theorem mem_blk0 (t : Fin cfg0.N) (i : S256x4096.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v5).slice (win0_3.rect t)).set ↔ _
  rw [View.set_slice_whole, Rect.mem_set_unit]
  exact Iff.rfl

/-- Every index of the output is in the block of a flushing point: column m is written at the last point of row block m / 1024. -/
theorem cover0 (i : S256x4096.Idx) : ∃ t : Fin cfg0.N, (cfg0.win 3).flush t = true ∧ i ∈ ((cfg0.win 3).blk t).view.set := by
  have h0 : (i 0).val < 256 := idx2_lt0 i
  have h1 : (i 1).val < 4096 := idx2_lt1 i
  have hN : cfg0.N = 32 := N_0
  refine ⟨⟨8 * ((i 1).val / 1024) + 7, by rw [hN]; omega⟩, ?_, ?_⟩
  · exact (flush0_3 _).mpr (by show (8 * ((i 1).val / 1024) + 7) % 8 = 7; omega)
  · obtain ⟨-, -, -, e3, e4, -⟩ := idx0 ⟨8 * ((i 1).val / 1024) + 7, by rw [hN]; omega⟩
    rw [mem_blk0]
    intro a
    match a with
    | ⟨0, _⟩ =>
      show win0_3.index _ (0 : Fin 2) * 256 ≤ (i 0).val ∧ (i 0).val < win0_3.index _ (0 : Fin 2) * 256 + 256
      rw [e3]; omega
    | ⟨1, _⟩ =>
      show win0_3.index _ (1 : Fin 2) * 1024 ≤ (i 1).val ∧ (i 1).val < win0_3.index _ (1 : Fin 2) * 1024 + 1024
      rw [e4]
      show (8 * ((i 1).val / 1024) + 7) / 8 * 1024 ≤ (i 1).val ∧ (i 1).val < (8 * ((i 1).val / 1024) + 7) / 8 * 1024 + 1024
      omega

/-- The output array after the region. -/
theorem final0 (c : Dev nD) : (dat0 V c).arrAt 3 cfg0.N = G0 V c :=
  (dat0 V c).arrAt_eq_of_cover 3 (G0 V c) (flushed0_eq V c) cover0

end Region

end Value0

/-- The first layer's output array after its region, at an entry: the inner product of row r of the activations with
    row n of the weights, the bias at n added, clamped below at zero (Value0.outAt_def spells it out). -/
theorem arr0_apply (V : (c : Dev nD) → (b : Ref sig .tc) → Buf (Elt Ideal) ((c : Thread nD τ).loc b)) (c : Dev nD) (r : Fin 256) (n : Fin 4096) :
    (dat0 (F := Ideal) V c).arrAt 3 cfg0.N (ix2 r n)
      = Value0.outAt (V c main_v4) (V c main_arg2) (V c main_arg3) r n := by
  rw [Value0.final0]
  rfl

end Cert.KernelIdeal.Hand

end
-- ==== Proof.KI.Value1.lean ====
/-
  The second layer's output array after its region, entry by entry.  The 2 × 4 grid's point t = 4·n + k adds, into an
  accumulator zeroed at k = 0, the product of the k-th tile of 1024 columns of the activations with the k-th tile of
  the n-th block of 1024 rows of the weights; at k = 3 it writes max(acc + bias, 0) to the n-th block of 1024 columns
  of the output.  So after point t the accumulator at (r, j) is the fold of the tiles 0 … t % 4 of the inner product
  of row r of the activations with row 1024·(t / 4) + j of the weights; at t % 4 = 3 that is the whole inner product
  over the 4096 columns; and since column m of the output lies in the block written at point 4·(m / 1024) + 3, the
  array ends holding, at (r, m), max(⟨activations row r, weights row m⟩ + bias m, 0).
-/
import proofs.«124963_j54348516163877_2_alg».proof.Proof.KI.Acc1
import proofs.«124963_j54348516163877_2_alg».proof.Proof.PayloadMath
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.PayloadMath

namespace Value1

/-! ## Where each point's blocks sit

  Point t = 4·n + k of the 2 × 4 grid has n = t / 4 and k = t % 4.  Its weight tile is block (n, k) of the weights, its
  bias tile block n of the bias, its output tile block (0, n) of the output; the activations are resident whole and
  the body reads their columns from 1024·k on. -/

theorem idx1 : ∀ t : Fin cfg1.N,
    win1_1.index t (0 : Fin 2) = t.val / 4 ∧ win1_1.index t (1 : Fin 2) = t.val % 4
    ∧ win1_2.index t (0 : Fin 1) = t.val / 4
    ∧ win1_3.index t (0 : Fin 2) = 0 ∧ win1_3.index t (1 : Fin 2) = t.val / 4
    ∧ win1_0.index t (0 : Fin 2) = 0 ∧ win1_0.index t (1 : Fin 2) = 0
    ∧ k1_off1 (grid1.coords t) (0 : Fin 2) = 0 ∧ k1_off1 (grid1.coords t) (1 : Fin 2) = t.val % 4 * 1024
    ∧ t.val < 8 :=
  (by decide +kernel : ∀ t : Fin grid1.N, _)

/-! ## The terms of the inner product, tile by tile -/

/-- The product of the entries in column p of row r of the activations and of row m of the weights (0 past the last
    column, so that it is a function of every natural). -/
def colProd (X : S256x4096.Idx → EReal) (W : S2048x4096.Idx → EReal) (r : Fin 256) (m : Fin 2048) (p : ℕ) : EReal :=
  if h : p < 4096 then X (ix2 r ⟨p, h⟩) * W (ix2 m ⟨p, h⟩) else 0

/-- The part of the inner product that tile i of 1024 columns contributes. -/
def tileSum (X : S256x4096.Idx → EReal) (W : S2048x4096.Idx → EReal) (r : Fin 256) (m : Fin 2048) (i : ℕ) : EReal :=
  ∑ q : Fin 1024, colProd X W r m (i * 1024 + q.val)

/-- The four tiles together are the whole inner product over the 4096 columns. -/
theorem sum_tileSum (X : S256x4096.Idx → EReal) (W : S2048x4096.Idx → EReal) (r : Fin 256) (m : Fin 2048) :
    ∑ i ∈ Finset.range 4, tileSum X W r m i = ∑ p : Fin 4096, X (ix2 r p) * W (ix2 m p) := by
  unfold tileSum
  refine (sum_tiles_fin 4 1024 (colProd X W r m)).symm.trans ?_
  refine Finset.sum_congr rfl fun p _ => ?_
  exact dif_pos p.isLt

/-- What the output holds at (r, m): the inner product of row r of the activations with row m of the weights, the bias
    at m added, clamped below at zero. -/
def outAt (X : S256x4096.Idx → EReal) (W : S2048x4096.Idx → EReal) (B : S2048.Idx → EReal) (r : Fin 256) (m : Fin 2048) : EReal :=
  max ((∑ p : Fin 4096, X (ix2 r p) * W (ix2 m p)) + B (ix1 m)) 0

theorem outAt_def (X : S256x4096.Idx → EReal) (W : S2048x4096.Idx → EReal) (B : S2048.Idx → EReal) (r : Fin 256) (m : Fin 2048) :
    outAt X W B r m = max ((∑ p : Fin 4096, X (ix2 r p) * W (ix2 m p)) + B (ix1 m)) 0 := rfl

section Region
variable (V : (c : Dev nD) → (b : Ref sig .tc) → Buf (Elt Ideal) ((c : Thread nD τ).loc b))

/-! ## The blocks read off their arrays -/

/-- The weight tile of point t at (j, q) is the weights at row 1024·(t / 4) + j, column 1024·(t % 4) + q. -/
theorem iblk1_1_apply (c : Dev nD) (t : Fin cfg1.N) (j : Fin 1024) (q : Fin 1024) (m : Fin 2048)
    (hm : m.val = t.val / 4 * 1024 + j.val) (hq : t.val % 4 * 1024 + q.val < 4096) :
    (iblk1 V c 1 t : Vec Ideal S1024x1024 .f32) (ix2 j q)
      = (V c main_arg4 : S2048x4096.Idx → EReal) (ix2 m ⟨t.val % 4 * 1024 + q.val, hq⟩) := by
  obtain ⟨e0, e1, -⟩ := idx1 t
  unfold iblk1
  rw [View.read_apply]
  show V c main_arg4 _ = V c main_arg4 _
  congr 1
  funext a
  apply Fin.ext
  match a with
  | ⟨0, _⟩ => show win1_1.index t (0 : Fin 2) * 1024 + 1 * j.val = m.val; rw [e0, hm]; omega
  | ⟨1, _⟩ => show win1_1.index t (1 : Fin 2) * 1024 + 1 * q.val = t.val % 4 * 1024 + q.val; rw [e1]; omega

/-- The bias tile of point t at j is the bias at 1024·(t / 4) + j. -/
theorem iblk1_2_apply (c : Dev nD) (t : Fin cfg1.N) (j : Fin 1024) (m : Fin 2048) (hm : m.val = t.val / 4 * 1024 + j.val) :
    (iblk1 V c 2 t : Vec Ideal S1024 .f32) (ix1 j) = (V c main_arg5 : S2048.Idx → EReal) (ix1 m) := by
  obtain ⟨-, -, e2, -⟩ := idx1 t
  unfold iblk1
  rw [View.read_apply]
  show V c main_arg5 _ = V c main_arg5 _
  congr 1
  funext a
  apply Fin.ext
  match a with
  | ⟨0, _⟩ => show win1_2.index t (0 : Fin 1) * 1024 + 1 * j.val = m.val; rw [e2, hm]; omega

/-- The activation tile the body loads at point t, at (r, q), is the activations at row r, column 1024·(t % 4) + q. -/
theorem xsl1_apply (c : Dev nD) (t : Fin cfg1.N) (r : Fin 256) (q : Fin 1024) (hq : t.val % 4 * 1024 + q.val < 4096) :
    (xsl1 (grid1.coords t) (iblk1 V c 0 t) : Vec Ideal S256x1024 .bf16) (ix2 r q)
      = (V c main_v5 : S256x4096.Idx → EReal) (ix2 r ⟨t.val % 4 * 1024 + q.val, hq⟩) := by
  obtain ⟨-, -, -, -, -, e5, e6, e7, e8, -⟩ := idx1 t
  show V c main_v5 _ = V c main_v5 _
  congr 1
  funext a
  apply Fin.ext
  match a with
  | ⟨0, _⟩ => show win1_0.index t (0 : Fin 2) * 256 + 1 * (k1_off1 (grid1.coords t) (0 : Fin 2) + 1 * r.val) = r.val; rw [e5, e7]; omega
  | ⟨1, _⟩ => show win1_0.index t (1 : Fin 2) * 4096 + 1 * (k1_off1 (grid1.coords t) (1 : Fin 2) + 1 * q.val) = t.val % 4 * 1024 + q.val; rw [e6, e8]; omega

/-! ## The accumulator -/

/-- One step at point t adds tile t % 4 of the inner product of row r with row 1024·(t / 4) + j. -/
theorem step1_apply (c : Dev nD) (t : Fin cfg1.N) (s : Vec Ideal S256x1024 .f32) (r : Fin 256) (j : Fin 1024) (m : Fin 2048)
    (hm : m.val = t.val / 4 * 1024 + j.val) :
    step1 V c t s (ix2 r j) = s (ix2 r j) + tileSum (V c main_v5) (V c main_arg4) r m (t.val % 4) := by
  refine (pay1_2 _ _ s r j).trans ?_
  refine congrArg (s (ix2 r j) + ·) ?_
  refine Finset.sum_congr rfl fun q _ => ?_
  have hq : t.val % 4 * 1024 + q.val < 4096 := by have := q.isLt; omega
  refine (congrArg₂ (· * ·) (xsl1_apply V c t r q hq) (iblk1_1_apply V c t j q m hm hq)).trans ?_
  unfold colProd
  rw [dif_pos hq]

/-- After point n the accumulator at (r, j) is the fold of the tiles 0 … n % 4 of that inner product. -/
theorem accAt1_apply (c : Dev nD) : ∀ (n : ℕ) (h : n < cfg1.N) (r : Fin 256) (j : Fin 1024) (m : Fin 2048),
    m.val = n / 4 * 1024 + j.val →
    accAt1 V c n h (ix2 r j) = accFold (tileSum (V c main_v5) (V c main_arg4) r m) (n % 4) := by
  intro n
  induction n with
  | zero =>
    intro h r j m hm
    refine (step1_apply V c ⟨0, h⟩ _ r j m hm).trans ?_
    rw [pay1_1]
    rfl
  | succ n ih =>
    intro h r j m hm
    by_cases h0 : (n + 1) % 4 = 0
    · refine (congrFun (accAt1_first V c ⟨n + 1, h⟩ h0) (ix2 r j)).trans ?_
      refine (step1_apply V c ⟨n + 1, h⟩ _ r j m hm).trans ?_
      rw [pay1_1]
      show 0 + tileSum _ _ r m ((n + 1) % 4) = accFold _ ((n + 1) % 4)
      rw [h0]
      rfl
    · refine (congrFun (accAt1_next V c ⟨n + 1, h⟩ h0) (ix2 r j)).trans ?_
      refine (step1_apply V c ⟨n + 1, h⟩ _ r j m hm).trans ?_
      have e2 : (n + 1) % 4 = n % 4 + 1 := by omega
      have hm' : m.val = n / 4 * 1024 + j.val := by omega
      show accAt1 V c n _ (ix2 r j) + tileSum _ _ r m ((n + 1) % 4) = accFold _ ((n + 1) % 4)
      rw [e2, ih (Nat.lt_of_succ_lt h) r j m hm']
      rfl

/-! ## The output tile, and the array -/

/-- The function the output array ends holding. -/
def G1 (c : Dev nD) : S256x2048.Idx → EReal :=
  fun i => outAt (V c main_v5) (V c main_arg4) (V c main_arg5) (i 0) (i 1)

/-- What a last point of a contraction stores at (r, j): the output's value at row r, column 1024·(t / 4) + j. -/
theorem out_tile_eq (c : Dev nD) (t : Fin cfg1.N) (h3 : t.val % 4 = 3) (r : Fin 256) (j : Fin 1024) (m : Fin 2048)
    (hm : m.val = t.val / 4 * 1024 + j.val) :
    k1_pay3 (iblk1 V c 2 t) (accAt1 V c t.val t.isLt) (ix2 r j) = outAt (V c main_v5) (V c main_arg4) (V c main_arg5) r m := by
  refine (pay1_3 _ _ r j).trans ?_
  have hacc := (accAt1_apply V c t.val t.isLt r j m hm).trans
    ((congrArg (accFold (tileSum (V c main_v5) (V c main_arg4) r m)) h3).trans ((accFold_eq _ 3).trans (sum_tileSum _ _ r m)))
  rw [hacc, iblk1_2_apply V c t j m hm]
  rfl

/-- The same with both indices given by their coordinates. -/
theorem out_tile_G1 (c : Dev nD) (t : Fin cfg1.N) (h3 : t.val % 4 = 3) (y : S256x1024.Idx) (i : S256x2048.Idx)
    (hi0 : (i 0).val = (y 0).val) (hi1 : (i 1).val = t.val / 4 * 1024 + (y 1).val) :
    k1_pay3 (iblk1 V c 2 t) (accAt1 V c t.val t.isLt) y = G1 V c i := by
  obtain ⟨r, j, rfl⟩ : ∃ (r : Fin 256) (j : Fin 1024), y = ix2 r j := ⟨y 0, y 1, eq_ix2 y⟩
  obtain ⟨r', m, rfl⟩ : ∃ (r' : Fin 256) (m : Fin 2048), i = ix2 r' m := ⟨i 0, i 1, eq_ix2 i⟩
  obtain rfl : r' = r := Fin.ext hi0
  exact out_tile_eq V c t h3 r' j m hi1

/-- What a flushing point writes back is its block of G1. -/
theorem flushed1_eq (c : Dev nD) (t : Fin cfg1.N) (hf : (cfg1.win 3).flush t = true) :
    (dat1 V c).flushed 3 t = ((cfg1.win 3).blk t).view.read (Elt Ideal) (G1 V c) := by
  have h3 : t.val % 4 = 3 := (flush1_3 t).mp hf
  obtain ⟨-, -, -, e3, e4, -⟩ := idx1 t
  show (cfg1.win 3).cut (grid1.coords t) ((dat1 V c).after 3 t) = _
  rw [after1_3]
  funext y
  refine out_tile_G1 V c t h3 y _ ?_ ?_
  · show win1_3.index t (0 : Fin 2) * 256 + 1 * (y 0).val = (y 0).val
    rw [e3]; omega
  · show win1_3.index t (1 : Fin 2) * 1024 + 1 * (y 1).val = t.val / 4 * 1024 + (y 1).val
    rw [e4]; omega

/-- An index of the output is in point t's block iff each coordinate is in the block's range on its axis. -/
theorem mem_blk1 (t : Fin cfg1.N) (i : S256x2048.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v6).slice (win1_3.rect t)).set ↔ _
  rw [View.set_slice_whole, Rect.mem_set_unit]
  exact Iff.rfl

/-- Every index of the output is in the block of a flushing point: column m is written at the last point of row block m / 1024. -/
theorem cover1 (i : S256x2048.Idx) : ∃ t : Fin cfg1.N, (cfg1.win 3).flush t = true ∧ i ∈ ((cfg1.win 3).blk t).view.set := by
  have h0 : (i 0).val < 256 := idx2_lt0 i
  have h1 : (i 1).val < 2048 := idx2_lt1 i
  have hN : cfg1.N = 8 := N_1
  refine ⟨⟨4 * ((i 1).val / 1024) + 3, by rw [hN]; omega⟩, ?_, ?_⟩
  · exact (flush1_3 _).mpr (by show (4 * ((i 1).val / 1024) + 3) % 4 = 3; omega)
  · obtain ⟨-, -, -, e3, e4, -⟩ := idx1 ⟨4 * ((i 1).val / 1024) + 3, by rw [hN]; omega⟩
    rw [mem_blk1]
    intro a
    match a with
    | ⟨0, _⟩ =>
      show win1_3.index _ (0 : Fin 2) * 256 ≤ (i 0).val ∧ (i 0).val < win1_3.index _ (0 : Fin 2) * 256 + 256
      rw [e3]; omega
    | ⟨1, _⟩ =>
      show win1_3.index _ (1 : Fin 2) * 1024 ≤ (i 1).val ∧ (i 1).val < win1_3.index _ (1 : Fin 2) * 1024 + 1024
      rw [e4]
      show (4 * ((i 1).val / 1024) + 3) / 4 * 1024 ≤ (i 1).val ∧ (i 1).val < (4 * ((i 1).val / 1024) + 3) / 4 * 1024 + 1024
      omega

/-- The output array after the region. -/
theorem final1 (c : Dev nD) : (dat1 V c).arrAt 3 cfg1.N = G1 V c :=
  (dat1 V c).arrAt_eq_of_cover 3 (G1 V c) (flushed1_eq V c) cover1

end Region

end Value1

/-- The second layer's output array after its region, at an entry: the inner product of row r of the activations with
    row n of the weights, the bias at n added, clamped below at zero (Value1.outAt_def spells it out). -/
theorem arr1_apply (V : (c : Dev nD) → (b : Ref sig .tc) → Buf (Elt Ideal) ((c : Thread nD τ).loc b)) (c : Dev nD) (r : Fin 256) (n : Fin 2048) :
    (dat1 (F := Ideal) V c).arrAt 3 cfg1.N (ix2 r n)
      = Value1.outAt (V c main_v5) (V c main_arg4) (V c main_arg5) r n := by
  rw [Value1.final1]
  rfl

end Cert.KernelIdeal.Hand

end
-- ==== Proof.RefSide.lean ====
import proofs.«124963_j54348516163877_2_alg».proof.Proof.Gen.ReferenceIdeal.Read

/-!
# The reference program as one tail function of its representation matrix

The reference maps two image batches through the same two-layer perceptron head
(flatten, affine map, rectifier, affine map, rectifier), the second batch mirrored along its last
axis first, stacks the two 128-row results into one 256 × 2048 matrix of representations, and
computes a scalar contrastive loss from that matrix alone.

This module names the representation matrix (`repsRef`), names everything after it as one function
(`tail`), shows that the reference's result is `tail` of `repsRef` (`res_eq`), and reads `repsRef` at an
entry (`repsRef_apply`): entry (r, c) is the head applied to row r of the two flattened inputs stacked
on top of each other, a plain double sum over extended reals.
-/

noncomputable section

open scoped BigOperators

namespace Cert.RefSide

open Cert.ReferenceIdeal Cert.ReferenceIdeal.Gen Idealize.ShloMosaic Idealize.ShloMosaic.TcCoe Idealize.SL.Sem
  Idealize.ShloMosaic.StableHlo Idealize.ShloMosaic.ValueIdx

/-- The shape of the two flattened inputs stacked: 256 rows of 15360 entries. -/
abbrev S256x15360 : Shape := ⟨2, ![256, 15360]⟩

/-- Flattening an image batch: each image's 512 × 5 × 6 entries in row-major order. -/
def flat0 (a0 : FVec Ideal S128x512x5x6 .f32) : FVec Ideal S128x15360 .f32 :=
  shapeCast _ a0 shapeCasts_S128x512x5x6_S128x15360

/-- Flattening the second batch after mirroring it along its last axis. -/
def flat1 (a1 : FVec Ideal S128x512x5x6 .f32) : FVec Ideal S128x15360 .f32 :=
  shapeCast _ (Host.reverse [3] a1) shapeCasts_S128x512x5x6_S128x15360

/-- Two 128-row blocks of 15360 columns laid one above the other make 256 rows. -/
theorem concatenates_S128x15360_S128x15360_S256x15360_d0 :
    Shape.Concatenates [S128x15360, S128x15360] S256x15360 0 := by decide

/-- The two flattened views stacked: the 256 input rows. -/
def xcat (a0 a1 : FVec Ideal S128x512x5x6 .f32) : FVec Ideal S256x15360 .f32 :=
  concatenate S256x15360 0 [⟨S128x15360, flat0 a0⟩, ⟨S128x15360, flat1 a1⟩]
    concatenates_S128x15360_S128x15360_S256x15360_d0

/-- One output entry of the two-layer head from one input row:
    max(Σₙ max(Σₖ x(k)·W1(n,k) + b1(n), 0) · W2(c,n) + b2(c), 0). -/
def headAt (xrow : Fin 15360 → EReal) (W1 : FVec Ideal S4096x15360 .f32) (b1 : FVec Ideal S4096 .f32)
    (W2 : FVec Ideal S2048x4096 .f32) (b2 : FVec Ideal S2048 .f32) (c : Fin 2048) : EReal :=
  max ((∑ n : Fin 4096, max ((∑ k : Fin 15360, xrow k * W1 (ix2 n k)) + b1 (ix1 n)) 0 * W2 (ix2 c n)) + b2 (ix1 c)) 0

/-- The reference's representation matrix as a function of the six argument arrays: the head of the
    first batch above the head of the mirrored second batch. -/
def repsRef (a0 a1 : FVec Ideal S128x512x5x6 .f32) (W1 : FVec Ideal S4096x15360 .f32) (b1 : FVec Ideal S4096 .f32)
    (W2 : FVec Ideal S2048x4096 .f32) (b2 : FVec Ideal S2048 .f32) : FVec Ideal S256x2048 .f32 :=
  concatenate S256x2048 0 [⟨S128x2048, (maximumf (addf (Host.dotGeneral dot_S128x4096_S4096x2048_S128x2048_1_0_0_1_n_n none (maximumf (addf (Host.dotGeneral dot_S128x15360_S15360x4096_S128x4096_1_0_0_1_n_n none (shapeCast _ a0 shapeCasts_S128x512x5x6_S128x15360) (transpose S15360x4096 [1, 0] W1 transposes_S4096x15360_S15360x4096_1_0)) (broadcastInDim S128x4096 ![0, 1] bcast_S1x4096_S128x4096_0_1 (broadcastInDim S1x4096 ![1] bcast_S4096_S1x4096_1 b1))) (broadcastInDim S128x4096 ![] bcast_S_S128x4096 (constant S_ .f32 0x00000000#32))) (transpose S4096x2048 [1, 0] W2 transposes_S2048x4096_S4096x2048_1_0)) (broadcastInDim S128x2048 ![0, 1] bcast_S1x2048_S128x2048_0_1 (broadcastInDim S1x2048 ![1] bcast_S2048_S1x2048_1 b2))) (broadcastInDim S128x2048 ![] bcast_S_S128x2048 (constant S_ .f32 0x00000000#32)))⟩, ⟨S128x2048, (maximumf (addf (Host.dotGeneral dot_S128x4096_S4096x2048_S128x2048_1_0_0_1_n_n none (maximumf (addf (Host.dotGeneral dot_S128x15360_S15360x4096_S128x4096_1_0_0_1_n_n none (shapeCast _ (Host.reverse [3] a1) shapeCasts_S128x512x5x6_S128x15360) (transpose S15360x4096 [1, 0] W1 transposes_S4096x15360_S15360x4096_1_0)) (broadcastInDim S128x4096 ![0, 1] bcast_S1x4096_S128x4096_0_1 (broadcastInDim S1x4096 ![1] bcast_S4096_S1x4096_1 b1))) (broadcastInDim S128x4096 ![] bcast_S_S128x4096 (constant S_ .f32 0x00000000#32))) (transpose S4096x2048 [1, 0] W2 transposes_S2048x4096_S4096x2048_1_0)) (broadcastInDim S128x2048 ![0, 1] bcast_S1x2048_S128x2048_0_1 (broadcastInDim S1x2048 ![1] bcast_S2048_S1x2048_1 b2))) (broadcastInDim S128x2048 ![] bcast_S_S128x2048 (constant S_ .f32 0x00000000#32)))⟩] concatenates_S128x2048_S128x2048_S256x2048_d0

set_option maxRecDepth 8192 in
/-- Everything the reference computes after the representation matrix, as one function of it: row
    norms clamped below, the matrix of cosine similarities, its two off-diagonals of positives, the
    masked sum of exponentials, and the mean of the per-row losses. -/
def tail (reps : FVec Ideal S256x2048 .f32) : FVec Ideal S_ .f32 :=
  Host.divf (Host.reduceAdd (Host.negf (subf (Host.divf (concatenate S256 0 [⟨S128, (Host.gather gather_S256x256_S128x2_S128_n_01_n_n_01_1_11 (Host.dotGeneral dot_S256x2048_S2048x256_S256x256_1_0_0_1_n_n none (Host.divf (reps) (broadcastInDim S256x2048 ![0, 1] bcast_S256x1_S256x2048_0_1 (maximumf (Host.sqrt (broadcastInDim S256x1 ![0] bcast_S256_S256x1_0 (Host.reduceAdd (mulf (reps) (reps)) (constant S_ .f32 0x00000000#32) reducesTo_S256x2048_S256_d1 h_S_))) (broadcastInDim S256x1 ![] bcast_S_S256x1 (constant S_ .f32 0x322BCC77#32))))) (transpose S2048x256 [1, 0] (Host.divf (reps) (broadcastInDim S256x2048 ![0, 1] bcast_S256x1_S256x2048_0_1 (maximumf (Host.sqrt (broadcastInDim S256x1 ![0] bcast_S256_S256x1_0 (Host.reduceAdd (mulf (reps) (reps)) (constant S_ .f32 0x00000000#32) reducesTo_S256x2048_S256_d1 h_S_))) (broadcastInDim S256x1 ![] bcast_S_S256x1 (constant S_ .f32 0x322BCC77#32))))) transposes_S256x2048_S2048x256_1_0)) (concatenate S128x2 1 [⟨S128x1, (broadcastInDim S128x1 ![0] bcast_S128_S128x1_0 (select (cmpi .slt (iotaInDim S128 32 0) (broadcastInDim S128 ![] bcast_S_S128 (constantI S_ 32 0#32))) (addi (iotaInDim S128 32 0) (broadcastInDim S128 ![] bcast_S_S128 (constantI S_ 32 256#32))) (iotaInDim S128 32 0)))⟩, ⟨S128x1, (broadcastInDim S128x1 ![0] bcast_S128_S128x1_0 (select (cmpi .slt (addi (broadcastInDim S128 ![] bcast_S_S128 (constantI S_ 32 128#32)) (iotaInDim S128 32 0)) (broadcastInDim S128 ![] bcast_S_S128 (constantI S_ 32 0#32))) (addi (addi (broadcastInDim S128 ![] bcast_S_S128 (constantI S_ 32 128#32)) (iotaInDim S128 32 0)) (broadcastInDim S128 ![] bcast_S_S128 (constantI S_ 32 256#32))) (addi (broadcastInDim S128 ![] bcast_S_S128 (constantI S_ 32 128#32)) (iotaInDim S128 32 0))))⟩] concatenates_S128x1_S128x1_S128x2_d1))⟩, ⟨S128, (Host.gather gather_S256x256_S128x2_S128_n_01_n_n_01_1_11 (Host.dotGeneral dot_S256x2048_S2048x256_S256x256_1_0_0_1_n_n none (Host.divf (reps) (broadcastInDim S256x2048 ![0, 1] bcast_S256x1_S256x2048_0_1 (maximumf (Host.sqrt (broadcastInDim S256x1 ![0] bcast_S256_S256x1_0 (Host.reduceAdd (mulf (reps) (reps)) (constant S_ .f32 0x00000000#32) reducesTo_S256x2048_S256_d1 h_S_))) (broadcastInDim S256x1 ![] bcast_S_S256x1 (constant S_ .f32 0x322BCC77#32))))) (transpose S2048x256 [1, 0] (Host.divf (reps) (broadcastInDim S256x2048 ![0, 1] bcast_S256x1_S256x2048_0_1 (maximumf (Host.sqrt (broadcastInDim S256x1 ![0] bcast_S256_S256x1_0 (Host.reduceAdd (mulf (reps) (reps)) (constant S_ .f32 0x00000000#32) reducesTo_S256x2048_S256_d1 h_S_))) (broadcastInDim S256x1 ![] bcast_S_S256x1 (constant S_ .f32 0x322BCC77#32))))) transposes_S256x2048_S2048x256_1_0)) (concatenate S128x2 1 [⟨S128x1, (broadcastInDim S128x1 ![0] bcast_S128_S128x1_0 (select (cmpi .slt (addi (broadcastInDim S128 ![] bcast_S_S128 (constantI S_ 32 128#32)) (iotaInDim S128 32 0)) (broadcastInDim S128 ![] bcast_S_S128 (constantI S_ 32 0#32))) (addi (addi (broadcastInDim S128 ![] bcast_S_S128 (constantI S_ 32 128#32)) (iotaInDim S128 32 0)) (broadcastInDim S128 ![] bcast_S_S128 (constantI S_ 32 256#32))) (addi (broadcastInDim S128 ![] bcast_S_S128 (constantI S_ 32 128#32)) (iotaInDim S128 32 0))))⟩, ⟨S128x1, (broadcastInDim S128x1 ![0] bcast_S128_S128x1_0 (select (cmpi .slt (iotaInDim S128 32 0) (broadcastInDim S128 ![] bcast_S_S128 (constantI S_ 32 0#32))) (addi (iotaInDim S128 32 0) (broadcastInDim S128 ![] bcast_S_S128 (constantI S_ 32 256#32))) (iotaInDim S128 32 0)))⟩] concatenates_S128x1_S128x1_S128x2_d1))⟩] concatenates_S128_S128_S256_d0) (broadcastInDim S256 ![] bcast_S_S256 (constant S_ .f32 0x3F000000#32))) (Host.log (Host.reduceAdd (mulf (subf (broadcastInDim S256x256 ![] bcast_S_S256x256 (constant S_ .f32 0x3F800000#32)) (uitofp .f32 (cmpi .eq (addi (iotaInDim S256x256 32 0) (broadcastInDim S256x256 ![] bcast_S_S256x256 (constantI S_ 32 0#32))) (iotaInDim S256x256 32 1)))) (Host.exp (Host.divf (Host.dotGeneral dot_S256x2048_S2048x256_S256x256_1_0_0_1_n_n none (Host.divf (reps) (broadcastInDim S256x2048 ![0, 1] bcast_S256x1_S256x2048_0_1 (maximumf (Host.sqrt (broadcastInDim S256x1 ![0] bcast_S256_S256x1_0 (Host.reduceAdd (mulf (reps) (reps)) (constant S_ .f32 0x00000000#32) reducesTo_S256x2048_S256_d1 h_S_))) (broadcastInDim S256x1 ![] bcast_S_S256x1 (constant S_ .f32 0x322BCC77#32))))) (transpose S2048x256 [1, 0] (Host.divf (reps) (broadcastInDim S256x2048 ![0, 1] bcast_S256x1_S256x2048_0_1 (maximumf (Host.sqrt (broadcastInDim S256x1 ![0] bcast_S256_S256x1_0 (Host.reduceAdd (mulf (reps) (reps)) (constant S_ .f32 0x00000000#32) reducesTo_S256x2048_S256_d1 h_S_))) (broadcastInDim S256x1 ![] bcast_S_S256x1 (constant S_ .f32 0x322BCC77#32))))) transposes_S256x2048_S2048x256_1_0)) (broadcastInDim S256x256 ![] bcast_S_S256x256 (constant S_ .f32 0x3F000000#32))))) (constant S_ .f32 0x00000000#32) reducesTo_S256x256_S256_d1 h_S_)))) (constant S_ .f32 0x00000000#32) reducesTo_S256_S_d0 h_S_) (constant S_ .f32 0x43800000#32)

set_option maxRecDepth 8192 in
/-- The reference's result is the tail function of its representation matrix. -/
theorem res_eq (m : (ℓ : Loc nD τ sig) → Buf (Elt Ideal) ℓ) (c : Dev nD) :
    Cert.ReferenceIdeal.Value.res_main_v57 (F := Ideal) m c
      = tail (repsRef (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) := by
  unfold Cert.ReferenceIdeal.Value.res_main_v57 tail repsRef
  rfl

/-! ## Two 128-row blocks stacked, read at an entry -/

/-- A stack of two 128-row blocks read at a row below 128: the upper block at that row. -/
theorem stack_apply_lo {α : Type} {n : Nat} (x y : (⟨2, ![128, n]⟩ : Shape).Idx → α)
    (h : Shape.Concatenates [(⟨2, ![128, n]⟩ : Shape), ⟨2, ![128, n]⟩] ⟨2, ![256, n]⟩ 0)
    (r : Fin 256) (q : Fin n) (hr : r.val < 128) :
    concatenate (⟨2, ![256, n]⟩ : Shape) 0 [⟨⟨2, ![128, n]⟩, x⟩, ⟨⟨2, ![128, n]⟩, y⟩] h (ix2 r q)
      = x (ix2 ⟨r.val, hr⟩ q) :=
  concatenate_pair_apply_left (t := ⟨2, ![256, n]⟩) (s₁ := ⟨2, ![128, n]⟩) (s₂ := ⟨2, ![128, n]⟩) 0 x y h
    (ix2 r q) rfl (ix2 ⟨r.val, hr⟩ q) (fun b => by
      match b with
      | ⟨0, _⟩ => rfl
      | ⟨1, _⟩ => rfl)

/-- A stack of two 128-row blocks read at a row from 128 on: the lower block, 128 rows up. -/
theorem stack_apply_hi {α : Type} {n : Nat} (x y : (⟨2, ![128, n]⟩ : Shape).Idx → α)
    (h : Shape.Concatenates [(⟨2, ![128, n]⟩ : Shape), ⟨2, ![128, n]⟩] ⟨2, ![256, n]⟩ 0)
    (r : Fin 256) (q : Fin n) (hr : 128 ≤ r.val) :
    concatenate (⟨2, ![256, n]⟩ : Shape) 0 [⟨⟨2, ![128, n]⟩, x⟩, ⟨⟨2, ![128, n]⟩, y⟩] h (ix2 r q)
      = y (ix2 ⟨r.val - 128, by have := r.isLt; omega⟩ q) :=
  concatenate_pair_apply_right (t := ⟨2, ![256, n]⟩) (s₁ := ⟨2, ![128, n]⟩) (s₂ := ⟨2, ![128, n]⟩) 0 x y h
    (ix2 r q) rfl rfl (ix2 ⟨r.val - 128, by have := r.isLt; omega⟩ q)
    (fun b hb => by
      match b with
      | ⟨0, _⟩ => exact absurd rfl hb
      | ⟨1, _⟩ => rfl)
    (by show r.val - 128 + 128 = r.val; omega)

/-- The stacked input rows: the first view's row in the upper half … -/
theorem xcat_apply_lo (a0 a1 : FVec Ideal S128x512x5x6 .f32) (r : Fin 256) (k : Fin 15360) (hr : r.val < 128) :
    xcat a0 a1 (ix2 r k) = flat0 a0 (ix2 ⟨r.val, hr⟩ k) :=
  stack_apply_lo (flat0 a0) (flat1 a1) concatenates_S128x15360_S128x15360_S256x15360_d0 r k hr

/-- … and the mirrored second view's row, 128 rows up, in the lower half. -/
theorem xcat_apply_hi (a0 a1 : FVec Ideal S128x512x5x6 .f32) (r : Fin 256) (k : Fin 15360) (hr : 128 ≤ r.val) :
    xcat a0 a1 (ix2 r k) = flat1 a1 (ix2 ⟨r.val - 128, by have := r.isLt; omega⟩ k) :=
  stack_apply_hi (flat0 a0) (flat1 a1) concatenates_S128x15360_S128x15360_S256x15360_d0 r k hr

open Cert.ReferenceIdeal.Read

/-! ## The head read at an entry

The generated read lemmas give each stage of the head at an index from the stages before it; chained from the
last rectifier down to the flattened input they give one entry of the head as the double sum of `headAt`.
The index arithmetic is all by cases on the two axes. -/

/-- One entry of the head of an image batch: `headAt` of that row of the flattened batch. -/
theorem head_apply (x0 : FVec Ideal S128x512x5x6 .f32) (W1 : FVec Ideal S4096x15360 .f32) (b1 : FVec Ideal S4096 .f32)
    (W2 : FVec Ideal S2048x4096 .f32) (b2 : FVec Ideal S2048 .f32) (r : Fin 128) (c : Fin 2048) :
    val_main_v13 (F := Ideal) x0 W1 b1 W2 b2 (ix2 r c)
      = headAt (fun k => val_main_v1 (F := Ideal) x0 (ix2 r k)) W1 b1 W2 b2 c := by
  unfold headAt
  rw [val_main_v13_apply, val_main_v12_apply, val_main_v9_apply, val_main_call2_v0_apply, val_main_call2_cst_apply,
    val_main_v11_apply, val_main_v10_apply]
  show max ((∑ n : Fin 4096, _) + _) (Ideal.ofBits .f32 0x00000000#32) = _
  refine congrArg₂ max (congrArg₂ (· + ·) (Finset.sum_congr rfl fun n _ => ?_) (congrArg b2 ?_)) Ideal.ofBits_zero_f32
  · -- the hidden unit n, weighted
    have e1 : lidx_main_v9 (ix2 r c) n = ix2 r n := funext fun a => by
      match a with
      | ⟨0, _⟩ => rfl
      | ⟨1, _⟩ => rfl
    have e2 : ridx_main_v9 (ix2 r c) n = ix2 n c := funext fun a => by
      match a with
      | ⟨0, _⟩ => rfl
      | ⟨1, _⟩ => rfl
    rw [e1, e2, val_main_v8_apply, val_main_v7_apply, val_main_v6_apply, val_main_v3_apply, val_main_call1_v0_apply,
      val_main_call1_cst_apply, val_main_v5_apply, val_main_v4_apply]
    show max ((∑ k : Fin 15360, _) + _) (Ideal.ofBits .f32 0x00000000#32) * _ = _
    refine congrArg₂ (· * ·) (congrArg₂ max (congrArg₂ (· + ·) (Finset.sum_congr rfl fun k _ => ?_) (congrArg b1 ?_))
      Ideal.ofBits_zero_f32) (congrArg W2 ?_)
    · have e3 : lidx_main_v3 (ix2 r n) k = ix2 r k := funext fun a => by
        match a with
        | ⟨0, _⟩ => rfl
        | ⟨1, _⟩ => rfl
      have e4 : ridx_main_v3 (ix2 r n) k = ix2 k n := funext fun a => by
        match a with
        | ⟨0, _⟩ => rfl
        | ⟨1, _⟩ => rfl
      rw [e3, e4, val_main_v2_apply]
      refine congrArg (_ * W1 ·) (funext fun a => ?_)
      match a with
      | ⟨0, _⟩ => rfl
      | ⟨1, _⟩ => rfl
    · funext a
      match a with
      | ⟨0, _⟩ => rfl
    · funext a
      match a with
      | ⟨0, _⟩ => rfl
      | ⟨1, _⟩ => rfl
  · funext a
    match a with
    | ⟨0, _⟩ => rfl

/-! ## The representation matrix read at an entry -/

/-- The representation matrix is the head of the first batch stacked on the head of the mirrored second batch
    (the same head: the second differs from the first only in its input). -/
theorem repsRef_eq_stack (a0 a1 : FVec Ideal S128x512x5x6 .f32) (W1 : FVec Ideal S4096x15360 .f32)
    (b1 : FVec Ideal S4096 .f32) (W2 : FVec Ideal S2048x4096 .f32) (b2 : FVec Ideal S2048 .f32) :
    repsRef a0 a1 W1 b1 W2 b2
      = concatenate S256x2048 0 [⟨S128x2048, val_main_v13 (F := Ideal) a0 W1 b1 W2 b2⟩,
          ⟨S128x2048, val_main_v13 (F := Ideal) (Host.reverse [3] a1) W1 b1 W2 b2⟩]
          concatenates_S128x2048_S128x2048_S256x2048_d0 := rfl

/-- Entry (r, c) of the representation matrix is the head applied to row r of the stacked flattened inputs: the
    head works row by row, so stacking the two heads is the head of the stacked rows. -/
theorem repsRef_apply (a0 a1 : FVec Ideal S128x512x5x6 .f32) (W1 : FVec Ideal S4096x15360 .f32)
    (b1 : FVec Ideal S4096 .f32) (W2 : FVec Ideal S2048x4096 .f32) (b2 : FVec Ideal S2048 .f32)
    (r : Fin 256) (c : Fin 2048) :
    repsRef a0 a1 W1 b1 W2 b2 (ix2 r c) = headAt (fun k => xcat a0 a1 (ix2 r k)) W1 b1 W2 b2 c := by
  rw [repsRef_eq_stack]
  by_cases hr : r.val < 128
  · refine (stack_apply_lo (n := 2048) _ _ concatenates_S128x2048_S128x2048_S256x2048_d0 r c hr).trans ?_
    rw [head_apply]
    refine congrArg (headAt · W1 b1 W2 b2 c) (funext fun k => ?_)
    exact (xcat_apply_lo a0 a1 r k hr).symm
  · have hr' : 128 ≤ r.val := Nat.le_of_not_lt hr
    refine (stack_apply_hi (n := 2048) _ _ concatenates_S128x2048_S128x2048_S256x2048_d0 r c hr').trans ?_
    rw [head_apply]
    refine congrArg (headAt · W1 b1 W2 b2 c) (funext fun k => ?_)
    exact (xcat_apply_hi a0 a1 r k hr').symm

end Cert.RefSide

end
-- ==== Proof.KI.KernelHost.lean ====
import proofs.«124963_j54348516163877_2_alg».proof.Proof.KI.Vals
import proofs.«124963_j54348516163877_2_alg».proof.Proof.RefSide

/-!
# The program's host side at the ideal values

Before its two layers the program flattens the two image batches (the second mirrored), stacks them and converts
the stack to the layers' input format; after them it computes the loss from the representation matrix. Both
are the reference's own operations: the stacked input rows are the reference side's `xcat`, and the loss is the
reference's tail function of the representation matrix the second layer leaves.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-! ## The stacked input rows -/

/-- The array the first layer reads its input rows from holds the two flattened views stacked — the reference side's
    `xcat` — in the layers' input format; at the ideal values the change of format is the identity. -/
theorem x_fun (m : (ℓ : Loc nD τ sig) → Buf (Elt Ideal) ℓ) (c : Dev nD) :
    W2 (F := Ideal) m c (Proc.devRef .tc main_v4)
      = (truncf .bf16 (Cert.RefSide.xcat (m ((c.tc : Thread nD τ).loc main_arg0)) (m ((c.tc : Thread nD τ).loc main_arg1)))
          bitsLt_bf16_f32 : FVec Ideal S256x15360 .bf16) := by
  show StableHlo.after hostOps0_1 (StableHlo.after hostOps0 (W0 m c)) (Proc.devRef .tc main_v4) = _
  dsimp only [hostOps0_1, hostOps0, StableHlo.TRef.binary, StableHlo.TRef.unary, StableHlo.TRef.nullary,
    StableHlo.TRef.ternary, StableHlo.TRef.of, StableHlo.TRef.toBuf, StableHlo.TRef.ofBuf, cast_eq]
  after_results_simp <;> rfl

/-- Entry by entry. -/
theorem x_eq (m : (ℓ : Loc nD τ sig) → Buf (Elt Ideal) ℓ) (c : Dev nD) (r : Fin 256) (k : Fin 15360) :
    W2 (F := Ideal) m c (Proc.devRef .tc main_v4) (ix2 r k)
      = Cert.RefSide.xcat (m ((c.tc : Thread nD τ).loc main_arg0)) (m ((c.tc : Thread nD τ).loc main_arg1)) (ix2 r k) :=
  congrFun (x_fun m c) (ix2 r k)

/-! ## The loss, stage by stage

After the two layers the program computes the loss from the representation matrix by the same host operations as the
reference. Each stretch of operations is read here as one function of the few arrays it consumes, from ANY buffer
contents; composed, they are the reference's tail function. -/

/-- The Euclidean norm of each row, as a column. -/
def normOf (reps : FVec Ideal S256x2048 .f32) : FVec Ideal S256x1 .f32 :=
  (Host.sqrt (broadcastInDim S256x1 ![0] bcast_S256_S256x1_0 (Host.reduceAdd (mulf reps reps) (constant S_ .f32 0x00000000#32) reducesTo_S256x2048_S256_d1 h_S_)))

/-- The matrix of cosine similarities: rows divided by their norms (clamped below), times the transpose. -/
def simOf (reps : FVec Ideal S256x2048 .f32) (nrm : FVec Ideal S256x1 .f32) : FVec Ideal S256x256 .f32 :=
  (Host.dotGeneral dot_S256x2048_S2048x256_S256x256_1_0_0_1_n_n none (Host.divf reps (broadcastInDim S256x2048 ![0, 1] bcast_S256x1_S256x2048_0_1 (maximumf nrm (broadcastInDim S256x1 ![] bcast_S_S256x1 (constant S_ .f32 0x322BCC77#32))))) (transpose S2048x256 [1, 0] (Host.divf reps (broadcastInDim S256x2048 ![0, 1] bcast_S256x1_S256x2048_0_1 (maximumf nrm (broadcastInDim S256x1 ![] bcast_S_S256x1 (constant S_ .f32 0x322BCC77#32))))) transposes_S256x2048_S2048x256_1_0))

/-- The diagonal at offset +128 of the similarity matrix: entries (i, i + 128). -/
def pos1 (sim : FVec Ideal S256x256 .f32) : FVec Ideal S128 .f32 :=
  (Host.gather gather_S256x256_S128x2_S128_n_01_n_n_01_1_11 sim (concatenate S128x2 1 [⟨S128x1, (broadcastInDim S128x1 ![0] bcast_S128_S128x1_0 (select (cmpi .slt (iotaInDim S128 32 0) (broadcastInDim S128 ![] bcast_S_S128 (constantI S_ 32 0#32))) (addi (iotaInDim S128 32 0) (broadcastInDim S128 ![] bcast_S_S128 (constantI S_ 32 256#32))) (iotaInDim S128 32 0)))⟩, ⟨S128x1, (broadcastInDim S128x1 ![0] bcast_S128_S128x1_0 (select (cmpi .slt (addi (broadcastInDim S128 ![] bcast_S_S128 (constantI S_ 32 128#32)) (iotaInDim S128 32 0)) (broadcastInDim S128 ![] bcast_S_S128 (constantI S_ 32 0#32))) (addi (addi (broadcastInDim S128 ![] bcast_S_S128 (constantI S_ 32 128#32)) (iotaInDim S128 32 0)) (broadcastInDim S128 ![] bcast_S_S128 (constantI S_ 32 256#32))) (addi (broadcastInDim S128 ![] bcast_S_S128 (constantI S_ 32 128#32)) (iotaInDim S128 32 0))))⟩] concatenates_S128x1_S128x1_S128x2_d1))

/-- The diagonal at offset −128 of the similarity matrix: entries (i + 128, i). -/
def pos2 (sim : FVec Ideal S256x256 .f32) : FVec Ideal S128 .f32 :=
  (Host.gather gather_S256x256_S128x2_S128_n_01_n_n_01_1_11 sim (concatenate S128x2 1 [⟨S128x1, (broadcastInDim S128x1 ![0] bcast_S128_S128x1_0 (select (cmpi .slt (addi (broadcastInDim S128 ![] bcast_S_S128 (constantI S_ 32 128#32)) (iotaInDim S128 32 0)) (broadcastInDim S128 ![] bcast_S_S128 (constantI S_ 32 0#32))) (addi (addi (broadcastInDim S128 ![] bcast_S_S128 (constantI S_ 32 128#32)) (iotaInDim S128 32 0)) (broadcastInDim S128 ![] bcast_S_S128 (constantI S_ 32 256#32))) (addi (broadcastInDim S128 ![] bcast_S_S128 (constantI S_ 32 128#32)) (iotaInDim S128 32 0))))⟩, ⟨S128x1, (broadcastInDim S128x1 ![0] bcast_S128_S128x1_0 (select (cmpi .slt (iotaInDim S128 32 0) (broadcastInDim S128 ![] bcast_S_S128 (constantI S_ 32 0#32))) (addi (iotaInDim S128 32 0) (broadcastInDim S128 ![] bcast_S_S128 (constantI S_ 32 256#32))) (iotaInDim S128 32 0)))⟩] concatenates_S128x1_S128x1_S128x2_d1))

/-- The mean over the 256 rows of log of the masked sum of exponentials minus the positive similarity, both at
    temperature one half. -/
def lossOf (sim : FVec Ideal S256x256 .f32) (p1 p2 : FVec Ideal S128 .f32) : FVec Ideal S_ .f32 :=
  Host.divf (Host.reduceAdd (Host.negf (subf (Host.divf (concatenate S256 0 [⟨S128, p1⟩, ⟨S128, p2⟩] concatenates_S128_S128_S256_d0) (broadcastInDim S256 ![] bcast_S_S256 (constant S_ .f32 0x3F000000#32))) (Host.log (Host.reduceAdd (mulf (subf (broadcastInDim S256x256 ![] bcast_S_S256x256 (constant S_ .f32 0x3F800000#32)) (uitofp .f32 (cmpi .eq (addi (iotaInDim S256x256 32 0) (broadcastInDim S256x256 ![] bcast_S_S256x256 (constantI S_ 32 0#32))) (iotaInDim S256x256 32 1)))) (Host.exp (Host.divf sim (broadcastInDim S256x256 ![] bcast_S_S256x256 (constant S_ .f32 0x3F000000#32))))) (constant S_ .f32 0x00000000#32) reducesTo_S256x256_S256_d1 h_S_)))) (constant S_ .f32 0x00000000#32) reducesTo_S256_S_d0 h_S_) (constant S_ .f32 0x43800000#32)

section Stages
variable (V : Valuation τ sig (Elt Ideal))

theorem norm_stage : StableHlo.after hostOps2 V (Proc.devRef .tc main_v7) = normOf (V (Proc.devRef .tc main_v6)) := by
  dsimp only [hostOps2, StableHlo.TRef.binary, StableHlo.TRef.unary, StableHlo.TRef.nullary, StableHlo.TRef.ternary,
    StableHlo.TRef.of, StableHlo.TRef.toBuf, StableHlo.TRef.ofBuf, cast_eq]
  after_results_simp <;> rfl

theorem sim_stage : StableHlo.after hostOps2_1 V (Proc.devRef .tc main_v13)
    = simOf (V (Proc.devRef .tc main_v6)) (V (Proc.devRef .tc main_v7)) := by
  dsimp only [hostOps2_1]
  after_results_simp <;> rfl

theorem loss_stage : StableHlo.after hostOps2_4 V (Proc.devRef .tc main_v36)
    = lossOf (V (Proc.devRef .tc main_v13)) (V (Proc.devRef .tc main_v14)) (V (Proc.devRef .tc main_v15)) := by
  dsimp only [hostOps2_4]
  after_results_simp <;> rfl

end Stages

section Stages2
variable (V : Valuation τ sig (Elt Ideal))

theorem pos1_stage : StableHlo.after hostOps2_2 V (Proc.devRef .tc main_v14) = pos1 (V (Proc.devRef .tc main_v13)) := by
  dsimp only [hostOps2_2, StableHlo.TRef.binary, StableHlo.TRef.unary, StableHlo.TRef.nullary, StableHlo.TRef.ternary,
    StableHlo.TRef.of, StableHlo.TRef.toBuf, StableHlo.TRef.ofBuf, cast_eq]
  after_results_simp <;> rfl

theorem pos2_stage : StableHlo.after hostOps2_3 V (Proc.devRef .tc main_v15) = pos2 (V (Proc.devRef .tc main_v13)) := by
  dsimp only [hostOps2_3, StableHlo.TRef.binary, StableHlo.TRef.unary, StableHlo.TRef.nullary, StableHlo.TRef.ternary,
    StableHlo.TRef.of, StableHlo.TRef.toBuf, StableHlo.TRef.ofBuf, cast_eq]
  after_results_simp <;> rfl

end Stages2

/-! ## The stages composed -/

/-- The reference's tail function is the composition of the stages. -/
theorem tail_eq_stages (reps : FVec Ideal S256x2048 .f32) :
    Cert.RefSide.tail reps
      = lossOf (simOf reps (normOf reps)) (pos1 (simOf reps (normOf reps))) (pos2 (simOf reps (normOf reps))) := by
  unfold Cert.RefSide.tail lossOf pos1 pos2 simOf normOf
  rfl

/-- The five stretches of host operations after the layers, from any buffer contents: the reference's tail function of
    the representation matrix those contents hold. -/
theorem tail_of (V : Valuation τ sig (Elt Ideal)) :
    StableHlo.after hostOps2_4 (StableHlo.after hostOps2_3 (StableHlo.after hostOps2_2 (StableHlo.after hostOps2_1
      (StableHlo.after hostOps2 V)))) (Proc.devRef .tc main_v36)
      = Cert.RefSide.tail (V (Proc.devRef .tc main_v6)) := by
  rw [tail_eq_stages, loss_stage, pos2_stage,
    StableHlo.after_of_writes_sub hostOps2_3 _ hostOps2_3_writes (r := main_v13) (by decide),
    StableHlo.after_of_writes_sub hostOps2_3 _ hostOps2_3_writes (r := main_v14) (by decide),
    pos1_stage,
    StableHlo.after_of_writes_sub hostOps2_2 _ hostOps2_2_writes (r := main_v13) (by decide),
    sim_stage, norm_stage,
    StableHlo.after_of_writes_sub hostOps2 _ hostOps2_writes (r := main_v6) (by decide)]

/-- The program's result buffer at its end is the reference's tail function of what the second layer leaves in its
    output array. -/
theorem tail_eq (m : (ℓ : Loc nD τ sig) → Buf (Elt Ideal) ℓ) (c : Dev nD) :
    W9 (F := Ideal) m c (Proc.devRef .tc main_v36) = Cert.RefSide.tail (W4 (F := Ideal) m c (Proc.devRef .tc main_v6)) :=
  tail_of (W4 (F := Ideal) m c)

end Cert.KernelIdeal.Hand

end
-- ==== Proof.KI.Assemble.lean ====
/-
  The head's output, entry by entry.  Layer 2's output array at (r, n) is max(Σ_k h(r,k)·W2(n,k) + b2(n), 0) of layer 1's
  output h, which at (r, k) is max(Σ_j x(r,j)·W1(k,j) + b1(k), 0) of the stacked flattened views x: the two-layer head of
  row r of the stack.  The reference computes the head of each view apart and stacks the results; an entry of either
  depends on its own input row only, so the two arrays agree entry by entry.  Both programs then apply the same
  operations to that array.
-/
import proofs.«124963_j54348516163877_2_alg».proof.Proof.KI.Frame
import proofs.«124963_j54348516163877_2_alg».proof.Proof.KI.Value0
import proofs.«124963_j54348516163877_2_alg».proof.Proof.KI.Value1
import proofs.«124963_j54348516163877_2_alg».proof.Proof.KI.KernelHost
import proofs.«124963_j54348516163877_2_alg».proof.Proof.RefSide

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.ValueIdx

variable (m : (ℓ : Loc nD τ sig) → Buf (Elt Ideal) ℓ)

/-! ## The weights and biases reach both layers as launched -/

theorem W2_main_arg2 (c : Dev nD) : W2 m c (Proc.devRef .tc main_arg2) = m ((c : Thread nD τ).loc main_arg2) :=
  (StableHlo.after_of_writes_sub hostOps0_1 _ hostOps0_1_writes (r := main_arg2) (by decide)).trans
    ((StableHlo.after_of_writes_sub hostOps0 _ hostOps0_writes (r := main_arg2) (by decide)).trans rfl)
theorem W2_main_arg3 (c : Dev nD) : W2 m c (Proc.devRef .tc main_arg3) = m ((c : Thread nD τ).loc main_arg3) :=
  (StableHlo.after_of_writes_sub hostOps0_1 _ hostOps0_1_writes (r := main_arg3) (by decide)).trans
    ((StableHlo.after_of_writes_sub hostOps0 _ hostOps0_writes (r := main_arg3) (by decide)).trans rfl)
theorem W2_main_arg4 (c : Dev nD) : W2 m c (Proc.devRef .tc main_arg4) = m ((c : Thread nD τ).loc main_arg4) :=
  (StableHlo.after_of_writes_sub hostOps0_1 _ hostOps0_1_writes (r := main_arg4) (by decide)).trans
    ((StableHlo.after_of_writes_sub hostOps0 _ hostOps0_writes (r := main_arg4) (by decide)).trans rfl)
theorem W2_main_arg5 (c : Dev nD) : W2 m c (Proc.devRef .tc main_arg5) = m ((c : Thread nD τ).loc main_arg5) :=
  (StableHlo.after_of_writes_sub hostOps0_1 _ hostOps0_1_writes (r := main_arg5) (by decide)).trans
    ((StableHlo.after_of_writes_sub hostOps0 _ hostOps0_writes (r := main_arg5) (by decide)).trans rfl)

/-! ## Layer 1's output is the hidden layer of the stacked rows -/

/-- The array layer 1 leaves: at (r, k), the rectified affine map of row r of the stacked flattened views. -/
theorem hidden_eq (c : Dev nD) :
    V3 m c main_v5 = fun i => Value0.outAt (Cert.RefSide.xcat (m ((c.tc : Thread nD τ).loc main_arg0)) (m ((c.tc : Thread nD τ).loc main_arg1)))
      (m ((c.tc : Thread nD τ).loc main_arg2)) (m ((c.tc : Thread nD τ).loc main_arg3)) (i 0) (i 1) := by
  have hx : V2 m c main_v4 = Cert.RefSide.xcat (m ((c.tc : Thread nD τ).loc main_arg0)) (m ((c.tc : Thread nD τ).loc main_arg1)) := by
    funext i
    obtain ⟨r, k, rfl⟩ : ∃ (r : Fin 256) (k : Fin 15360), i = ix2 r k := ⟨i 0, i 1, eq_ix2 i⟩
    exact x_eq m c r k
  have h2 : V2 m c main_arg2 = m ((c.tc : Thread nD τ).loc main_arg2) := W2_main_arg2 m c
  have h3 : V2 m c main_arg3 = m ((c.tc : Thread nD τ).loc main_arg3) := W2_main_arg3 m c
  refine ((W3_arr m c 3).trans (Value0.final0 (V2 m) c)).trans ?_
  unfold Value0.G0
  rw [hx, h2, h3]
  rfl

/-! ## Layer 2's output is the reference's representation matrix -/

/-- The array layer 2 leaves is the reference's stacked head outputs. -/
theorem reps_eq (c : Dev nD) :
    W4 (F := Ideal) m c (Proc.devRef .tc main_v6)
      = Cert.RefSide.repsRef (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext i
  obtain ⟨r, n, rfl⟩ : ∃ (r : Fin 256) (n : Fin 2048), i = ix2 r n := ⟨i 0, i 1, eq_ix2 i⟩
  rw [Cert.RefSide.repsRef_apply]
  refine (congrFun (W4_arr m c 3) (ix2 r n)).trans ?_
  refine (arr1_apply (V3 m) c r n).trans ?_
  have h4 : V3 m c main_arg4 = m ((c.tc : Thread nD τ).loc main_arg4) :=
    (W3_of_ne m c main_arg4 (by decide)).trans (W2_main_arg4 m c)
  have h5 : V3 m c main_arg5 = m ((c.tc : Thread nD τ).loc main_arg5) :=
    (W3_of_ne m c main_arg5 (by decide)).trans (W2_main_arg5 m c)
  rw [hidden_eq m c, h4, h5]
  rfl

/-- The kernel program's result is the shared tail of the reference's stacked head outputs. -/
theorem result_eq (c : Dev nD) :
    W9 (F := Ideal) m c (Proc.devRef .tc main_v36)
      = Cert.RefSide.tail (Cert.RefSide.repsRef (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) :=
  (tail_eq m c).trans (congrArg Cert.RefSide.tail (reps_eq m c))

end Cert.KernelIdeal.Hand

end
-- ==== Proof.lean ====
/-
  A two-layer perceptron head with a contrastive loss, against its reference.

  The kernel program flattens the first view and the mirrored second view, stacks the 256 rows, and applies each layer
  as one pipelined matmul kernel: the grid's second axis walks the contraction in tiles, a VMEM accumulator is zeroed at
  the first tile, the tile product of the resident input's column tile with the weight tile's transpose is added at
  every tile, and at the last tile max(acc + bias, 0) is stored into the output block.  The reference applies the head
  to each view apart and stacks the two outputs.  Both then compute the same loss from the stacked outputs.

  Over the extended reals a change of float format is the identity, the accumulator's chain 0 + p₀ + p₁ + … of tile sums
  is the sum over the whole contracted axis (addition is commutative and associative there, so no finiteness is needed),
  and an entry of a head's output depends on its own input row only; hence the two stacked arrays agree entry by entry,
  and the shared loss of equal arrays is equal.

  The three frames: each kernel program's is its run as nine segments (host stretches and the two regions), each
  region's body obligation discharged by running the body once per control case; the reference's is its run with the
  result dropped.  The idealization rewrote nothing, so `preserves` is trivial.
-/
import proofs.«124963_j54348516163877_2_alg».proof.Defs
import proofs.«124963_j54348516163877_2_alg».proof.Proof.Gen.Kernel
import proofs.«124963_j54348516163877_2_alg».proof.Proof.Gen.KernelIdeal
import proofs.«124963_j54348516163877_2_alg».proof.Proof.Gen.ReferenceIdeal
import proofs.«124963_j54348516163877_2_alg».proof.Proof.Gen.ReferenceIdeal.Run
import proofs.«124963_j54348516163877_2_alg».proof.Proof.Gen.Pre_finite_inputs
import proofs.«124963_j54348516163877_2_alg».proof.Proof.KB.Frame
import proofs.«124963_j54348516163877_2_alg».proof.Proof.KI.Frame
import proofs.«124963_j54348516163877_2_alg».proof.Proof.KI.Assemble
import proofs.«124963_j54348516163877_2_alg».proof.Proof.RefSide
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the shared loss of the same stacked head outputs. -/
theorem algebraic : Cert.algebraic_KernelIdeal_ReferenceIdeal := by
  intro m ρ m' ρ' _ hagree
  refine ⟨fun c => Cert.KernelIdeal.Hand.W9 (F := Ideal) m c (Proc.devRef .tc Cert.KernelIdeal.main_v36), ?_, ?_⟩
  · exact (θ_run Cert.KernelIdeal.defs _ _).mono (fun _ h c =>
      ⟨h c _ (Cert.KernelIdeal.Hand.mem_uc Cert.KernelIdeal.main_v36 (by decide)),
       (h c _ (Cert.KernelIdeal.Hand.mem_uc Cert.KernelIdeal.main_arg0 (by decide))).trans (Cert.KernelIdeal.Hand.W9_main_arg0 m c),
       (h c _ (Cert.KernelIdeal.Hand.mem_uc Cert.KernelIdeal.main_arg1 (by decide))).trans (Cert.KernelIdeal.Hand.W9_main_arg1 m c),
       (h c _ (Cert.KernelIdeal.Hand.mem_uc Cert.KernelIdeal.main_arg2 (by decide))).trans (Cert.KernelIdeal.Hand.W9_main_arg2 m c),
       (h c _ (Cert.KernelIdeal.Hand.mem_uc Cert.KernelIdeal.main_arg3 (by decide))).trans (Cert.KernelIdeal.Hand.W9_main_arg3 m c),
       (h c _ (Cert.KernelIdeal.Hand.mem_uc Cert.KernelIdeal.main_arg4 (by decide))).trans (Cert.KernelIdeal.Hand.W9_main_arg4 m c),
       (h c _ (Cert.KernelIdeal.Hand.mem_uc Cert.KernelIdeal.main_arg5 (by decide))).trans (Cert.KernelIdeal.Hand.W9_main_arg5 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    refine (Cert.RefSide.res_eq m' c).trans ?_
    rw [(hagree c).1, (hagree c).2.1, (hagree c).2.2.1, (hagree c).2.2.2.1, (hagree c).2.2.2.2.1, (hagree c).2.2.2.2.2]
    exact (Cert.KernelIdeal.Hand.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
